-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x64x64 : Shape := ⟨4, ![2, 256, 64, 64]⟩
abbrev S256 : Shape := ⟨1, ![256]⟩
abbrev S768x256 : Shape := ⟨2, ![768, 256]⟩
abbrev S256x256 : Shape := ⟨2, ![256, 256]⟩
abbrev S_ : Shape := ⟨0, ![]⟩

class Facts : Prop where
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_arg5 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S2x256x64x64 .f32) (main_arg1 : FVec F S256 .f32) (main_arg2 : FVec F S256 .f32) (main_arg3 : FVec F S768x256 .f32) (main_arg4 : FVec F S256x256 .f32) (main_arg5 : FVec F S256 .f32) : IVec S_ 1 :=
  let main_v0 : FVec F S2x256x64x64 .f32 := Host.absf main_arg0
  let main_cst : FVec F S_ .f32 := constant S_ .f32 0x7F800000#32
  let main_v1 : FVec F S2x256x64x64 .f32 := broadcastInDim S2x256x64x64 ![] bcast_S_S2x256x64x64 main_cst
  let main_v2 : IVec S2x256x64x64 1 := cmpf .olt main_v0 main_v1
  let main_c : IVec S_ 1 := constantI S_ 1 1#1
  let main_v3 : IVec S_ 1 := (fun x v => Host.reduce IntOp.andi x v reducesTo_S2x256x64x64_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_v13 main_v16
-- ==== Kernel.lean ====
abbrev S2x256x64x64 : Shape := ⟨4, ![2, 256, 64, 64]⟩
abbrev S256 : Shape := ⟨1, ![256]⟩
abbrev S768x256 : Shape := ⟨2, ![768, 256]⟩
abbrev S256x256 : Shape := ⟨2, ![256, 256]⟩
abbrev S2x256x4096 : Shape := ⟨3, ![2, 256, 4096]⟩
abbrev S256x1 : Shape := ⟨2, ![256, 1]⟩
abbrev S1x256x512 : Shape := ⟨3, ![1, 256, 512]⟩
abbrev S256x512 : Shape := ⟨2, ![256, 512]⟩
abbrev S512 : Shape := ⟨1, ![512]⟩
abbrev S1x512 : Shape := ⟨2, ![1, 512]⟩
abbrev S768x512 : Shape := ⟨2, ![768, 512]⟩
abbrev S1x256x4096 : Shape := ⟨3, ![1, 256, 4096]⟩
abbrev S1x32x512 : Shape := ⟨3, ![1, 32, 512]⟩
abbrev S32x512 : Shape := ⟨2, ![32, 512]⟩
abbrev S1x32x4096 : Shape := ⟨3, ![1, 32, 4096]⟩
abbrev S32x4096 : Shape := ⟨2, ![32, 4096]⟩
abbrev S4096x512 : Shape := ⟨2, ![4096, 512]⟩

abbrev nBuf : Space → Nat
  | .hbm => 17
  | .vmem => 23
  | .smem => 0
  | _ => 0

abbrev bufTy : (tb : Table) → Fin (tcTables nBuf tb) → BufTy
  | .hbm, ⟨0, _⟩ => ⟨S2x256x64x64, .f32⟩
  | .hbm, ⟨1, _⟩ => ⟨S256, .f32⟩
  | .hbm, ⟨2, _⟩ => ⟨S256, .f32⟩
  | .hbm, ⟨3, _⟩ => ⟨S768x256, .f32⟩
  | .hbm, ⟨4, _⟩ => ⟨S256x256, .f32⟩
  | .hbm, ⟨5, _⟩ => ⟨S256, .f32⟩
  | .hbm, ⟨6, _⟩ => ⟨S2x256x4096, .f32⟩
  | .hbm, ⟨7, _⟩ => ⟨S256x1, .f32⟩
  | .hbm, ⟨8, _⟩ => ⟨S256x1, .f32⟩
  | .hbm, ⟨9, _⟩ => ⟨S256x1, .f32⟩
  | .hbm, ⟨10, _⟩ => ⟨S768x256, .bf16⟩
  | .hbm, ⟨11, _⟩ => ⟨S256x256, .bf16⟩
  | .hbm, ⟨12, _⟩ => ⟨S2x256x4096, .bf16⟩
  | .hbm, ⟨13, _⟩ => ⟨S2x256x4096, .bf16⟩
  | .hbm, ⟨14, _⟩ => ⟨S2x256x4096, .bf16⟩
  | .hbm, ⟨15, _⟩ => ⟨S2x256x4096, .f32⟩
  | .hbm, ⟨16, _⟩ => ⟨S2x256x64x64, .f32⟩
  | .local _ .vmem, ⟨0, _⟩ => ⟨S1x256x512, .f32⟩
  | .local _ .vmem, ⟨1, _⟩ => ⟨S1x256x512, .f32⟩
  | .local _ .vmem, ⟨2, _⟩ => ⟨S256x1, .f32⟩
  | .local _ .vmem, ⟨3, _⟩ => ⟨S256x1, .f32⟩
  | .local _ .vmem, ⟨4, _⟩ => ⟨S768x256, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x4096, .bf16⟩
  | .local _ .vmem, ⟨14, _⟩ => ⟨S1x256x4096, .bf16⟩
  | .local _ .vmem, ⟨15, _⟩ => ⟨S1x256x4096, .bf16⟩
  | .local _ .vmem, ⟨16, _⟩ => ⟨S1x256x4096, .bf16⟩
  | .local _ .vmem, ⟨17, _⟩ => ⟨S1x256x512, .f32⟩
  | .local _ .vmem, ⟨18, _⟩ => ⟨S1x256x512, .f32⟩
  | .local _ .vmem, ⟨19, _⟩ => ⟨S256x256, .bf16⟩
  | .local _ .vmem, ⟨20, _⟩ => ⟨S256x1, .f32⟩
  | .local _ .vmem, ⟨21, _⟩ => ⟨S1x256x512, .f32⟩
  | .local _ .vmem, ⟨22, _⟩ => ⟨S1x256x512, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S2x256x64x64_S2x256x4096 : S2x256x64x64.ShapeCasts S2x256x4096
  shapeCasts_S256_S256x1 : S256.ShapeCasts S256x1
  bitsLt_bf16_f32 : FTy.bits .bf16 < FTy.bits .f32
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S256x512_S512 : S256x512.Reduces [0] S512
  shapeCasts_S512_S1x512 : S512.ShapeCasts S1x512
  broadcasts_S1x512_S256x512 : S1x512.Broadcasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  inb_S768x256_S768x256_0_0 : ∀ a, (![0, 0] : Fin 2 → Nat) a + S768x256.size a ≤ S768x256.size a
  h_S768x256 : 0 < S768x256.numel
  shapeCasts_S768x256_S768x256 : S768x256.ShapeCasts S768x256
  slices_S768x512_o0_0_S256x512 : S768x512.Slices ![0, 0] S256x512
  shapeCasts_S256x512_S1x256x512 : S256x512.ShapeCasts S1x256x512
  packedbf16_S1x256x512_S1x256x512_0_0_0 : (Rect.unit (s := S1x256x512) ![0, 0, 0] S1x256x512.size inb_S1x256x512_S1x256x512_0_0_0).PackedRows (EltTy.packing .bf16)
  slices_S768x512_o256_0_S256x512 : S768x512.Slices ![256, 0] S256x512
  slices_S768x512_o512_0_S256x512 : S768x512.Slices ![512, 0] S256x512
  inb_S1x256x512_S1x32x512_0_0_0 : ∀ a, (![0, 0, 0] : Fin 3 → Nat) a + S1x32x512.size a ≤ S1x256x512.size a
  h_S1x32x512 : 0 < S1x32x512.numel
  shapeCasts_S1x32x512_S32x512 : S1x32x512.ShapeCasts S32x512
  inb_S1x256x4096_S1x32x4096_0_0_0 : ∀ a, (![0, 0, 0] : Fin 3 → Nat) a + S1x32x4096.size a ≤ S1x256x4096.size a
  h_S1x32x4096 : 0 < S1x32x4096.numel
  shapeCasts_S1x32x4096_S32x4096 : S1x32x4096.ShapeCasts S32x4096
  reduces_S4096x512_S512 : S4096x512.Reduces [0] S512
  broadcasts_S1x512_S4096x512 : S1x512.Broadcasts S4096x512
  broadcasts_S1x512_S32x512 : S1x512.Broadcasts S32x512
  inb_S1x256x512_S1x32x512_0_32_0 : ∀ a, (![0, 32, 0] : Fin 3 → Nat) a + S1x32x512.size a ≤ S1x256x512.size a
  inb_S1x256x4096_S1x32x4096_0_32_0 : ∀ a, (![0, 32, 0] : Fin 3 → Nat) a + S1x32x4096.size a ≤ S1x256x4096.size a
  inb_S1x256x512_S1x32x512_0_64_0 : ∀ a, (![0, 64, 0] : Fin 3 → Nat) a + S1x32x512.size a ≤ S1x256x512.size a
  inb_S1x256x4096_S1x32x4096_0_64_0 : ∀ a, (![0, 64, 0] : Fin 3 → Nat) a + S1x32x4096.size a ≤ S1x256x4096.size a
  inb_S1x256x512_S1x32x512_0_96_0 : ∀ a, (![0, 96, 0] : Fin 3 → Nat) a + S1x32x512.size a ≤ S1x256x512.size a
  inb_S1x256x4096_S1x32x4096_0_96_0 : ∀ a, (![0, 96, 0] : Fin 3 → Nat) a + S1x32x4096.size a ≤ S1x256x4096.size a
  inb_S1x256x512_S1x32x512_0_128_0 : ∀ a, (![0, 128, 0] : Fin 3 → Nat) a + S1x32x512.size a ≤ S1x256x512.size a
  inb_S1x256x4096_S1x32x4096_0_128_0 : ∀ a, (![0, 128, 0] : Fin 3 → Nat) a + S1x32x4096.size a ≤ S1x256x4096.size a
  inb_S1x256x512_S1x32x512_0_160_0 : ∀ a, (![0, 160, 0] : Fin 3 → Nat) a + S1x32x512.size a ≤ S1x256x512.size a
  inb_S1x256x4096_S1x32x4096_0_160_0 : ∀ a, (![0, 160, 0] : Fin 3 → Nat) a + S1x32x4096.size a ≤ S1x256x4096.size a
  inb_S1x256x512_S1x32x512_0_192_0 : ∀ a, (![0, 192, 0] : Fin 3 → Nat) a + S1x32x512.size a ≤ S1x256x512.size a
  inb_S1x256x4096_S1x32x4096_0_192_0 : ∀ a, (![0, 192, 0] : Fin 3 → Nat) a + S1x32x4096.size a ≤ S1x256x4096.size a
  inb_S1x256x512_S1x32x512_0_224_0 : ∀ a, (![0, 224, 0] : Fin 3 → Nat) a + S1x32x512.size a ≤ S1x256x512.size a
  inb_S1x256x4096_S1x32x4096_0_224_0 : ∀ a, (![0, 224, 0] : Fin 3 → Nat) a + S1x32x4096.size a ≤ S1x256x4096.size a
  concatenates_S32x512_S32x512_S32x512_S32x512_S32x512_S32x512_S32x512_S32x512_S256x512_d0 : Shape.Concatenates [S32x512, S32x512, S32x512, S32x512, S32x512, S32x512, S32x512, S32x512] S256x512 0
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2x256x4096_S2x256x64x64 : S2x256x4096.ShapeCasts S2x256x64x64
  dot_S768x256_S256x512_S768x512_1_0_0_1_n_n_wf : DotDims.WF S768x256 S256x512 S768x512 [1] [0] [0] [1] [] []
  dot_S32x4096_S32x512_S4096x512_0_0_1_1_n_n_wf : DotDims.WF S32x4096 S32x512 S4096x512 [0] [0] [1] [1] [] []
  dot_S32x4096_S4096x512_S32x512_1_0_0_1_n_n_wf : DotDims.WF S32x4096 S4096x512 S32x512 [1] [0] [0] [1] [] []
  dot_S256x256_S256x512_S256x512_1_0_0_1_n_n_wf : DotDims.WF S256x256 S256x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S2x256x4096.size a
  hwx0_0 : ∀ i : grid0.Coords, EltTy.bits .f32 = 32 ∨ (Rect.block (s := S2x256x4096) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .bf16 = 32 ∨ (Rect.block (s := S768x256) S768x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S2x256x4096.size a
  hwx0_4 : ∀ i : grid0.Coords, EltTy.bits .bf16 = 32 ∨ (Rect.block (s := S2x256x4096) S1x256x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x512.size a ≤ S2x256x4096.size a
  hwx0_5 : ∀ i : grid0.Coords, EltTy.bits .bf16 = 32 ∨ (Rect.block (s := S2x256x4096) S1x256x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x512.size a ≤ S2x256x4096.size a
  hwx0_6 : ∀ i : grid0.Coords, EltTy.bits .bf16 = 32 ∨ (Rect.block (s := S2x256x4096) S1x256x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S2x256x4096.size a
  hwx1_0 : ∀ i : grid1.Coords, EltTy.bits .bf16 = 32 ∨ (Rect.block (s := S2x256x4096) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S2x256x4096.size a
  hwx1_1 : ∀ i : grid1.Coords, EltTy.bits .bf16 = 32 ∨ (Rect.block (s := S2x256x4096) S1x256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x4096.size a ≤ S2x256x4096.size a
  hwx1_2 : ∀ i : grid1.Coords, EltTy.bits .bf16 = 32 ∨ (Rect.block (s := S2x256x4096) S1x256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x512.size a ≤ S2x256x4096.size a
  hwx1_3 : ∀ i : grid1.Coords, EltTy.bits .f32 = 32 ∨ (Rect.block (s := S2x256x4096) S1x256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x512.size a ≤ S2x256x4096.size a
  hwx1_6 : ∀ i : grid1.Coords, EltTy.bits .f32 = 32 ∨ (Rect.block (s := S2x256x4096) S1x256x512.size (cc1_transform_6 i) (hinb1_6 i)).WholeWords (EltTy.packing .f32)

variable [Facts₀]

def dot_S768x256_S256x512_S768x512_1_0_0_1_n_n : DotDims S768x256 S256x512 S768x512 where
  lhsContracting := [1]
  rhsContracting := [0]
  lhsNonContracting := [0]
  rhsNonContracting := [1]
  lhsBatch := []
  rhsBatch := []
  wf := dot_S768x256_S256x512_S768x512_1_0_0_1_n_n_wf
def dot_S32x4096_S32x512_S4096x512_0_0_1_1_n_n : DotDims S32x4096 S32x512 S4096x512 where
  lhsContracting := [0]
  rhsContracting := [0]
  lhsNonContracting := [1]
  rhsNonContracting := [1]
  lhsBatch := []
  rhsBatch := []
  wf := dot_S32x4096_S32x512_S4096x512_0_0_1_1_n_n_wf
def dot_S32x4096_S4096x512_S32x512_1_0_0_1_n_n : DotDims S32x4096 S4096x512 S32x512 where
  lhsContracting := [1]
  rhsContracting := [0]
  lhsNonContracting := [0]
  rhsNonContracting := [1]
  lhsBatch := []
  rhsBatch := []
  wf := dot_S32x4096_S4096x512_S32x512_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x256x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1x256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x256x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x256x64x64 : Shape := ⟨4, ![2, 256, 64, 64]⟩
abbrev S256 : Shape := ⟨1, ![256]⟩
abbrev S768x256 : Shape := ⟨2, ![768, 256]⟩
abbrev S256x256 : Shape := ⟨2, ![256, 256]⟩
abbrev S2x256x4096 : Shape := ⟨3, ![2, 256, 4096]⟩
abbrev S2x4096x256 : Shape := ⟨3, ![2, 4096, 256]⟩
abbrev S_ : Shape := ⟨0, ![]⟩
abbrev S2x4096 : Shape := ⟨2, ![2, 4096]⟩
abbrev S2x4096x1 : Shape := ⟨3, ![2, 4096, 1]⟩
abbrev S1x1x256 : Shape := ⟨3, ![1, 1, 256]⟩
abbrev S2x4096x768 : Shape := ⟨3, ![2, 4096, 768]⟩
abbrev S2x4096x3x8x32 : Shape := ⟨5, ![2, 4096, 3, 8, 32]⟩
abbrev S3x2x8x4096x32 : Shape := ⟨5, ![3, 2, 8, 4096, 32]⟩
abbrev S1x2x8x4096x32 : Shape := ⟨5, ![1, 2, 8, 4096, 32]⟩
abbrev S2x8x4096x32 : Shape := ⟨4, ![2, 8, 4096, 32]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x4096x8x32 : Shape := ⟨4, ![2, 4096, 8, 32]⟩

abbrev nBuf : Space → Nat
  | .hbm => 89
  | .vmem => 0
  | .smem => 0
  | _ => 0

abbrev bufTy : (tb : Table) → Fin (tcTables nBuf tb) → BufTy
  | .hbm, ⟨0, _⟩ => ⟨S2x256x64x64, .f32⟩
  | .hbm, ⟨1, _⟩ => ⟨S256, .f32⟩
  | .hbm, ⟨2, _⟩ => ⟨S256, .f32⟩
  | .hbm, ⟨3, _⟩ => ⟨S768x256, .f32⟩
  | .hbm, ⟨4, _⟩ => ⟨S256x256, .f32⟩
  | .hbm, ⟨5, _⟩ => ⟨S256, .f32⟩
  | .hbm, ⟨6, _⟩ => ⟨S2x256x4096, .f32⟩
  | .hbm, ⟨7, _⟩ => ⟨S2x4096x256, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .i32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x256, .f32⟩
  | .hbm, ⟨22, _⟩ => ⟨S2x4096x256, .f32⟩
  | .hbm, ⟨23, _⟩ => ⟨S2x4096x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S2x4096x256, .f32⟩
  | .hbm, ⟨39, _⟩ => ⟨S2x4096x256, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x256, .f32⟩
  | .hbm, ⟨45, _⟩ => ⟨S2x4096x256, .f32⟩
  | .hbm, ⟨46, _⟩ => ⟨S1x1x256, .f32⟩
  | .hbm, ⟨47, _⟩ => ⟨S2x4096x256, .f32⟩
  | .hbm, ⟨48, _⟩ => ⟨S2x4096x256, .f32⟩
  | .hbm, ⟨49, _⟩ => ⟨S1x1x256, .f32⟩
  | .hbm, ⟨50, _⟩ => ⟨S2x4096x256, .f32⟩
  | .hbm, ⟨51, _⟩ => ⟨S2x4096x256, .f32⟩
  | .hbm, ⟨52, _⟩ => ⟨S2x4096x768, .f32⟩
  | .hbm, ⟨53, _⟩ => ⟨S2x4096x3x8x32, .f32⟩
  | .hbm, ⟨54, _⟩ => ⟨S3x2x8x4096x32, .f32⟩
  | .hbm, ⟨55, _⟩ => ⟨S1x2x8x4096x32, .f32⟩
  | .hbm, ⟨56, _⟩ => ⟨S2x8x4096x32, .f32⟩
  | .hbm, ⟨57, _⟩ => ⟨S1x2x8x4096x32, .f32⟩
  | .hbm, ⟨58, _⟩ => ⟨S2x8x4096x32, .f32⟩
  | .hbm, ⟨59, _⟩ => ⟨S1x2x8x4096x32, .f32⟩
  | .hbm, ⟨60, _⟩ => ⟨S2x8x4096x32, .f32⟩
  | .hbm, ⟨61, _⟩ => ⟨S2x8x4096x4096, .f32⟩
  | .hbm, ⟨62, _⟩ => ⟨S_, .f32⟩
  | .hbm, ⟨63, _⟩ => ⟨S2x8x4096x4096, .f32⟩
  | .hbm, ⟨64, _⟩ => ⟨S2x8x4096x4096, .f32⟩
  | .hbm, ⟨65, _⟩ => ⟨S_, .f32⟩
  | .hbm, ⟨66, _⟩ => ⟨S2x8x4096, .f32⟩
  | .hbm, ⟨67, _⟩ => ⟨S_, .f32⟩
  | .hbm, ⟨68, _⟩ => ⟨S2x8x4096, .f32⟩
  | .hbm, ⟨69, _⟩ => ⟨S2x8x4096, .f32⟩
  | .hbm, ⟨70, _⟩ => ⟨S2x8x4096x1, .f32⟩
  | .hbm, ⟨71, _⟩ => ⟨S2x8x4096x4096, .f32⟩
  | .hbm, ⟨72, _⟩ => ⟨S2x8x4096x4096, .f32⟩
  | .hbm, ⟨73, _⟩ => ⟨S2x8x4096x4096, .f32⟩
  | .hbm, ⟨74, _⟩ => ⟨S_, .f32⟩
  | .hbm, ⟨75, _⟩ => ⟨S2x8x4096, .f32⟩
  | .hbm, ⟨76, _⟩ => ⟨S2x8x4096x1, .f32⟩
  | .hbm, ⟨77, _⟩ => ⟨S2x8x4096x4096, .f32⟩
  | .hbm, ⟨78, _⟩ => ⟨S2x8x4096x4096, .f32⟩
  | .hbm, ⟨79, _⟩ => ⟨S2x8x4096x32, .f32⟩
  | .hbm, ⟨80, _⟩ => ⟨S2x4096x8x32, .f32⟩
  | .hbm, ⟨81, _⟩ => ⟨S2x4096x256, .f32⟩
  | .hbm, ⟨82, _⟩ => ⟨S2x4096x256, .f32⟩
  | .hbm, ⟨83, _⟩ => ⟨S1x1x256, .f32⟩
  | .hbm, ⟨84, _⟩ => ⟨S2x4096x256, .f32⟩
  | .hbm, ⟨85, _⟩ => ⟨S2x4096x256, .f32⟩
  | .hbm, ⟨86, _⟩ => ⟨S2x4096x256, .f32⟩
  | .hbm, ⟨87, _⟩ => ⟨S2x256x4096, .f32⟩
  | .hbm, ⟨88, _⟩ => ⟨S2x256x64x64, .f32⟩
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_2 : Ref sig .tc := ⟨.hbm, 62, rfl⟩
abbrev main_v30 : Ref sig .tc := ⟨.hbm, 63, rfl⟩
abbrev main_v31 : Ref sig .tc := ⟨.hbm, 64, rfl⟩
abbrev main_cst_3 : Ref sig .tc := ⟨.hbm, 65, rfl⟩
abbrev main_v32 : Ref sig .tc := ⟨.hbm, 66, rfl⟩
abbrev main_cst_4 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩

abbrev nD : Nat := 1
abbrev τ : Topo := Topo.v7x

variable {F : FTy → Type} [FloatOps F]

class Facts₀ : Prop where
  shapeCasts_S2x256x64x64_S2x256x4096 : S2x256x64x64.ShapeCasts S2x256x4096
  transposes_S2x256x4096_S2x4096x256_0_2_1 : S2x256x4096.Transposes [0, 2, 1] S2x4096x256
  reducesTo_S2x4096x256_S2x4096_d2 : S2x4096x256.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x256_0_1_2 : S2x4096x1.BroadcastsInDim S2x4096x256 (![0, 1, 2] : Fin 3 → Fin S2x4096x256.rank)
  bcast_S256_S1x1x256_2 : S256.BroadcastsInDim S1x1x256 (![2] : Fin 1 → Fin S1x1x256.rank)
  bcast_S1x1x256_S2x4096x256_0_1_2 : S1x1x256.BroadcastsInDim S2x4096x256 (![0, 1, 2] : Fin 3 → Fin S2x4096x256.rank)
  shapeCasts_S2x4096x768_S2x4096x3x8x32 : S2x4096x768.ShapeCasts S2x4096x3x8x32
  transposes_S2x4096x3x8x32_S3x2x8x4096x32_2_0_3_1_4 : S2x4096x3x8x32.Transposes [2, 0, 3, 1, 4] S3x2x8x4096x32
  slices_S3x2x8x4096x32_S1x2x8x4096x32_0_0_0_0_0 : S3x2x8x4096x32.Slices ![0, 0, 0, 0, 0] S1x2x8x4096x32
  shapeCasts_S1x2x8x4096x32_S2x8x4096x32 : S1x2x8x4096x32.ShapeCasts S2x8x4096x32
  slices_S3x2x8x4096x32_S1x2x8x4096x32_1_0_0_0_0 : S3x2x8x4096x32.Slices ![1, 0, 0, 0, 0] S1x2x8x4096x32
  slices_S3x2x8x4096x32_S1x2x8x4096x32_2_0_0_0_0 : S3x2x8x4096x32.Slices ![2, 0, 0, 0, 0] S1x2x8x4096x32
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x8x4096x32_S2x4096x8x32_0_2_1_3 : S2x8x4096x32.Transposes [0, 2, 1, 3] S2x4096x8x32
  shapeCasts_S2x4096x8x32_S2x4096x256 : S2x4096x8x32.ShapeCasts S2x4096x256
  transposes_S2x4096x256_S2x256x4096_0_2_1 : S2x4096x256.Transposes [0, 2, 1] S2x256x4096
  shapeCasts_S2x256x4096_S2x256x64x64 : S2x256x4096.ShapeCasts S2x256x64x64
  dot_S2x4096x256_S768x256_S2x4096x768_2_1_01_0_n_n_wf : DotDims.WF S2x4096x256 S768x256 S2x4096x768 [2] [1] [0, 1] [0] [] []
  dot_S2x8x4096x32_S2x8x4096x32_S2x8x4096x4096_3_3_2_2_01_01_wf : DotDims.WF S2x8x4096x32 S2x8x4096x32 S2x8x4096x4096 [3] [3] [2] [2] [0, 1] [0, 1]
  dot_S2x8x4096x4096_S2x8x4096x32_S2x8x4096x32_3_2_2_3_01_01_wf : DotDims.WF S2x8x4096x4096 S2x8x4096x32 S2x8x4096x32 [3] [2] [2] [3] [0, 1] [0, 1]
  dot_S2x4096x256_S256x256_S2x4096x256_2_1_01_0_n_n_wf : DotDims.WF S2x4096x256 S256x256 S2x4096x256 [2] [1] [0, 1] [0] [] []

variable [Facts₀]

def dot_S2x4096x256_S768x256_S2x4096x768_2_1_01_0_n_n : DotDims S2x4096x256 S768x256 S2x4096x768 where
  lhsContracting := [2]
  rhsContracting := [1]
  lhsNonContracting := [0, 1]
  rhsNonContracting := [0]
  lhsBatch := []
  rhsBatch := []
  wf := dot_S2x4096x256_S768x256_S2x4096x768_2_1_01_0_n_n_wf
def dot_S2x8x4096x32_S2x8x4096x32_S2x8x4096x4096_3_3_2_2_01_01 : DotDims S2x8x4096x32 S2x8x4096x32 S2x8x4096x4096 where
  lhsContracting := [3]
  rhsContracting := [3]
  lhsNonContracting := [2]
  rhsNonContracting := [2]
  lhsBatch := [0, 1]
  rhsBatch := [0, 1]
  wf := dot_S2x8x4096x32_S2x8x4096x32_S2x8x4096x4096_3_3_2_2_01_01_wf
def dot_S2x8x4096x4096_S2x8x4096x32_S2x8x4096x32_3_2_2_3_01_01 : DotDims S2x8x4096x4096 S2x8x4096x32 S2x8x4096x32 where
  lhsContracting := [3]
  rhsContracting := [2]
  lhsNonContracting := [2]
  rhsNonContracting := [3]
  lhsBatch := [0, 1]
  rhsBatch := [0, 1]
  wf := dot_S2x8x4096x4096_S2x8x4096x32_S2x8x4096x32_3_2_2_3_01_01_wf
def dot_S2x4096x256_S256x256_S2x4096x256_2_1_01_0_n_n : DotDims S2x4096x256 S256x256 S2x4096x256 where
  lhsContracting := [2]
  rhsContracting := [1]
  lhsNonContracting := [0, 1]
  rhsNonContracting := [0]
  lhsBatch := []
  rhsBatch := []
  wf := dot_S2x4096x256_S256x256_S2x4096x256_2_1_01_0_n_n_wf

class Facts : Prop extends Facts₀ where

variable [Facts]
-- ==== Proof.KernelLaunch.lean ====
/-
  The idealized kernel's run with its RESULT named. @main is four segments: the host stretch that lays the
  arguments out (three reshapes to columns, two format changes, the image read as tokens), the layer-norm and
  projection region, the attention region, and the reshape of the token array back to the image. The buffer
  contents at the last boundary are a fold of those segments over the launch memory; every weakly fair execution
  ends with each unscoped buffer at that fold, so the result buffer ends at the fold's value there and each
  argument as launched.
-/
import proofs.«164593_j26371099198429_2_alg».proof.Proof.Gen.KernelIdeal.Frame

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and the six arguments end as launched. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Launched

end
-- ==== Proof.Spec.lean ====
/-
  The mathematics both programs compute, stated once over plain index types and the extended reals.

  Tokens are n = 64·h + w (4096 of them), channels c (256), batches b (2). Everything is written
  feature-major, `x b c n`, whichever layout a program keeps in memory.

  * LayerNorm over the channel axis with the two-pass variance: mean = (Σ_c x)/256,
    var = (Σ_c (x − mean)²)/256, `lnorm = (x − mean)·rsqrt(var + ε)·γ + β`.
  * The 768 projection rows `Σ_c W[o,c]·lnorm[c]`; rows 0–255 are the queries, 256–511 the keys,
    512–767 the values; head `h` owns rows 32·h … 32·h+31 of each.
  * Per head and query token n: scores `s[m] = (Σ_d k[d,m]·q[d,n])·scale`, their maximum over the key
    tokens m, `p[m] = exp(s[m] − max)`, `l = Σ_m p[m]`.
  * Two arrangements of the weighted sum. DIVIDE LAST: `(Σ_m v[d,m]·p[m]) / l`. DIVIDE FIRST:
    `Σ_m (p[m]/l)·v[d,m]`. They agree when every entry is a real number (l is then a positive real).
  * Output projection, bias and residual: `(Σ_j Wp[c,j]·o[j] + b[c]) + x` against `x + (Σ_j o[j]·Wp[c,j] + b[c])`.
-/
import Idealize.ShloMosaic.PureOps.Ideal
import Idealize.ShloMosaic.Lib.ValueIdx

noncomputable section

namespace Cert.Attn

open Idealize.ShloMosaic Idealize.ShloMosaic.ValueIdx

/-- A feature-major activation: batch, channel, token. -/
abbrev Act := Fin 2 → Fin 256 → Fin 4096 → EReal

/-- The three float constants both programs spell with the same words. -/
def eps : EReal := Ideal.ofBits .f32 0x3727C5AC#32
def n256 : EReal := Ideal.ofBits .f32 0x43800000#32
def scale : EReal := Ideal.ofBits .f32 0x3E3504F3#32

/-! ## LayerNorm over channels and the projection rows -/

def mean (x : Act) (b : Fin 2) (n : Fin 4096) : EReal := Ideal.div (∑ c : Fin 256, x b c n) n256
def dev (x : Act) (b : Fin 2) (c : Fin 256) (n : Fin 4096) : EReal := x b c n - mean x b n
def var (x : Act) (b : Fin 2) (n : Fin 4096) : EReal := Ideal.div (∑ c : Fin 256, dev x b c n * dev x b c n) n256
def lnorm (x : Act) (g be : Fin 256 → EReal) (b : Fin 2) (c : Fin 256) (n : Fin 4096) : EReal :=
  dev x b c n * Ideal.rsqrt (var x b n + eps) * g c + be c

/-- Projection row `o`, weight on the LEFT of each product. -/
def projL (x : Act) (g be : Fin 256 → EReal) (wq : Fin 768 → Fin 256 → EReal) (b : Fin 2) (o : Fin 768) (n : Fin 4096) : EReal :=
  ∑ c : Fin 256, wq o c * lnorm x g be b c n
/-- Projection row `o`, weight on the RIGHT of each product. -/
def projR (x : Act) (g be : Fin 256 → EReal) (wq : Fin 768 → Fin 256 → EReal) (b : Fin 2) (o : Fin 768) (n : Fin 4096) : EReal :=
  ∑ c : Fin 256, lnorm x g be b c n * wq o c

/-- Row `j` of the queries, keys, values among the 768 projection rows. -/
def rowQ (j : Fin 256) : Fin 768 := ⟨j.val, by omega⟩
def rowK (j : Fin 256) : Fin 768 := ⟨256 + j.val, by omega⟩
def rowV (j : Fin 256) : Fin 768 := ⟨512 + j.val, by omega⟩

/-- Channel `32·h + d`: row `d` of head `h`. -/
def hrow (h : Fin 8) (d : Fin 32) : Fin 256 := ⟨h.val * 32 + d.val, by omega⟩
/-- The head and the row inside it of channel `j`. -/
def headOf (j : Fin 256) : Fin 8 := ⟨j.val / 32, by omega⟩
def rowOf (j : Fin 256) : Fin 32 := ⟨j.val % 32, Nat.mod_lt _ (by decide)⟩

/-! ## One head, DIVIDE LAST (keys on the left of the score product) -/

def scoreL (q k : Act) (b : Fin 2) (h : Fin 8) (m n : Fin 4096) : EReal :=
  (∑ d : Fin 32, k b (hrow h d) m * q b (hrow h d) n) * scale
def smaxL (q k : Act) (b : Fin 2) (h : Fin 8) (n : Fin 4096) : EReal :=
  (Finset.univ : Finset (Fin 4096)).fold max ⊥ (fun m => scoreL q k b h m n)
def pexpL (q k : Act) (b : Fin 2) (h : Fin 8) (m n : Fin 4096) : EReal :=
  Ideal.exp (scoreL q k b h m n - smaxL q k b h n)
def psumL (q k : Act) (b : Fin 2) (h : Fin 8) (n : Fin 4096) : EReal := ∑ m : Fin 4096, pexpL q k b h m n
def headL (q k v : Act) (b : Fin 2) (h : Fin 8) (d : Fin 32) (n : Fin 4096) : EReal :=
  Ideal.div (∑ m : Fin 4096, v b (hrow h d) m * pexpL q k b h m n) (psumL q k b h n)
/-- The heads stacked: channel `j` is row `rowOf j` of head `headOf j`. -/
def catL (q k v : Act) : Act := fun b j n => headL q k v b (headOf j) (rowOf j) n
def outL (q k v xres : Act) (wp : Fin 256 → Fin 256 → EReal) (bp : Fin 256 → EReal) : Act := fun b c n =>
  ((∑ j : Fin 256, wp c j * catL q k v b j n) + bp c) + xres b c n

/-! ## One head, DIVIDE FIRST (queries on the left of the score product) -/

def scoreR (q k : Act) (b : Fin 2) (h : Fin 8) (n m : Fin 4096) : EReal :=
  (∑ d : Fin 32, q b (hrow h d) n * k b (hrow h d) m) * scale
def smaxR (q k : Act) (b : Fin 2) (h : Fin 8) (n : Fin 4096) : EReal :=
  (Finset.univ : Finset (Fin 4096)).fold max ⊥ (fun m => scoreR q k b h n m)
def pexpR (q k : Act) (b : Fin 2) (h : Fin 8) (n m : Fin 4096) : EReal :=
  Ideal.exp (scoreR q k b h n m - smaxR q k b h n)
def psumR (q k : Act) (b : Fin 2) (h : Fin 8) (n : Fin 4096) : EReal := ∑ m : Fin 4096, pexpR q k b h n m
def headR (q k v : Act) (b : Fin 2) (h : Fin 8) (d : Fin 32) (n : Fin 4096) : EReal :=
  ∑ m : Fin 4096, Ideal.div (pexpR q k b h n m) (psumR q k b h n) * v b (hrow h d) m
def catR (q k v : Act) : Act := fun b j n => headR q k v b (headOf j) (rowOf j) n
def outR (q k v xres : Act) (wp : Fin 256 → Fin 256 → EReal) (bp : Fin 256 → EReal) : Act := fun b c n =>
  xres b c n + ((∑ j : Fin 256, catR q k v b j n * wp c j) + bp c)

/-! ## The whole function, in each arrangement -/

def wholeL (x : Act) (g be : Fin 256 → EReal) (wq : Fin 768 → Fin 256 → EReal) (wp : Fin 256 → Fin 256 → EReal)
    (bp : Fin 256 → EReal) : Act :=
  outL (fun b j n => projL x g be wq b (rowQ j) n) (fun b j n => projL x g be wq b (rowK j) n)
    (fun b j n => projL x g be wq b (rowV j) n) x wp bp
def wholeR (x : Act) (g be : Fin 256 → EReal) (wq : Fin 768 → Fin 256 → EReal) (wp : Fin 256 → Fin 256 → EReal)
    (bp : Fin 256 → EReal) : Act :=
  outR (fun b j n => projR x g be wq b (rowQ j) n) (fun b j n => projR x g be wq b (rowK j) n)
    (fun b j n => projR x g be wq b (rowV j) n) x wp bp

/-! ## Arrays: the image layout [2, 256, 64, 64] and the token layout [2, 256, 4096] -/

abbrev SImg : Shape := ⟨4, ![2, 256, 64, 64]⟩
abbrev STok : Shape := ⟨3, ![2, 256, 4096]⟩
abbrev SVec : Shape := ⟨1, ![256]⟩
abbrev SWq : Shape := ⟨2, ![768, 256]⟩
abbrev SWp : Shape := ⟨2, ![256, 256]⟩

/-- Token `n` is pixel `(n / 64, n % 64)`. -/
def pixH (n : Fin 4096) : Fin 64 := ⟨n.val / 64, by omega⟩
def pixW (n : Fin 4096) : Fin 64 := ⟨n.val % 64, Nat.mod_lt _ (by decide)⟩
def tokOf (h w : Fin 64) : Fin 4096 := ⟨h.val * 64 + w.val, by omega⟩

def actOfImg (x : SImg.Idx → EReal) : Act := fun b c n => x (ix4 b c (pixH n) (pixW n))
def actOfTok (x : STok.Idx → EReal) : Act := fun b c n => x (ix3 b c n)
def tokOfAct (a : Act) : STok.Idx → EReal := fun i => a (i 0) (i 1) (i 2)
def imgOfAct (a : Act) : SImg.Idx → EReal := fun i => a (i 0) (i 1) (tokOf (i 2) (i 3))
def vecFn (g : SVec.Idx → EReal) : Fin 256 → EReal := fun c => g (ix1 c)
/-- A [256, 1] column read as a function of its row. -/
abbrev SCol : Shape := ⟨2, ![256, 1]⟩
def colFn (g : SCol.Idx → EReal) : Fin 256 → EReal := fun c => g (ix2 c 0)
def wqFn (w : SWq.Idx → EReal) : Fin 768 → Fin 256 → EReal := fun o c => w (ix2 o c)
def wpFn (w : SWp.Idx → EReal) : Fin 256 → Fin 256 → EReal := fun c j => w (ix2 c j)

/-- The result array, image layout, DIVIDE LAST. -/
def resultL (x : SImg.Idx → EReal) (g be : SVec.Idx → EReal) (wq : SWq.Idx → EReal) (wp : SWp.Idx → EReal)
    (bp : SVec.Idx → EReal) : SImg.Idx → EReal :=
  imgOfAct (wholeL (actOfImg x) (vecFn g) (vecFn be) (wqFn wq) (wpFn wp) (vecFn bp))
/-- The result array, image layout, DIVIDE FIRST. -/
def resultR (x : SImg.Idx → EReal) (g be : SVec.Idx → EReal) (wq : SWq.Idx → EReal) (wp : SWp.Idx → EReal)
    (bp : SVec.Idx → EReal) : SImg.Idx → EReal :=
  imgOfAct (wholeR (actOfImg x) (vecFn g) (vecFn be) (wqFn wq) (wpFn wp) (vecFn bp))

end Cert.Attn

end
-- ==== Proof.KernelHost.lean ====
/-
  The host operations around the two regions, read at an index.

  Before the regions: the image [2, 256, 64, 64] is read as tokens [2, 256, 4096] (token n is pixel (n / 64, n % 64):
  the same row-major position), the scale, shift and bias vectors become columns [256, 1], and the two weight
  matrices change float format, which is the identity on extended reals. After them the token array is read back
  as an image.
-/
import proofs.«164593_j26371099198429_2_alg».proof.Proof.Gen.KernelIdeal.Frame
import proofs.«164593_j26371099198429_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem
open Idealize.ShloMosaic.StableHlo
open Cert.KernelIdeal Cert.KernelIdeal.Gen Cert.Attn

/-! ## The three reshapes at coordinates -/

theorem tokens_of_img {α : Type} (x : S2x256x64x64.Idx → α) (h : S2x256x64x64.ShapeCasts S2x256x4096)
    (b : Fin 2) (c : Fin 256) (n : Fin 4096) :
    shapeCast S2x256x4096 x h (ix3 b c n) = x (ix4 b c (pixH n) (pixW n)) :=
  shapeCast_apply x h _ _ (by
    rw [Shape.rowMajor_val_four, Shape.rowMajor_val_three]
    show ((b.val * 256 + c.val) * 64 + n.val / 64) * 64 + n.val % 64 = (b.val * 256 + c.val) * 4096 + n.val
    omega)

theorem img_of_tokens {α : Type} (y : S2x256x4096.Idx → α) (h : S2x256x4096.ShapeCasts S2x256x64x64)
    (b : Fin 2) (c : Fin 256) (hh w : Fin 64) :
    shapeCast S2x256x64x64 y h (ix4 b c hh w) = y (ix3 b c (tokOf hh w)) :=
  shapeCast_apply y h _ _ (by
    rw [Shape.rowMajor_val_four, Shape.rowMajor_val_three]
    show (b.val * 256 + c.val) * 4096 + (hh.val * 64 + w.val) = ((b.val * 256 + c.val) * 64 + hh.val) * 64 + w.val
    omega)

theorem col_of_vec {α : Type} (g : S256.Idx → α) (h : S256.ShapeCasts S256x1) (c : Fin 256) :
    shapeCast S256x1 g h (ix2 c (0 : Fin 1)) = g (ix1 c) :=
  shapeCast_apply g h _ _ (by
    rw [Shape.rowMajor_val_one, Shape.rowMajor_val_two]
    show c.val = c.val * 1 + 0
    omega)

/-! ## What the first region finds -/

variable (m : (ℓ : Loc nD τ sig) → Buf (Elt Ideal) ℓ) (ρ : Dev nD → PrngReg)

theorem V1_v0 (c : Dev nD) : (V1 m ρ c main_v0 : S2x256x4096.Idx → EReal)
    = shapeCast S2x256x4096 (m ((c : Thread nD τ).loc main_arg0)) shapeCasts_S2x256x64x64_S2x256x4096 := by
  dsimp only [V1, W1, hostOps0]
  after_results
  rfl

theorem V1_v1 (c : Dev nD) : (V1 m ρ c main_v1 : S256x1.Idx → EReal)
    = shapeCast S256x1 (m ((c : Thread nD τ).loc main_arg1)) shapeCasts_S256_S256x1 := by
  dsimp only [V1, W1, hostOps0]
  after_results
  rfl
theorem V1_v2 (c : Dev nD) : (V1 m ρ c main_v2 : S256x1.Idx → EReal)
    = shapeCast S256x1 (m ((c : Thread nD τ).loc main_arg2)) shapeCasts_S256_S256x1 := by
  dsimp only [V1, W1, hostOps0]
  after_results
  rfl
theorem V1_v3 (c : Dev nD) : (V1 m ρ c main_v3 : S256x1.Idx → EReal)
    = shapeCast S256x1 (m ((c : Thread nD τ).loc main_arg5)) shapeCasts_S256_S256x1 := by
  dsimp only [V1, W1, hostOps0]
  after_results
  rfl
/-- The format change of the projection weights is the identity on extended reals. -/
theorem V1_v4 (c : Dev nD) : (V1 m ρ c main_v4 : S768x256.Idx → EReal) = m ((c : Thread nD τ).loc main_arg3) := by
  dsimp only [V1, W1, hostOps0]
  after_results
  rfl
theorem V1_v5 (c : Dev nD) : (V1 m ρ c main_v5 : S256x256.Idx → EReal) = m ((c : Thread nD τ).loc main_arg4) := by
  dsimp only [V1, W1, hostOps0]
  after_results
  rfl

/-! ## What the second region finds: the first region's three outputs, and what it did not touch -/

theorem V2_q (c : Dev nD) : V2 m ρ c (Pipeline.arrRef spec1 0) = (dat0 (V1 m ρ) c).arrAt 4 cfg0.N := W2_arr m ρ c 4
theorem V2_k (c : Dev nD) : V2 m ρ c (Pipeline.arrRef spec1 1) = (dat0 (V1 m ρ) c).arrAt 5 cfg0.N := W2_arr m ρ c 5
theorem V2_v (c : Dev nD) : V2 m ρ c (Pipeline.arrRef spec1 2) = (dat0 (V1 m ρ) c).arrAt 6 cfg0.N := W2_arr m ρ c 6
/-- The activations are the first region's input window 0: an input window writes nothing back, so the second region
    finds them as the first did. -/
theorem V2_x (c : Dev nD) : V2 m ρ c (Pipeline.arrRef spec1 3) = V1 m ρ c main_v0 :=
  (W2_arr m ρ c 0).trans (((dat0 (V1 m ρ) c).arrAt_in 0 rfl cfg0.N).trans (A_eq0 (V1 m ρ) c 0))
theorem V2_wp (c : Dev nD) : V2 m ρ c (Pipeline.arrRef spec1 4) = V1 m ρ c main_v5 := W2_of_ne m ρ c main_v5 (by decide)
theorem V2_bp (c : Dev nD) : V2 m ρ c (Pipeline.arrRef spec1 5) = V1 m ρ c main_v3 := W2_of_ne m ρ c main_v3 (by decide)

/-! ## After the second region: its output array, read back as an image -/

theorem W3_out (c : Dev nD) : W3 m ρ c (Proc.devRef .tc main_v7) = (dat1 (V2 m ρ) c).arrAt 6 cfg1.N := W3_arr m ρ c 6

theorem W4_v8 (c : Dev nD) : (W4 m ρ c (Proc.devRef .tc main_v8) : S2x256x64x64.Idx → EReal)
    = shapeCast S2x256x64x64 (W3 m ρ c (Proc.devRef .tc main_v7) : S2x256x4096.Idx → EReal) shapeCasts_S2x256x4096_S2x256x64x64 := by
  dsimp only [W4, hostOps2]
  after_results
  rfl

end Cert.KernelIdeal.Host

end
-- ==== Proof.Region0Pay.lean ====
/-
  The layer-norm and projection kernel's arithmetic, read at an index of its block.

  A block holds 512 token columns of one batch, all 256 channels. For one column `col c = x[0, c, j]`:
  the mean is (Σ_c col c)/256, the variance (Σ_c (col c − mean)²)/256, the normalised channel
  `(col c − mean)·rsqrt(var + ε)·γ[c] + β[c]`, and projection row `o` is Σ_c W[o, c]·(that). The three stores are rows
  0–255, 256–511, 512–767 of the 768 projection rows. Changes of float format are the identity on extended reals.
-/
import proofs.«164593_j26371099198429_2_alg».proof.Proof.Gen.KernelIdeal.Skeleton
import proofs.«164593_j26371099198429_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Region0

open Idealize.ShloMosaic Idealize.ShloMosaic.ValueIdx Cert.KernelIdeal Cert.KernelIdeal.Gen Cert.Attn

/-! ## One column: layer norm over the channels -/

def colMean (col : Fin 256 → EReal) : EReal := Ideal.div (∑ c : Fin 256, col c) n256
def colVar (col : Fin 256 → EReal) : EReal :=
  Ideal.div (∑ c : Fin 256, (col c - colMean col) * (col c - colMean col)) n256
def lnCol (col g be : Fin 256 → EReal) (c : Fin 256) : EReal :=
  (col c - colMean col) * Ideal.rsqrt (colVar col + eps) * g c + be c

/-- The specification's layer norm at token `n` of batch `b` is the column form of that token's channels. -/
theorem lnorm_eq_lnCol (x : Act) (g be : Fin 256 → EReal) (b : Fin 2) (c : Fin 256) (n : Fin 4096) :
    lnorm x g be b c n = lnCol (fun c' => x b c' n) g be c := rfl

/-! ## Layout operations the body uses, read at coordinates -/

/-- A column `[a, 1]` stretched to `[a, b]` reads, at `(p, c)`, the column's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 256 channels of a `[256, 512]` array, at column `j`. -/
theorem chanSum_apply (src : FVec Ideal S256x512 .f32) (hφ : FTy.f32 = FTy.f32 ∨ FTy.f32 = FTy.bf16)
    (hacc : (0x00000000#32 : BitVec 32) = 0x00000000#32) (j : Fin 512) :
    multiReduction .add [0] S512 src 0x00000000#32 reduces_S256x512_S512 hφ hacc (ix1 j) = ∑ c : Fin 256, src (ix2 c j) := by
  refine (Ideal.multiReduction_add_single src 0x00000000#32 reduces_S256x512_S512 hφ hacc (ix1 j)).trans ?_
  refine Finset.sum_congr rfl fun k _ => congrArg src ?_
  funext a
  apply Fin.ext
  rw [Shape.Reduces.lift_val]
  match a with
  | ⟨0, _⟩ => simp [Shape.Reduces.liftVal]
  | ⟨1, _⟩ => simp [Shape.Reduces.liftVal]

/-! ## The projection payload at a row and a column -/

theorem n256_def : Ideal.ofBits .f32 0x43800000#32 = n256 := rfl
theorem eps_def : Ideal.ofBits .f32 0x3727C5AC#32 = eps := rfl

/-- The projection's dimension numbers: `[768, 256] × [256, 512]`, contracting the channels. -/
abbrev DProj := dot_S768x256_S256x512_S768x512_1_0_0_1_n_n

/-- The weight operand's row is the output's row; the activation operand's column is the output's column. -/
theorem projLhs0 (i : S768x512.Idx) (q : DProj.contr.Idx) : (DProj.lhsIdx i q 0).val = (i 0).val := by
  unfold DotDims.lhsIdx
  rw [dif_neg (show ¬(0 : Fin S768x256.rank) ∈ DProj.lhsBatch by decide),
    dif_pos (show (0 : Fin S768x256.rank) ∈ DProj.lhsNonContracting by decide)]
  rfl
theorem projRhs1 (i : S768x512.Idx) (q : DProj.contr.Idx) : (DProj.rhsIdx i q 1).val = (i 1).val := by
  unfold DotDims.rhsIdx
  rw [dif_neg (show ¬(1 : Fin S256x512.rank) ∈ DProj.rhsBatch by decide),
    dif_pos (show (1 : Fin S256x512.rank) ∈ DProj.rhsNonContracting by decide)]
  rfl

/-- Projection row `o` of a block at column `j`: the sum over the channels of the weight times the normalised channel. -/
theorem pay3_apply (x0 : FVec Ideal S1x256x512 .f32) (x1 x2 : FVec Ideal S256x1 .f32) (x3 : FVec Ideal S768x256 .bf16)
    (o : Fin 768) (j : Fin 512) :
    k0_pay3 (F := Ideal) x0 x1 x2 x3 (ix2 o j)
      = ∑ c : Fin 256, x3 (ix2 o c) * lnCol (fun c' => x0 (ix3 (0 : Fin 1) c' j)) (fun c' => x1 (ix2 c' (0 : Fin 1)))
          (fun c' => x2 (ix2 c' (0 : Fin 1))) c := by
  unfold k0_pay3
  dsimp only
  rw [truncf_apply]
  simp only [matmul]
  rw [Ideal.matmul_constant_zero_apply, ← Equiv.sum_comp (contrEquiv1 DProj 256 rfl rfl).symm]
  refine Finset.sum_congr rfl fun k _ => ?_
  have hk := contrEquiv1_symm_val DProj 256 rfl rfl k
  have el : DProj.lhsIdx (ix2 o j) ((contrEquiv1 DProj 256 rfl rfl).symm k) = ix2 o k := funext fun a => Fin.ext (by
    match a with
    | ⟨0, _⟩ => exact projLhs0 _ _
    | ⟨1, _⟩ => exact (DProj.lhsIdx_val_of_single rfl _ _).trans hk)
  have er : DProj.rhsIdx (ix2 o j) ((contrEquiv1 DProj 256 rfl rfl).symm k) = ix2 k j := funext fun a => Fin.ext (by
    match a with
    | ⟨0, _⟩ => exact (DProj.rhsIdx_val_of_single rfl _ _).trans hk
    | ⟨1, _⟩ => exact projRhs1 _ _)
  rw [el, er]
  simp only [shapeCast_self, truncf_apply, addf_apply, mulf_apply, subf_apply, divf_apply, broadcast_apply,
    broadcastTo_1b_ab_apply, broadcastTo_a1_ab_apply, shapeCast_a_1a_apply, shapeCast_1ab_ab_apply, rsqrt]
  rw [chanSum_apply, chanSum_apply]
  simp only [shapeCast_self, addf_apply, mulf_apply, subf_apply, divf_apply, broadcast_apply,
    broadcastTo_1b_ab_apply, shapeCast_a_1a_apply, shapeCast_1ab_ab_apply]
  rw [chanSum_apply]
  simp only [shapeCast_1ab_ab_apply]
  rfl

/-! ## The three stores: query, key and value rows of the projection -/

theorem payQ_apply (x0 : FVec Ideal S1x256x512 .f32) (x1 x2 : FVec Ideal S256x1 .f32) (x3 : FVec Ideal S768x256 .bf16)
    (u : Fin 1) (r : Fin 256) (j : Fin 512) :
    k0_pay4 (F := Ideal) x0 x1 x2 x3 (ix3 u r j) = k0_pay3 (F := Ideal) x0 x1 x2 x3 (ix2 (rowQ r) j) := by
  unfold k0_pay4
  rw [shapeCast_ab_1ab_apply]
  exact slice2_axis0_apply 0 _ _ r j (rowQ r) (Nat.zero_add _).symm

theorem payK_apply (x0 : FVec Ideal S1x256x512 .f32) (x1 x2 : FVec Ideal S256x1 .f32) (x3 : FVec Ideal S768x256 .bf16)
    (u : Fin 1) (r : Fin 256) (j : Fin 512) :
    k0_pay1 (F := Ideal) (k0_pay5 (F := Ideal) x0 x1 x2 x3) (ix3 u r j) = k0_pay3 (F := Ideal) x0 x1 x2 x3 (ix2 (rowK r) j) := by
  unfold k0_pay1 k0_pay5
  rw [shapeCast_ab_1ab_apply]
  exact slice2_axis0_apply 256 _ _ r j (rowK r) rfl

theorem payV_apply (x0 : FVec Ideal S1x256x512 .f32) (x1 x2 : FVec Ideal S256x1 .f32) (x3 : FVec Ideal S768x256 .bf16)
    (u : Fin 1) (r : Fin 256) (j : Fin 512) :
    k0_pay2 (F := Ideal) (k0_pay3 (F := Ideal) x0 x1 x2 x3) (ix3 u r j) = k0_pay3 (F := Ideal) x0 x1 x2 x3 (ix2 (rowV r) j) := by
  unfold k0_pay2
  rw [shapeCast_ab_1ab_apply]
  exact slice2_axis0_apply 512 _ _ r j (rowV r) rfl

end Cert.KernelIdeal.Region0

end
-- ==== Proof.Region0Arr.lean ====
/-
  From blocks to arrays for the layer-norm and projection region.

  The grid is 2 batches × 8 token tiles. At point (b, s) the activation window holds tokens 512·s … 512·s+511 of
  batch b, all 256 channels; the two columns and the weight matrix are whole arrays at every point; each of the
  three outputs writes back the same tile of its own array. The tiles of the 16 points cover every (b, c, n), so
  each output array ends as one function of the four input arrays: projection rows 0–255 (queries), 256–511 (keys),
  512–767 (values) of the layer-normed activations.
-/
import proofs.«164593_j26371099198429_2_alg».proof.Proof.Gen.KernelIdeal.Frame
import proofs.«164593_j26371099198429_2_alg».proof.Proof.Region0Pay

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Attn
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Projection rows `row r` of the layer-normed activations, as a token-layout array of the region's inputs. -/
def projArr (c : Dev nD) (row : Fin 256 → Fin 768) : STok.Idx → EReal :=
  tokOfAct (fun b r n => projL (actOfTok (V c (Pipeline.arrRef spec0 0))) (colFn (V c (Pipeline.arrRef spec0 1)))
    (colFn (V c (Pipeline.arrRef spec0 2))) (wqFn (V c (Pipeline.arrRef spec0 3))) b (row r) n)

/-- The windows' index maps over the 16 points: the activation tile moves with the output tile, the channel axis is
    never tiled, the columns and the weights stay whole, and the three outputs share one index map. -/
theorem idx_facts : ∀ t : Fin cfg0.N,
    win0_0.index t (0 : Fin 3) = win0_4.index t (0 : Fin 3) ∧ win0_0.index t (1 : Fin 3) = 0
    ∧ win0_0.index t (2 : Fin 3) = win0_4.index t (2 : Fin 3)
    ∧ win0_4.index t (1 : Fin 3) = 0 ∧ win0_4.index t (0 : Fin 3) ≤ 1 ∧ win0_4.index t (2 : Fin 3) ≤ 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 3) = win0_4.index t (0 : Fin 3) ∧ win0_5.index t (1 : Fin 3) = win0_4.index t (1 : Fin 3)
    ∧ win0_5.index t (2 : Fin 3) = win0_4.index t (2 : Fin 3)
    ∧ win0_6.index t (0 : Fin 3) = win0_4.index t (0 : Fin 3) ∧ win0_6.index t (1 : Fin 3) = win0_4.index t (1 : Fin 3)
    ∧ win0_6.index t (2 : Fin 3) = win0_4.index t (2 : Fin 3) :=
  (by decide +kernel : ∀ t : Fin grid0.N, _)

/-- Every (batch, tile) is some point's. -/
theorem idx_onto : ∀ (q0 : Fin 2) (q2 : Fin 8), ∃ t : Fin cfg0.N, win0_4.index t = ![q0.val, 0, q2.val] :=
  (by decide +kernel : ∀ (q0 : Fin 2) (q2 : Fin 8), ∃ t : Fin grid0.N, win0_4.index t = ![q0.val, 0, q2.val])

/-- The batch and the first token of point `t`'s tile. -/
def bOf (t : Fin cfg0.N) : Fin 2 := ⟨win0_4.index t (0 : Fin 3), by have := idx_facts t; omega⟩
def nOf (t : Fin cfg0.N) (j : Fin 512) : Fin 4096 :=
  ⟨win0_4.index t (2 : Fin 3) * 512 + j.val, by have := idx_facts t; have := j.isLt; omega⟩

/-! ## The input windows' blocks read where the output tile says -/

theorem emb_in0 (t : Fin cfg0.N) (cc : Fin 256) (j : Fin 512) :
    ((cfg0.win 0).blk t).view.emb (ix3 (0 : Fin 1) cc j) = ix3 (bOf t) cc (nOf t j) := by
  obtain ⟨e0, e1, e2, e3, e4, e5, -⟩ := idx_facts t
  funext a
  apply Fin.ext
  match a with
  | ⟨0, _⟩ => show win0_0.index t (0 : Fin 3) * 1 + 1 * 0 = win0_4.index t (0 : Fin 3); omega
  | ⟨1, _⟩ => show win0_0.index t (1 : Fin 3) * 256 + 1 * cc.val = cc.val; omega
  | ⟨2, _⟩ => show win0_0.index t (2 : Fin 3) * 512 + 1 * j.val = win0_4.index t (2 : Fin 3) * 512 + j.val; omega
theorem emb_in1 (t : Fin cfg0.N) (cc : Fin 256) :
    ((cfg0.win 1).blk t).view.emb (ix2 cc (0 : Fin 1)) = ix2 cc (0 : Fin 1) := by
  obtain ⟨e0, e1, e2, e3, e4, e5, e6, e7, -⟩ := idx_facts t
  funext a
  apply Fin.ext
  match a with
  | ⟨0, _⟩ => show win0_1.index t (0 : Fin 2) * 256 + 1 * cc.val = cc.val; omega
  | ⟨1, _⟩ => show win0_1.index t (1 : Fin 2) * 1 + 1 * 0 = 0; omega
theorem emb_in2 (t : Fin cfg0.N) (cc : Fin 256) :
    ((cfg0.win 2).blk t).view.emb (ix2 cc (0 : Fin 1)) = ix2 cc (0 : Fin 1) := by
  obtain ⟨e0, e1, e2, e3, e4, e5, e6, e7, e8, e9, -⟩ := idx_facts t
  funext a
  apply Fin.ext
  match a with
  | ⟨0, _⟩ => show win0_2.index t (0 : Fin 2) * 256 + 1 * cc.val = cc.val; omega
  | ⟨1, _⟩ => show win0_2.index t (1 : Fin 2) * 1 + 1 * 0 = 0; omega
theorem emb_in3 (t : Fin cfg0.N) (o : Fin 768) (cc : Fin 256) :
    ((cfg0.win 3).blk t).view.emb (ix2 o cc) = ix2 o cc := by
  obtain ⟨e0, e1, e2, e3, e4, e5, e6, e7, e8, e9, e10, e11, -⟩ := idx_facts t
  funext a
  apply Fin.ext
  match a with
  | ⟨0, _⟩ => show win0_3.index t (0 : Fin 2) * 768 + 1 * o.val = o.val; omega
  | ⟨1, _⟩ => show win0_3.index t (1 : Fin 2) * 256 + 1 * cc.val = cc.val; omega

theorem blk0_read (c : Dev nD) (t : Fin cfg0.N) (cc : Fin 256) (j : Fin 512) :
    iblk0 V c 0 t (ix3 (0 : Fin 1) cc j) = actOfTok (V c (Pipeline.arrRef spec0 0)) (bOf t) cc (nOf t j) := by
  show V c (Pipeline.arrRef spec0 0) (((cfg0.win 0).blk t).view.emb (ix3 (0 : Fin 1) cc j)) = V c (Pipeline.arrRef spec0 0) (ix3 (bOf t) cc (nOf t j))
  rw [emb_in0]
theorem blk1_read (c : Dev nD) (t : Fin cfg0.N) (cc : Fin 256) :
    iblk0 V c 1 t (ix2 cc (0 : Fin 1)) = colFn (V c (Pipeline.arrRef spec0 1)) cc := by
  show V c (Pipeline.arrRef spec0 1) (((cfg0.win 1).blk t).view.emb (ix2 cc (0 : Fin 1))) = V c (Pipeline.arrRef spec0 1) (ix2 cc (0 : Fin 1))
  rw [emb_in1]
theorem blk2_read (c : Dev nD) (t : Fin cfg0.N) (cc : Fin 256) :
    iblk0 V c 2 t (ix2 cc (0 : Fin 1)) = colFn (V c (Pipeline.arrRef spec0 2)) cc := by
  show V c (Pipeline.arrRef spec0 2) (((cfg0.win 2).blk t).view.emb (ix2 cc (0 : Fin 1))) = V c (Pipeline.arrRef spec0 2) (ix2 cc (0 : Fin 1))
  rw [emb_in2]
theorem blk3_read (c : Dev nD) (t : Fin cfg0.N) (o : Fin 768) (cc : Fin 256) :
    iblk0 V c 3 t (ix2 o cc) = wqFn (V c (Pipeline.arrRef spec0 3)) o cc := by
  show V c (Pipeline.arrRef spec0 3) (((cfg0.win 3).blk t).view.emb (ix2 o cc)) = V c (Pipeline.arrRef spec0 3) (ix2 o cc)
  rw [emb_in3]

/-! ## Output window 4 -/

/-- Where entry (u, r, j) of point `t`'s output tile sits in the array. -/
theorem emb_out4 (t : Fin cfg0.N) (u : Fin 1) (r : Fin 256) (j : Fin 512) :
    ((cfg0.win 4).blk t).view.emb (ix3 u r j) = ix3 (bOf t) r (nOf t j) := by
  obtain ⟨e0, e1, e2, e3, e4, e5, e6, e7, e8, e9, e10, e11, f0, f1, f2, g0, g1, g2⟩ := idx_facts t
  funext a
  apply Fin.ext
  match a with
  | ⟨0, _⟩ => show win0_4.index t (0 : Fin 3) * 1 + 1 * u.val = win0_4.index t (0 : Fin 3); have := u.isLt; omega
  | ⟨1, _⟩ => show win0_4.index t (1 : Fin 3) * 256 + 1 * r.val = r.val; omega
  | ⟨2, _⟩ => show win0_4.index t (2 : Fin 3) * 512 + 1 * j.val = win0_4.index t (2 : Fin 3) * 512 + j.val; omega

/-- What point `t` writes back to window 4 is tile `t` of the projection rows. -/
theorem flushed4_eq (c : Dev nD) (t : Fin cfg0.N) :
    (dat0 V c).flushed 4 t = ((cfg0.win 4).blk t).view.read (Elt Ideal) (projArr V c rowQ) := by
  show (cfg0.win 4).cut (grid0.coords t) ((dat0 V c).after 4 t) = _
  rw [after0_4]
  unfold out0_4
  rw [View.canon_unit_zero hz3]
  simp only [View.ld_unit_zero (S := S1x256x512) hz3, View.ld_unit_zero (S := S256x1) hz2, View.ld_unit_zero (S := S768x256) hz2]
  funext y
  obtain ⟨u, r, j, rfl⟩ : ∃ (u : Fin 1) (r : Fin 256) (j : Fin 512), y = ix3 u r j := ⟨y 0, y 1, y 2, eq_ix3 y⟩
  show k0_pay4 (F := Ideal) (iblk0 V c 0 t) (iblk0 V c 1 t) (iblk0 V c 2 t) (iblk0 V c 3 t) (ix3 u r j) = projArr V c rowQ (((cfg0.win 4).blk t).view.emb (ix3 u r j))
  rw [payQ_apply, pay3_apply, emb_out4]
  simp only [blk0_read V c t, blk1_read V c t, blk2_read V c t, blk3_read V c t]
  rfl

/-- An index is in point `t`'s tile iff each coordinate is in the tile's range. -/
theorem mem_blk4 (t : Fin cfg0.N) (i : STok.Idx) :
    i ∈ ((cfg0.win 4).blk t).view.set ↔ ∀ a : Fin 3, win0_4.index t a * S1x256x512.size a ≤ (i a).val
      ∧ (i a).val < win0_4.index t a * S1x256x512.size a + S1x256x512.size a := by
  show i ∈ ((View.whole main_v6_0).slice (win0_4.rect t)).set ↔ _
  rw [View.set_slice_whole, Rect.mem_set_unit]
  exact Iff.rfl

/-- The 16 tiles cover the array. -/
theorem cover4 (i : STok.Idx) : ∃ t : Fin cfg0.N, (cfg0.win 4).flush t = true ∧ i ∈ ((cfg0.win 4).blk t).view.set := by
  have hi0 : (i 0).val < 2 := (i 0).isLt
  have hi1 : (i 1).val < 256 := (i 1).isLt
  have hi2 : (i 2).val < 4096 := (i 2).isLt
  obtain ⟨t, ht⟩ := idx_onto ⟨(i 0).val, hi0⟩ ⟨(i 2).val / 512, by omega⟩
  have q0 : win0_4.index t (0 : Fin 3) = (i 0).val := congrFun ht 0
  have q1 : win0_4.index t (1 : Fin 3) = 0 := congrFun ht 1
  have q2 : win0_4.index t (2 : Fin 3) = (i 2).val / 512 := congrFun ht 2
  obtain ⟨e0, e1, e2, e3, e4, e5, e6, e7, e8, e9, e10, e11, f0, f1, f2, g0, g1, g2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 512 ≤ (i 2).val ∧ (i 2).val < win0_4.index t (2 : Fin 3) * 512 + 512; omega

/-- The array window 4 ends holding: the projection rows, at every index. -/
theorem arr4 (c : Dev nD) : (dat0 V c).arrAt 4 cfg0.N = projArr V c rowQ :=
  (dat0 V c).arrAt_eq_of_cover 4 (projArr V c rowQ) (fun t _ => flushed4_eq V c t) (cover4)

/-! ## Output window 5 -/

/-- Where entry (u, r, j) of point `t`'s output tile sits in the array. -/
theorem emb_out5 (t : Fin cfg0.N) (u : Fin 1) (r : Fin 256) (j : Fin 512) :
    ((cfg0.win 5).blk t).view.emb (ix3 u r j) = ix3 (bOf t) r (nOf t j) := by
  obtain ⟨e0, e1, e2, e3, e4, e5, e6, e7, e8, e9, e10, e11, f0, f1, f2, g0, g1, g2⟩ := idx_facts t
  funext a
  apply Fin.ext
  match a with
  | ⟨0, _⟩ => show win0_5.index t (0 : Fin 3) * 1 + 1 * u.val = win0_4.index t (0 : Fin 3); have := u.isLt; omega
  | ⟨1, _⟩ => show win0_5.index t (1 : Fin 3) * 256 + 1 * r.val = r.val; omega
  | ⟨2, _⟩ => show win0_5.index t (2 : Fin 3) * 512 + 1 * j.val = win0_4.index t (2 : Fin 3) * 512 + j.val; omega

/-- What point `t` writes back to window 5 is tile `t` of the projection rows. -/
theorem flushed5_eq (c : Dev nD) (t : Fin cfg0.N) :
    (dat0 V c).flushed 5 t = ((cfg0.win 5).blk t).view.read (Elt Ideal) (projArr V c rowK) := by
  show (cfg0.win 5).cut (grid0.coords t) ((dat0 V c).after 5 t) = _
  rw [after0_5]
  unfold out0_5
  rw [View.canon_unit_zero hz3]
  simp only [View.ld_unit_zero (S := S1x256x512) hz3, View.ld_unit_zero (S := S256x1) hz2, View.ld_unit_zero (S := S768x256) hz2]
  funext y
  obtain ⟨u, r, j, rfl⟩ : ∃ (u : Fin 1) (r : Fin 256) (j : Fin 512), y = ix3 u r j := ⟨y 0, y 1, y 2, eq_ix3 y⟩
  show k0_pay1 (F := Ideal) (k0_pay5 (F := Ideal) (iblk0 V c 0 t) (iblk0 V c 1 t) (iblk0 V c 2 t) (iblk0 V c 3 t)) (ix3 u r j) = projArr V c rowK (((cfg0.win 5).blk t).view.emb (ix3 u r j))
  rw [payK_apply, pay3_apply, emb_out5]
  simp only [blk0_read V c t, blk1_read V c t, blk2_read V c t, blk3_read V c t]
  rfl

/-- An index is in point `t`'s tile iff each coordinate is in the tile's range. -/
theorem mem_blk5 (t : Fin cfg0.N) (i : STok.Idx) :
    i ∈ ((cfg0.win 5).blk t).view.set ↔ ∀ a : Fin 3, win0_5.index t a * S1x256x512.size a ≤ (i a).val
      ∧ (i a).val < win0_5.index t a * S1x256x512.size a + S1x256x512.size a := by
  show i ∈ ((View.whole main_v6_1).slice (win0_5.rect t)).set ↔ _
  rw [View.set_slice_whole, Rect.mem_set_unit]
  exact Iff.rfl

/-- The 16 tiles cover the array. -/
theorem cover5 (i : STok.Idx) : ∃ t : Fin cfg0.N, (cfg0.win 5).flush t = true ∧ i ∈ ((cfg0.win 5).blk t).view.set := by
  have hi0 : (i 0).val < 2 := (i 0).isLt
  have hi1 : (i 1).val < 256 := (i 1).isLt
  have hi2 : (i 2).val < 4096 := (i 2).isLt
  obtain ⟨t, ht⟩ := idx_onto ⟨(i 0).val, hi0⟩ ⟨(i 2).val / 512, by omega⟩
  have q0 : win0_4.index t (0 : Fin 3) = (i 0).val := congrFun ht 0
  have q1 : win0_4.index t (1 : Fin 3) = 0 := congrFun ht 1
  have q2 : win0_4.index t (2 : Fin 3) = (i 2).val / 512 := congrFun ht 2
  obtain ⟨e0, e1, e2, e3, e4, e5, e6, e7, e8, e9, e10, e11, f0, f1, f2, g0, g1, g2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 512 ≤ (i 2).val ∧ (i 2).val < win0_5.index t (2 : Fin 3) * 512 + 512; omega

/-- The array window 5 ends holding: the projection rows, at every index. -/
theorem arr5 (c : Dev nD) : (dat0 V c).arrAt 5 cfg0.N = projArr V c rowK :=
  (dat0 V c).arrAt_eq_of_cover 5 (projArr V c rowK) (fun t _ => flushed5_eq V c t) (cover5)

/-! ## Output window 6 -/

/-- Where entry (u, r, j) of point `t`'s output tile sits in the array. -/
theorem emb_out6 (t : Fin cfg0.N) (u : Fin 1) (r : Fin 256) (j : Fin 512) :
    ((cfg0.win 6).blk t).view.emb (ix3 u r j) = ix3 (bOf t) r (nOf t j) := by
  obtain ⟨e0, e1, e2, e3, e4, e5, e6, e7, e8, e9, e10, e11, f0, f1, f2, g0, g1, g2⟩ := idx_facts t
  funext a
  apply Fin.ext
  match a with
  | ⟨0, _⟩ => show win0_6.index t (0 : Fin 3) * 1 + 1 * u.val = win0_4.index t (0 : Fin 3); have := u.isLt; omega
  | ⟨1, _⟩ => show win0_6.index t (1 : Fin 3) * 256 + 1 * r.val = r.val; omega
  | ⟨2, _⟩ => show win0_6.index t (2 : Fin 3) * 512 + 1 * j.val = win0_4.index t (2 : Fin 3) * 512 + j.val; omega

/-- What point `t` writes back to window 6 is tile `t` of the projection rows. -/
theorem flushed6_eq (c : Dev nD) (t : Fin cfg0.N) :
    (dat0 V c).flushed 6 t = ((cfg0.win 6).blk t).view.read (Elt Ideal) (projArr V c rowV) := by
  show (cfg0.win 6).cut (grid0.coords t) ((dat0 V c).after 6 t) = _
  rw [after0_6]
  unfold out0_6
  rw [View.canon_unit_zero hz3]
  simp only [View.ld_unit_zero (S := S1x256x512) hz3, View.ld_unit_zero (S := S256x1) hz2, View.ld_unit_zero (S := S768x256) hz2]
  funext y
  obtain ⟨u, r, j, rfl⟩ : ∃ (u : Fin 1) (r : Fin 256) (j : Fin 512), y = ix3 u r j := ⟨y 0, y 1, y 2, eq_ix3 y⟩
  show k0_pay2 (F := Ideal) (k0_pay3 (F := Ideal) (iblk0 V c 0 t) (iblk0 V c 1 t) (iblk0 V c 2 t) (iblk0 V c 3 t)) (ix3 u r j) = projArr V c rowV (((cfg0.win 6).blk t).view.emb (ix3 u r j))
  rw [payV_apply, pay3_apply, emb_out6]
  simp only [blk0_read V c t, blk1_read V c t, blk2_read V c t, blk3_read V c t]
  rfl

/-- An index is in point `t`'s tile iff each coordinate is in the tile's range. -/
theorem mem_blk6 (t : Fin cfg0.N) (i : STok.Idx) :
    i ∈ ((cfg0.win 6).blk t).view.set ↔ ∀ a : Fin 3, win0_6.index t a * S1x256x512.size a ≤ (i a).val
      ∧ (i a).val < win0_6.index t a * S1x256x512.size a + S1x256x512.size a := by
  show i ∈ ((View.whole main_v6_2).slice (win0_6.rect t)).set ↔ _
  rw [View.set_slice_whole, Rect.mem_set_unit]
  exact Iff.rfl

/-- The 16 tiles cover the array. -/
theorem cover6 (i : STok.Idx) : ∃ t : Fin cfg0.N, (cfg0.win 6).flush t = true ∧ i ∈ ((cfg0.win 6).blk t).view.set := by
  have hi0 : (i 0).val < 2 := (i 0).isLt
  have hi1 : (i 1).val < 256 := (i 1).isLt
  have hi2 : (i 2).val < 4096 := (i 2).isLt
  obtain ⟨t, ht⟩ := idx_onto ⟨(i 0).val, hi0⟩ ⟨(i 2).val / 512, by omega⟩
  have q0 : win0_4.index t (0 : Fin 3) = (i 0).val := congrFun ht 0
  have q1 : win0_4.index t (1 : Fin 3) = 0 := congrFun ht 1
  have q2 : win0_4.index t (2 : Fin 3) = (i 2).val / 512 := congrFun ht 2
  obtain ⟨e0, e1, e2, e3, e4, e5, e6, e7, e8, e9, e10, e11, f0, f1, f2, g0, g1, g2⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 512 ≤ (i 2).val ∧ (i 2).val < win0_6.index t (2 : Fin 3) * 512 + 512; omega

/-- The array window 6 ends holding: the projection rows, at every index. -/
theorem arr6 (c : Dev nD) : (dat0 V c).arrAt 6 cfg0.N = projArr V c rowV :=
  (dat0 V c).arrAt_eq_of_cover 6 (projArr V c rowV) (fun t _ => flushed6_eq V c t) (cover6)

end Cert.KernelIdeal.Region0

end
-- ==== Proof.KernelValue.lean ====
/-
  The kernel program's result as the specification's DIVIDE LAST function of its arguments.

  The program reshapes the image to tokens [2,256,4096] and the three vectors to columns, runs the layer-norm and
  projection region (three output arrays: the query, key and value rows), then the attention region on those three
  arrays, the untouched tokens, the output weights and the bias column, and reshapes that region's output array
  back to an image. Read through: the image entry (b, c, h, w) is token 64·h + w of the second region's array; that
  array is `outL` of the six arrays the region finds; three of those are the first region's outputs, the
  projection rows `projL` of what the first region found; and what the first region found are the arguments
  themselves, the image as tokens and the vectors as columns.
-/
import proofs.«164593_j26371099198429_2_alg».proof.Proof.KernelHost
import proofs.«164593_j26371099198429_2_alg».proof.Proof.Region0Arr
import proofs.«164593_j26371099198429_2_alg».proof.Proof.Spec

set_option maxRecDepth 16384

noncomputable section

namespace Cert.KernelIdeal.Assembled

open Idealize.ShloMosaic Idealize.ShloMosaic.TcCoe Idealize.ShloMosaic.ValueIdx Idealize.SL.Sem
open Cert.KernelIdeal Cert.KernelIdeal.Gen Cert.Attn Cert.KernelIdeal.Host

variable (m : (ℓ : Loc nD τ sig) → Buf (Elt Ideal) ℓ) (ρ : Dev nD → PrngReg)

/-! ## What the first region finds, as functions of the arguments -/

/-- The token array the first region finds is the image, feature-major. -/
theorem act_x (c : Dev nD) : actOfTok (V1 m ρ c main_v0) = actOfImg (m ((c : Thread nD τ).loc main_arg0)) := by
  funext b cc n
  show (V1 m ρ c main_v0 : S2x256x4096.Idx → EReal) (ix3 b cc n) = _
  rw [V1_v0]
  exact tokens_of_img _ _ b cc n

/-- The scale column is the scale vector. -/
theorem col_g (c : Dev nD) : colFn (V1 m ρ c main_v1) = vecFn (m ((c : Thread nD τ).loc main_arg1)) := by
  funext cc
  show (V1 m ρ c main_v1 : S256x1.Idx → EReal) (ix2 cc (0 : Fin 1)) = _
  rw [V1_v1]
  exact col_of_vec _ _ cc

/-- The shift column is the shift vector. -/
theorem col_be (c : Dev nD) : colFn (V1 m ρ c main_v2) = vecFn (m ((c : Thread nD τ).loc main_arg2)) := by
  funext cc
  show (V1 m ρ c main_v2 : S256x1.Idx → EReal) (ix2 cc (0 : Fin 1)) = _
  rw [V1_v2]
  exact col_of_vec _ _ cc

/-- The bias column is the bias vector. -/
theorem col_bp (c : Dev nD) : colFn (V1 m ρ c main_v3) = vecFn (m ((c : Thread nD τ).loc main_arg5)) := by
  funext cc
  show (V1 m ρ c main_v3 : S256x1.Idx → EReal) (ix2 cc (0 : Fin 1)) = _
  rw [V1_v3]
  exact col_of_vec _ _ cc

/-! ## What the second region finds -/

/-- Projection rows `row j` of the arguments, weight on the left. -/
def rowsOf (c : Dev nD) (row : Fin 256 → Fin 768) : Act := fun b j n =>
  projL (actOfImg (m ((c : Thread nD τ).loc main_arg0))) (vecFn (m ((c : Thread nD τ).loc main_arg1)))
    (vecFn (m ((c : Thread nD τ).loc main_arg2))) (wqFn (m ((c : Thread nD τ).loc main_arg3))) b (row j) n

/-- The first region's output arrays are projection rows of the arguments. -/
theorem projArr_eq (c : Dev nD) (row : Fin 256 → Fin 768) :
    actOfTok (Region0.projArr (V1 m ρ) c row) = rowsOf m c row := by
  unfold Region0.projArr rowsOf
  show (fun b r n => projL (actOfTok (V1 m ρ c main_v0)) (colFn (V1 m ρ c main_v1)) (colFn (V1 m ρ c main_v2))
    (wqFn (V1 m ρ c main_v4)) b (row r) n) = _
  rw [act_x, col_g, col_be, V1_v4]

theorem act_q (c : Dev nD) : actOfTok (V2 m ρ c (Pipeline.arrRef spec1 0)) = rowsOf m c rowQ := by
  rw [V2_q, Region0.arr4]; exact projArr_eq m ρ c rowQ
theorem act_k (c : Dev nD) : actOfTok (V2 m ρ c (Pipeline.arrRef spec1 1)) = rowsOf m c rowK := by
  rw [V2_k, Region0.arr5]; exact projArr_eq m ρ c rowK
theorem act_v (c : Dev nD) : actOfTok (V2 m ρ c (Pipeline.arrRef spec1 2)) = rowsOf m c rowV := by
  rw [V2_v, Region0.arr6]; exact projArr_eq m ρ c rowV

/-- The residual the second region finds is the image, feature-major. -/
theorem act_res (c : Dev nD) :
    actOfTok (V2 m ρ c (Pipeline.arrRef spec1 3)) = actOfImg (m ((c : Thread nD τ).loc main_arg0)) := by
  rw [V2_x]; exact act_x m ρ c

/-- The output weights it finds are the argument's. -/
theorem wp_eq (c : Dev nD) : wpFn (V2 m ρ c (Pipeline.arrRef spec1 4)) = wpFn (m ((c : Thread nD τ).loc main_arg4)) := by
  rw [V2_wp, V1_v5]

/-- The bias column it finds is the bias vector. -/
theorem bp_eq (c : Dev nD) : colFn (V2 m ρ c (Pipeline.arrRef spec1 5)) = vecFn (m ((c : Thread nD τ).loc main_arg5)) := by
  rw [V2_bp]; exact col_bp m ρ c

/-! ## The result -/

/-- Given what the second region leaves in its output array as a function of the arrays it finds, the program's
    result is the specification's, DIVIDE LAST, of the six arguments. -/
theorem result_eq (c : Dev nD)
    (h1 : ∀ (V : (c : Dev nD) → (b : Ref sig .tc) → Buf (Elt Ideal) ((c : Thread nD τ).loc b)) (c : Dev nD),
      (dat1 (F := Ideal) V c).arrAt 6 cfg1.N = tokOfAct (outL (actOfTok (V c (Pipeline.arrRef spec1 0)))
        (actOfTok (V c (Pipeline.arrRef spec1 1))) (actOfTok (V c (Pipeline.arrRef spec1 2)))
        (actOfTok (V c (Pipeline.arrRef spec1 3))) (wpFn (V c (Pipeline.arrRef spec1 4)))
        (colFn (V c (Pipeline.arrRef spec1 5))))) :
    W4 m ρ c (Proc.devRef .tc main_v8)
      = resultL (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [W4_v8, W3_out, h1 (V2 m ρ) c, act_q, act_k, act_v, act_res, wp_eq, bp_eq]
  funext i
  obtain ⟨b, cc, hh, w, rfl⟩ : ∃ (b : Fin 2) (cc : Fin 256) (hh w : Fin 64), i = ix4 b cc hh w :=
    ⟨i 0, i 1, i 2, i 3, eq_ix4 i⟩
  rw [img_of_tokens]
  rfl

end Cert.KernelIdeal.Assembled

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.Region1Ops.lean ====
/-
  The vector operations of the attention body, each read at one entry over the extended reals.

  The body works on a block of 512 query tokens against all 4096 key tokens, one head (32 channel rows) at a time.
  * The score product contracts the channel axis of BOTH operands: with keys `k` [32, 4096] on the left and queries
    `q` [32, 512] on the right, entry (m, n) is the sum over the 32 rows d of `k (d, m) · q (d, n)`.
  * A reduction of a [4096, 512] array over its first axis, read at column n, runs over the 4096 entries (m, n):
    a maximum from minus infinity (the bottom element), or a sum.
  * A column statistic [512] viewed as one row [1, 512] and repeated over rows reads, at (·, n), the statistic at n.
  * Eight [32, 512] pieces stacked along the rows read, at row 32·h + d, piece h at row d.
  * Rows o … o + 31 of a [1, 256, w] block, viewed as [32, w], read at (d, n) the block at (0, o + d, n).
  Nothing here depends on where the blocks come from.
-/
import proofs.«164593_j26371099198429_2_alg».proof.Proof.Gen.KernelIdeal
import proofs.«164593_j26371099198429_2_alg».proof.Proof.LibDense
import Idealize.ShloMosaic.PureOps.Ideal.Laws
import Idealize.ShloMosaic.Lib.ValueIdx
import Idealize.ShloMosaic.Lib.ValueLayout
import Idealize.ShloMosaic.Lib.Pipeline.FrameBody

noncomputable section

open scoped BigOperators

namespace Cert.KernelIdeal.Region1

open Cert.KernelIdeal Cert.KernelIdeal.Gen Idealize.ShloMosaic Idealize.ShloMosaic.ValueIdx

/-- The word of minus infinity is the bottom element of the extended reals. -/
theorem ofBits_negInf : Ideal.ofBits .f32 0xFF800000#32 = ⊥ := by simp [Ideal.ofBits, Ideal.ieee]

/-! ## The score product: both operands contracted on their channel axis -/

/-- Keys [32, 4096] against queries [32, 512] into the zero accumulator, at (m, n): the sum over the rows d of
    `k (d, m) · q (d, n)`. -/
theorem scores_apply (k : FVec Ideal S32x4096 .bf16) (q : FVec Ideal S32x512 .bf16) (m : Fin 4096) (n : Fin 512) :
    matmul dot_S32x4096_S32x512_S4096x512_0_0_1_1_n_n none k q (constant (F := Ideal) S4096x512 .f32 0x00000000#32) (ix2 m n)
      = ∑ d : Fin 32, k (ix2 d m) * q (ix2 d n) := by
  refine (Ideal.matmul_constant_zero_apply dot_S32x4096_S32x512_S4096x512_0_0_1_1_n_n none k q (ix2 m n)).trans ?_
  have hr : (dot_S32x4096_S32x512_S4096x512_0_0_1_1_n_n).contr.rank = 1 := rfl
  have hs : (dot_S32x4096_S32x512_S4096x512_0_0_1_1_n_n).contr.size ⟨0, by omega⟩ = 32 := rfl
  rw [← Equiv.sum_comp (contrEquiv1 dot_S32x4096_S32x512_S4096x512_0_0_1_1_n_n 32 hr hs).symm]
  refine Finset.sum_congr rfl fun d _ => ?_
  have hl : (dot_S32x4096_S32x512_S4096x512_0_0_1_1_n_n).lhsIdx (ix2 m n) ((contrEquiv1 dot_S32x4096_S32x512_S4096x512_0_0_1_1_n_n 32 hr hs).symm d) = ix2 d m := by
    funext a
    apply Fin.ext
    match a with
    | ⟨0, _⟩ =>
      exact ((dot_S32x4096_S32x512_S4096x512_0_0_1_1_n_n).lhsIdx_val_of_single (cl := (0 : Fin 2)) rfl _ _).trans (contrEquiv1_symm_val _ 32 hr hs d)
    | ⟨1, _⟩ => rfl
  have hrr : (dot_S32x4096_S32x512_S4096x512_0_0_1_1_n_n).rhsIdx (ix2 m n) ((contrEquiv1 dot_S32x4096_S32x512_S4096x512_0_0_1_1_n_n 32 hr hs).symm d) = ix2 d n := by
    funext a
    apply Fin.ext
    match a with
    | ⟨0, _⟩ =>
      exact ((dot_S32x4096_S32x512_S4096x512_0_0_1_1_n_n).rhsIdx_val_of_single (cr := (0 : Fin 2)) rfl _ _).trans (contrEquiv1_symm_val _ 32 hr hs d)
    | ⟨1, _⟩ => rfl
  rw [hl, hrr]

/-! ## Reductions over the key axis -/

/-- The index (m, n) of a [4096, 512] array is column n with the reduced coordinate m put back. -/
theorem lift_col (h : S4096x512.Reduces [0] S512) (n : Fin 512) (m : Fin 4096) : h.lift (ix1 n) m = ix2 m n := by
  funext a
  apply Fin.ext
  match a with
  | ⟨0, _⟩ => rfl
  | ⟨1, _⟩ => rfl

/-- The maximum over the key axis, at column n: the running maximum from the bottom element of the 4096 entries (m, n). -/
theorem colMax_apply (s : FVec Ideal S4096x512 .f32) (h : S4096x512.Reduces [0] S512) (hφ : FKind.Formats .f32)
    (hacc : (0xFF800000#32 : BitVec 32) = FKind.maximumf.neutral .f32 hφ) (n : Fin 512) :
    multiReduction .maximumf [0] S512 s 0xFF800000#32 h hφ hacc (ix1 n)
      = (Finset.univ : Finset (Fin 4096)).fold max ⊥ (fun m => s (ix2 m n)) := by
  refine (Ideal.multiReduction_maximumf_single s 0xFF800000#32 h hφ hacc (ix1 n)).trans ?_
  show (Finset.univ : Finset (Fin 4096)).fold max (Ideal.ofBits .f32 0xFF800000#32) (fun m => s (h.lift (ix1 n) m)) = _
  rw [ofBits_negInf]
  exact congrArg (fun f => (Finset.univ : Finset (Fin 4096)).fold max ⊥ f) (funext fun m => congrArg s (lift_col h n m))

/-- The sum over the key axis, at column n: the sum of the 4096 entries (m, n). -/
theorem colSum_apply (s : FVec Ideal S4096x512 .f32) (h : S4096x512.Reduces [0] S512) (hφ : FKind.Formats .f32)
    (hacc : (0x00000000#32 : BitVec 32) = FKind.add.neutral .f32 hφ) (n : Fin 512) :
    multiReduction .add [0] S512 s 0x00000000#32 h hφ hacc (ix1 n) = ∑ m : Fin 4096, s (ix2 m n) := by
  refine (Ideal.multiReduction_add_single s 0x00000000#32 h hφ hacc (ix1 n)).trans ?_
  exact Finset.sum_congr rfl fun m _ => congrArg s (lift_col h n m)

/-! ## A column statistic repeated over rows -/

/-- A [512] vector viewed as one row and repeated over `a` rows reads, at (p, n), the vector at n. -/
theorem rowRepeat_apply {a : ℕ} (r : FVec Ideal S512 .f32) (h1 : S512.ShapeCasts S1x512)
    (h2 : S1x512.Broadcasts ⟨2, ![a, 512]⟩) (p : Fin a) (n : Fin 512) :
    broadcastTo ⟨2, ![a, 512]⟩ (shapeCast S1x512 r h1) h2 (ix2 p n) = r (ix1 n) :=
  (broadcastTo_1b_ab_apply _ h2 p n).trans (shapeCast_a_1a_apply r h1 0 n)

end Cert.KernelIdeal.Region1

end
-- ==== Proof.Region1Head.lean ====
/-
  One attention head on a block of 512 query tokens, as the body computes it, read at one entry.

  For queries `q` [32, 512], keys `k` and values `v` [32, 4096] (32 channel rows of one head):
  scores `s (m, n) = (Σ_d k (d, m) · q (d, n)) · scale`, their maximum over the key tokens m from the bottom element,
  weights `p (m, n) = exp (s (m, n) − max_n)`, normalizer `l n = Σ_m p (m, n)`, and the head's output
  `(Σ_m v (d, m) · p (m, n)) / l n`: the division comes AFTER the weighted sum. `headFn` states this over plain index
  types; `headPay` is the same computation as vector operations, and `headPay_apply` reads it at (d, n).
-/
import proofs.«164593_j26371099198429_2_alg».proof.Proof.Spec
import proofs.«164593_j26371099198429_2_alg».proof.Proof.Region1Ops

noncomputable section

open scoped BigOperators

namespace Cert.KernelIdeal.Region1

open Cert.KernelIdeal Cert.KernelIdeal.Gen Idealize.ShloMosaic Idealize.ShloMosaic.ValueIdx

/-! ## The head over plain index types -/

def scoreFn (q : Fin 32 → Fin 512 → EReal) (k : Fin 32 → Fin 4096 → EReal) (m : Fin 4096) (n : Fin 512) : EReal :=
  (∑ d : Fin 32, k d m * q d n) * Cert.Attn.scale
def smaxFn (q : Fin 32 → Fin 512 → EReal) (k : Fin 32 → Fin 4096 → EReal) (n : Fin 512) : EReal :=
  (Finset.univ : Finset (Fin 4096)).fold max ⊥ (fun m => scoreFn q k m n)
def pexpFn (q : Fin 32 → Fin 512 → EReal) (k : Fin 32 → Fin 4096 → EReal) (m : Fin 4096) (n : Fin 512) : EReal :=
  Ideal.exp (scoreFn q k m n - smaxFn q k n)
def psumFn (q : Fin 32 → Fin 512 → EReal) (k : Fin 32 → Fin 4096 → EReal) (n : Fin 512) : EReal :=
  ∑ m : Fin 4096, pexpFn q k m n
def headFn (q : Fin 32 → Fin 512 → EReal) (k v : Fin 32 → Fin 4096 → EReal) (d : Fin 32) (n : Fin 512) : EReal :=
  Ideal.div (∑ m : Fin 4096, v d m * pexpFn q k m n) (psumFn q k n)

/-! ## The head as vector operations -/

/-- Scaled scores: keys on the left of the product. -/
def scoresOf (q : FVec Ideal S32x512 .bf16) (k : FVec Ideal S32x4096 .bf16) : FVec Ideal S4096x512 .f32 :=
  mulf (matmul dot_S32x4096_S32x512_S4096x512_0_0_1_1_n_n none k q (constant S4096x512 .f32 0x00000000#32))
    (broadcast S4096x512 (Scalar.ofBits .f32 0x3E3504F3#32))

/-- The column maxima of the scores, repeated over the 4096 rows. -/
def colMaxOf (s : FVec Ideal S4096x512 .f32) : FVec Ideal S4096x512 .f32 :=
  broadcastTo S4096x512 (shapeCast S1x512 (multiReduction .maximumf [0] S512 s 0xFF800000#32 reduces_S4096x512_S512 (.inl rfl) rfl)
    shapeCasts_S512_S1x512) broadcasts_S1x512_S4096x512

/-- From the scores and their repeated maxima: weights, normalizer, weighted sum of the values, division. -/
def tailOf (v : FVec Ideal S32x4096 .bf16) (s mx : FVec Ideal S4096x512 .f32) : FVec Ideal S32x512 .f32 :=
  divf (matmul dot_S32x4096_S4096x512_S32x512_1_0_0_1_n_n none v (truncf .bf16 (exp (subf s mx)) bitsLt_bf16_f32) (constant S32x512 .f32 0x00000000#32))
    (broadcastTo S32x512 (shapeCast S1x512 (multiReduction .add [0] S512 (exp (subf s mx)) 0x00000000#32 reduces_S4096x512_S512 (.inl rfl) rfl)
      shapeCasts_S512_S1x512) broadcasts_S1x512_S32x512)

/-- One head. -/
def headPay (q : FVec Ideal S32x512 .bf16) (k v : FVec Ideal S32x4096 .bf16) : FVec Ideal S32x512 .f32 :=
  tailOf v (scoresOf q k) (colMaxOf (scoresOf q k))

/-! ## Read at an entry -/

theorem scoresOf_apply (q : FVec Ideal S32x512 .bf16) (k : FVec Ideal S32x4096 .bf16) (m : Fin 4096) (n : Fin 512) :
    scoresOf q k (ix2 m n) = scoreFn (fun d n => q (ix2 d n)) (fun d m => k (ix2 d m)) m n := by
  unfold scoresOf scoreFn
  rw [mulf_apply, scores_apply]
  rfl

theorem colMaxOf_apply (s : FVec Ideal S4096x512 .f32) (m : Fin 4096) (n : Fin 512) :
    colMaxOf s (ix2 m n) = (Finset.univ : Finset (Fin 4096)).fold max ⊥ (fun m' => s (ix2 m' n)) :=
  (rowRepeat_apply _ shapeCasts_S512_S1x512 broadcasts_S1x512_S4096x512 m n).trans
    (colMax_apply s reduces_S4096x512_S512 (.inl rfl) rfl n)

theorem tailOf_apply (v : FVec Ideal S32x4096 .bf16) (s mx : FVec Ideal S4096x512 .f32) (d : Fin 32) (n : Fin 512) :
    tailOf v s mx (ix2 d n)
      = Ideal.div (∑ m : Fin 4096, v (ix2 d m) * Ideal.exp (s (ix2 m n) - mx (ix2 m n)))
          (∑ m : Fin 4096, Ideal.exp (s (ix2 m n) - mx (ix2 m n))) := by
  unfold tailOf
  rw [divf_apply]
  have hnum : matmul dot_S32x4096_S4096x512_S32x512_1_0_0_1_n_n none v (truncf .bf16 (exp (subf s mx)) bitsLt_bf16_f32) (constant S32x512 .f32 0x00000000#32) (ix2 d n)
      = ∑ m : Fin 4096, v (ix2 d m) * Ideal.exp (s (ix2 m n) - mx (ix2 m n)) :=
    LibDense.plain_matmul_apply dot_S32x4096_S4096x512_S32x512_1_0_0_1_n_n rfl none v _ d n
  have hden : broadcastTo S32x512 (shapeCast S1x512 (multiReduction .add [0] S512 (exp (subf s mx)) 0x00000000#32 reduces_S4096x512_S512 (.inl rfl) rfl)
      shapeCasts_S512_S1x512) broadcasts_S1x512_S32x512 (ix2 d n) = ∑ m : Fin 4096, Ideal.exp (s (ix2 m n) - mx (ix2 m n)) :=
    (rowRepeat_apply _ shapeCasts_S512_S1x512 broadcasts_S1x512_S32x512 d n).trans
      (colSum_apply _ reduces_S4096x512_S512 (.inl rfl) rfl n)
  rw [hnum, hden]

/-- The head read at row d and query token n. -/
theorem headPay_apply (q : FVec Ideal S32x512 .bf16) (k v : FVec Ideal S32x4096 .bf16) (d : Fin 32) (n : Fin 512) :
    headPay q k v (ix2 d n)
      = headFn (fun d n => q (ix2 d n)) (fun d m => k (ix2 d m)) (fun d m => v (ix2 d m)) d n := by
  unfold headPay
  rw [tailOf_apply]
  simp only [scoresOf_apply, colMaxOf_apply]
  rfl

/-- On a window of the query tokens (token `n` of the window is token `tok n` of the sequence) the head over plain index
    types is the specification's head, keys on the left of the score product and the division last. -/
theorem headFn_window (Q K V : Cert.Attn.Act) (b : Fin 2) (h : Fin 8) (tok : Fin 512 → Fin 4096) (d : Fin 32) (n : Fin 512) :
    headFn (fun d n' => Q b (Cert.Attn.hrow h d) (tok n')) (fun d m => K b (Cert.Attn.hrow h d) m)
        (fun d m => V b (Cert.Attn.hrow h d) m) d n
      = Cert.Attn.headL Q K V b h d (tok n) := rfl

end Cert.KernelIdeal.Region1

end
-- ==== Proof.Region1Pay.lean ====
/-
  The fused attention, projection and residual body on one block, as one term over its loaded blocks.

  The body's payloads group the eight heads unevenly; each group IS the one-head computation `headPay` of the head's three
  bands of 32 rows (queries from the [1, 256, 512] block, keys and values from the [1, 256, 4096] blocks), by unfolding.
  The last payload stacks the eight heads, multiplies by the projection weights, adds the bias column repeated over the
  tokens, and adds the residual block: `projOf`. So what the body leaves in the output buffer is `projOf` of the stack of
  the eight `headPay`s (`out_eq`).
-/
import proofs.«164593_j26371099198429_2_alg».proof.Proof.Gen.KernelIdeal.Frame
import proofs.«164593_j26371099198429_2_alg».proof.Proof.Region1Head

noncomputable section

namespace Cert.KernelIdeal.Region1

open Cert.KernelIdeal Cert.KernelIdeal.Gen Idealize.ShloMosaic Idealize.ShloMosaic.ValueIdx

/-! ## Each group of payloads is one head -/

theorem pay_head0 (v0 : Vec Ideal S1x32x512 .bf16) (v2 v4 : Vec Ideal S1x32x4096 .bf16) :
    k1_pay1 v0 v2 v4 = headPay (shapeCast S32x512 v0 shapeCasts_S1x32x512_S32x512) (shapeCast S32x4096 v2 shapeCasts_S1x32x4096_S32x4096) (shapeCast S32x4096 v4 shapeCasts_S1x32x4096_S32x4096) := rfl
theorem pay_head1 (v20 : Vec Ideal S1x32x512 .bf16) (v22 v24 : Vec Ideal S1x32x4096 .bf16) :
    k1_pay5 (k1_pay2 v24) (k1_pay3 v20 v22) (k1_pay4 v20 v22) = headPay (shapeCast S32x512 v20 shapeCasts_S1x32x512_S32x512) (shapeCast S32x4096 v22 shapeCasts_S1x32x4096_S32x4096) (shapeCast S32x4096 v24 shapeCasts_S1x32x4096_S32x4096) := rfl
theorem pay_head2 (v40 : Vec Ideal S1x32x512 .bf16) (v42 v44 : Vec Ideal S1x32x4096 .bf16) :
    k1_pay6 v40 v42 v44 = headPay (shapeCast S32x512 v40 shapeCasts_S1x32x512_S32x512) (shapeCast S32x4096 v42 shapeCasts_S1x32x4096_S32x4096) (shapeCast S32x4096 v44 shapeCasts_S1x32x4096_S32x4096) := rfl
theorem pay_head3 (v60 : Vec Ideal S1x32x512 .bf16) (v62 v64 : Vec Ideal S1x32x4096 .bf16) :
    k1_pay10 (k1_pay7 v60) (k1_pay8 v62) (k1_pay9 v64) (constant S4096x512 .f32 0x00000000#32)
      = headPay (shapeCast S32x512 v60 shapeCasts_S1x32x512_S32x512) (shapeCast S32x4096 v62 shapeCasts_S1x32x4096_S32x4096) (shapeCast S32x4096 v64 shapeCasts_S1x32x4096_S32x4096) := rfl
theorem pay_head4 (v80 : Vec Ideal S1x32x512 .bf16) (v82 v84 : Vec Ideal S1x32x4096 .bf16) :
    k1_pay11 v80 v82 v84 = headPay (shapeCast S32x512 v80 shapeCasts_S1x32x512_S32x512) (shapeCast S32x4096 v82 shapeCasts_S1x32x4096_S32x4096) (shapeCast S32x4096 v84 shapeCasts_S1x32x4096_S32x4096) := rfl
theorem pay_head5 (v100 : Vec Ideal S1x32x512 .bf16) (v102 v104 : Vec Ideal S1x32x4096 .bf16) :
    k1_pay13 (k1_pay12 v100) v102 v104 = headPay (shapeCast S32x512 v100 shapeCasts_S1x32x512_S32x512) (shapeCast S32x4096 v102 shapeCasts_S1x32x4096_S32x4096) (shapeCast S32x4096 v104 shapeCasts_S1x32x4096_S32x4096) := rfl
theorem pay_head6 (v120 : Vec Ideal S1x32x512 .bf16) (v122 v124 : Vec Ideal S1x32x4096 .bf16) :
    k1_pay14 v120 v122 v124 = headPay (shapeCast S32x512 v120 shapeCasts_S1x32x512_S32x512) (shapeCast S32x4096 v122 shapeCasts_S1x32x4096_S32x4096) (shapeCast S32x4096 v124 shapeCasts_S1x32x4096_S32x4096) := rfl

/-! ## Projection, bias and residual -/

/-- From the stacked heads [256, 512]: the projection product with the weights on the left, plus the bias column repeated
    over the tokens, plus the residual block. -/
def projOf (cat : FVec Ideal S256x512 .f32) (w : Vec Ideal S256x256 .bf16) (bcol : Vec Ideal S256x1 .f32)
    (xres : Vec Ideal S1x256x512 .f32) : FVec Ideal S1x256x512 .f32 :=
  shapeCast S1x256x512
    (addf (addf (matmul dot_S256x256_S256x512_S256x512_1_0_0_1_n_n none (shapeCast S256x256 w shapeCasts_S256x256_S256x256 : FVec Ideal S256x256 .bf16)
          (truncf .bf16 cat bitsLt_bf16_f32 : FVec Ideal S256x512 .bf16) (constant S256x512 .f32 0x00000000#32))
        (broadcastTo S256x512 (shapeCast S256x1 bcol shapeCasts_S256x1_S256x1 : FVec Ideal S256x1 .f32) broadcasts_S256x1_S256x512))
      (shapeCast S256x512 xres shapeCasts_S1x256x512_S256x512 : FVec Ideal S256x512 .f32))
    shapeCasts_S256x512_S1x256x512

/-- The last payload: the eighth head computed in place, the stack, then `projOf`. -/
theorem pay_last (v19 v39 v59 v79 v99 v119 v139 : FVec Ideal S32x512 .f32) (v140 : Vec Ideal S1x32x512 .bf16)
    (v142 v144 : Vec Ideal S1x32x4096 .bf16) (v162 : Vec Ideal S256x256 .bf16) (v165 : Vec Ideal S256x1 .f32)
    (v169 : Vec Ideal S1x256x512 .f32) :
    k1_pay15 v19 v39 v59 v79 v99 v119 v139 v140 v142 v144 v162 v165 v169
      = projOf (concatenate S256x512 0 [⟨S32x512, v19⟩, ⟨S32x512, v39⟩, ⟨S32x512, v59⟩, ⟨S32x512, v79⟩, ⟨S32x512, v99⟩,
          ⟨S32x512, v119⟩, ⟨S32x512, v139⟩, ⟨S32x512, headPay (shapeCast S32x512 v140 shapeCasts_S1x32x512_S32x512) (shapeCast S32x4096 v142 shapeCasts_S1x32x4096_S32x4096) (shapeCast S32x4096 v144 shapeCasts_S1x32x4096_S32x4096)⟩] concatenates_S32x512_S32x512_S32x512_S32x512_S32x512_S32x512_S32x512_S32x512_S256x512_d0)
        v162 v165 v169 := rfl

/-! ## The whole body on a block -/

/-- The eight heads of a block: head h from rows 32·h … 32·h + 31 of the three blocks. -/
def headsOf (x0 : Vec Ideal S1x256x512 .bf16) (x1 x2 : Vec Ideal S1x256x4096 .bf16) : Fin 8 → FVec Ideal S32x512 .f32 :=
  ![headPay (shapeCast S32x512 (View.ld x0 r1_0) shapeCasts_S1x32x512_S32x512) (shapeCast S32x4096 (View.ld x1 r1_1) shapeCasts_S1x32x4096_S32x4096) (shapeCast S32x4096 (View.ld x2 r1_1) shapeCasts_S1x32x4096_S32x4096),
    headPay (shapeCast S32x512 (View.ld x0 r1_2) shapeCasts_S1x32x512_S32x512) (shapeCast S32x4096 (View.ld x1 r1_3) shapeCasts_S1x32x4096_S32x4096) (shapeCast S32x4096 (View.ld x2 r1_3) shapeCasts_S1x32x4096_S32x4096),
    headPay (shapeCast S32x512 (View.ld x0 r1_4) shapeCasts_S1x32x512_S32x512) (shapeCast S32x4096 (View.ld x1 r1_5) shapeCasts_S1x32x4096_S32x4096) (shapeCast S32x4096 (View.ld x2 r1_5) shapeCasts_S1x32x4096_S32x4096),
    headPay (shapeCast S32x512 (View.ld x0 r1_6) shapeCasts_S1x32x512_S32x512) (shapeCast S32x4096 (View.ld x1 r1_7) shapeCasts_S1x32x4096_S32x4096) (shapeCast S32x4096 (View.ld x2 r1_7) shapeCasts_S1x32x4096_S32x4096),
    headPay (shapeCast S32x512 (View.ld x0 r1_8) shapeCasts_S1x32x512_S32x512) (shapeCast S32x4096 (View.ld x1 r1_9) shapeCasts_S1x32x4096_S32x4096) (shapeCast S32x4096 (View.ld x2 r1_9) shapeCasts_S1x32x4096_S32x4096),
    headPay (shapeCast S32x512 (View.ld x0 r1_10) shapeCasts_S1x32x512_S32x512) (shapeCast S32x4096 (View.ld x1 r1_11) shapeCasts_S1x32x4096_S32x4096) (shapeCast S32x4096 (View.ld x2 r1_11) shapeCasts_S1x32x4096_S32x4096),
    headPay (shapeCast S32x512 (View.ld x0 r1_12) shapeCasts_S1x32x512_S32x512) (shapeCast S32x4096 (View.ld x1 r1_13) shapeCasts_S1x32x4096_S32x4096) (shapeCast S32x4096 (View.ld x2 r1_13) shapeCasts_S1x32x4096_S32x4096),
    headPay (shapeCast S32x512 (View.ld x0 r1_14) shapeCasts_S1x32x512_S32x512) (shapeCast S32x4096 (View.ld x1 r1_15) shapeCasts_S1x32x4096_S32x4096) (shapeCast S32x4096 (View.ld x2 r1_15) shapeCasts_S1x32x4096_S32x4096)]

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output buffer: `projOf` of the stack of the eight heads. -/
theorem out_eq (x0 : Vec Ideal S1x256x512 .bf16) (x1 x2 : Vec Ideal S1x256x4096 .bf16) (x3 : Vec Ideal S1x256x512 .f32)
    (x4 : Vec Ideal S256x256 .bf16) (x5 : Vec Ideal S256x1 .f32) :
    out1_6 x0 x1 x2 x3 x4 x5
      = projOf (concatenate S256x512 0 [⟨S32x512, headsOf x0 x1 x2 0⟩, ⟨S32x512, headsOf x0 x1 x2 1⟩, ⟨S32x512, headsOf x0 x1 x2 2⟩, ⟨S32x512, headsOf x0 x1 x2 3⟩, ⟨S32x512, headsOf x0 x1 x2 4⟩, ⟨S32x512, headsOf x0 x1 x2 5⟩, ⟨S32x512, headsOf x0 x1 x2 6⟩, ⟨S32x512, headsOf x0 x1 x2 7⟩] concatenates_S32x512_S32x512_S32x512_S32x512_S32x512_S32x512_S32x512_S32x512_S256x512_d0) x4 x5 x3 := by
  unfold out1_6
  rw [View.canon_unit_zero hz3]
  rw [pay_head0, pay_head1, pay_head2, pay_head3, pay_head4, pay_head5, pay_head6, pay_last]
  rw [View.ld_unit_zero (S := S256x256) hz2, View.ld_unit_zero (S := S256x1) hz2, View.ld_unit_zero (S := S1x256x512) hz3]
  rfl

end Cert.KernelIdeal.Region1

end
-- ==== Proof.Region1Layout.lean ====
/-
  Two layout facts of the attention body, read at one entry.

  * Eight [32, 512] pieces stacked along the rows read, at row 32·h + d, piece h at row d.
  * Rows o … o + 31 of a [1, 256, w] block, viewed as a [32, w] matrix, read at (d, n) the block at (0, o + d, n).
-/
import proofs.«164593_j26371099198429_2_alg».proof.Proof.Gen.KernelIdeal
import Idealize.ShloMosaic.Lib.ValueIdx
import Idealize.ShloMosaic.Lib.ValueLayout
import Idealize.ShloMosaic.Lib.Pipeline.FrameBody

noncomputable section

namespace Cert.KernelIdeal.Region1

open Cert.KernelIdeal Cert.KernelIdeal.Gen Idealize.ShloMosaic Idealize.ShloMosaic.ValueIdx

/-! ## Eight heads stacked along the rows -/

/-- Row j = 32·k + d of the stack of eight pieces is row d of piece k. -/
theorem cat8_apply {α : Type} (p : Fin 8 → (S32x512.Idx → α))
    (h : Shape.Concatenates [S32x512, S32x512, S32x512, S32x512, S32x512, S32x512, S32x512, S32x512] S256x512 0)
    (k : ℕ) (hk : k < 8) (d : Fin 32) (n : Fin 512) (j : Fin 256) (hj : j.val = 32 * k + d.val) :
    concatenate S256x512 0 [⟨S32x512, p 0⟩, ⟨S32x512, p 1⟩, ⟨S32x512, p 2⟩, ⟨S32x512, p 3⟩, ⟨S32x512, p 4⟩, ⟨S32x512, p 5⟩, ⟨S32x512, p 6⟩, ⟨S32x512, p 7⟩] h (ix2 j n) = p ⟨k, hk⟩ (ix2 d n) := by
  refine concatenate_apply_piece (t := S256x512) (0 : Fin 2) [⟨S32x512, p 0⟩, ⟨S32x512, p 1⟩, ⟨S32x512, p 2⟩, ⟨S32x512, p 3⟩, ⟨S32x512, p 4⟩, ⟨S32x512, p 5⟩, ⟨S32x512, p 6⟩, ⟨S32x512, p 7⟩] h (ix2 j n) k hk S32x512 (p ⟨k, hk⟩) ?_ rfl (32 * k) ?_ (ix2 d n) ?_ ?_
  · interval_cases k <;> rfl
  · interval_cases k <;> rfl
  · intro b hb
    match b with
    | ⟨0, _⟩ => exact absurd rfl hb
    | ⟨1, _⟩ => rfl
  · show 32 * k + d.val = j.val
    omega

/-! ## A band of 32 rows of a block -/

/-- Rows o … o + 31 of a [1, 256, w] block viewed as [32, w]: entry (d, n) is the block's entry (0, o + d, n). -/
theorem band_apply {Val : EltTy → Type} {e : EltTy} {w : ℕ} (o : ℕ) (x : (⟨3, ![1, 256, w]⟩ : Shape).Idx → Val e)
    (inb : ∀ a, (![0, o, 0] : Fin 3 → Nat) a + (⟨3, ![1, 32, w]⟩ : Shape).size a ≤ (⟨3, ![1, 256, w]⟩ : Shape).size a)
    (hc : (⟨3, ![1, 32, w]⟩ : Shape).ShapeCasts ⟨2, ![32, w]⟩) (d : Fin 32) (n : Fin w) (c : Fin 256)
    (hcd : c.val = o + d.val) :
    shapeCast ⟨2, ![32, w]⟩ (View.ld (Val := Val) (e' := e) x (Rect.unit (s := ⟨3, ![1, 256, w]⟩) ![0, o, 0] (⟨3, ![1, 32, w]⟩ : Shape).size inb)) hc (ix2 d n)
      = x (ix3 (0 : Fin 1) c n) := by
  refine (shapeCast_1ab_ab_apply _ hc d n).trans ?_
  show x _ = x _
  refine congrArg x (funext fun a => Fin.ext ?_)
  match a with
  | ⟨0, _⟩ => rfl
  | ⟨1, _⟩ => show o + 1 * d.val = c.val; omega
  | ⟨2, _⟩ => show 0 + 1 * n.val = n.val; omega

end Cert.KernelIdeal.Region1

end
-- ==== Proof.Region1Block.lean ====
/-
  The body on one block, read at one entry.

  Entry (0, c, n) of what the body leaves in the output buffer is
  `(Σ_j Wp (c, j) · head_{j / 32} (j % 32, n) + bias c) + x (0, c, n)`, where head h is the one-head function of rows
  32·h … 32·h + 31 of the query, key and value blocks.
-/
import proofs.«164593_j26371099198429_2_alg».proof.Proof.Region1Pay
import proofs.«164593_j26371099198429_2_alg».proof.Proof.Region1Layout

noncomputable section

open scoped BigOperators

namespace Cert.KernelIdeal.Region1

open Cert.KernelIdeal Cert.KernelIdeal.Gen Idealize.ShloMosaic Idealize.ShloMosaic.ValueIdx

/-- The 32 channel rows of head h of a [1, 256, 512] block, as a function of row and token. -/
def qrows (x0 : Vec Ideal S1x256x512 .bf16) (h : Fin 8) : Fin 32 → Fin 512 → EReal :=
  fun d n => x0 (ix3 (0 : Fin 1) (Cert.Attn.hrow h d) n)
/-- The 32 channel rows of head h of a [1, 256, 4096] block. -/
def krows (x1 : Vec Ideal S1x256x4096 .bf16) (h : Fin 8) : Fin 32 → Fin 4096 → EReal :=
  fun d m => x1 (ix3 (0 : Fin 1) (Cert.Attn.hrow h d) m)

/-- Head k of a block at (d, n): the one-head function of the head's rows. -/
theorem heads_apply (x0 : Vec Ideal S1x256x512 .bf16) (x1 x2 : Vec Ideal S1x256x4096 .bf16) (k : ℕ) (hk : k < 8)
    (d : Fin 32) (n : Fin 512) :
    headsOf x0 x1 x2 ⟨k, hk⟩ (ix2 d n) = headFn (qrows x0 ⟨k, hk⟩) (krows x1 ⟨k, hk⟩) (krows x2 ⟨k, hk⟩) d n := by
  interval_cases k
  · have e0 : (fun d n => (shapeCast S32x512 (View.ld x0 r1_0) shapeCasts_S1x32x512_S32x512) (ix2 d n)) = qrows x0 ⟨0, hk⟩ :=
      funext fun d' => funext fun n' => band_apply 0 x0 _ _ d' n' _ (by show 0 * 32 + d'.val = 0 + d'.val; omega)
    have e1 : (fun d m => (shapeCast S32x4096 (View.ld x1 r1_1) shapeCasts_S1x32x4096_S32x4096) (ix2 d m)) = krows x1 ⟨0, hk⟩ :=
      funext fun d' => funext fun m' => band_apply 0 x1 _ _ d' m' _ (by show 0 * 32 + d'.val = 0 + d'.val; omega)
    have e2 : (fun d m => (shapeCast S32x4096 (View.ld x2 r1_1) shapeCasts_S1x32x4096_S32x4096) (ix2 d m)) = krows x2 ⟨0, hk⟩ :=
      funext fun d' => funext fun m' => band_apply 0 x2 _ _ d' m' _ (by show 0 * 32 + d'.val = 0 + d'.val; omega)
    refine (headPay_apply (shapeCast S32x512 (View.ld x0 r1_0) shapeCasts_S1x32x512_S32x512) (shapeCast S32x4096 (View.ld x1 r1_1) shapeCasts_S1x32x4096_S32x4096) (shapeCast S32x4096 (View.ld x2 r1_1) shapeCasts_S1x32x4096_S32x4096) d n).trans ?_
    rw [e0, e1, e2]
  · have e0 : (fun d n => (shapeCast S32x512 (View.ld x0 r1_2) shapeCasts_S1x32x512_S32x512) (ix2 d n)) = qrows x0 ⟨1, hk⟩ :=
      funext fun d' => funext fun n' => band_apply 32 x0 _ _ d' n' _ (by show 1 * 32 + d'.val = 32 + d'.val; omega)
    have e1 : (fun d m => (shapeCast S32x4096 (View.ld x1 r1_3) shapeCasts_S1x32x4096_S32x4096) (ix2 d m)) = krows x1 ⟨1, hk⟩ :=
      funext fun d' => funext fun m' => band_apply 32 x1 _ _ d' m' _ (by show 1 * 32 + d'.val = 32 + d'.val; omega)
    have e2 : (fun d m => (shapeCast S32x4096 (View.ld x2 r1_3) shapeCasts_S1x32x4096_S32x4096) (ix2 d m)) = krows x2 ⟨1, hk⟩ :=
      funext fun d' => funext fun m' => band_apply 32 x2 _ _ d' m' _ (by show 1 * 32 + d'.val = 32 + d'.val; omega)
    refine (headPay_apply (shapeCast S32x512 (View.ld x0 r1_2) shapeCasts_S1x32x512_S32x512) (shapeCast S32x4096 (View.ld x1 r1_3) shapeCasts_S1x32x4096_S32x4096) (shapeCast S32x4096 (View.ld x2 r1_3) shapeCasts_S1x32x4096_S32x4096) d n).trans ?_
    rw [e0, e1, e2]
  · have e0 : (fun d n => (shapeCast S32x512 (View.ld x0 r1_4) shapeCasts_S1x32x512_S32x512) (ix2 d n)) = qrows x0 ⟨2, hk⟩ :=
      funext fun d' => funext fun n' => band_apply 64 x0 _ _ d' n' _ (by show 2 * 32 + d'.val = 64 + d'.val; omega)
    have e1 : (fun d m => (shapeCast S32x4096 (View.ld x1 r1_5) shapeCasts_S1x32x4096_S32x4096) (ix2 d m)) = krows x1 ⟨2, hk⟩ :=
      funext fun d' => funext fun m' => band_apply 64 x1 _ _ d' m' _ (by show 2 * 32 + d'.val = 64 + d'.val; omega)
    have e2 : (fun d m => (shapeCast S32x4096 (View.ld x2 r1_5) shapeCasts_S1x32x4096_S32x4096) (ix2 d m)) = krows x2 ⟨2, hk⟩ :=
      funext fun d' => funext fun m' => band_apply 64 x2 _ _ d' m' _ (by show 2 * 32 + d'.val = 64 + d'.val; omega)
    refine (headPay_apply (shapeCast S32x512 (View.ld x0 r1_4) shapeCasts_S1x32x512_S32x512) (shapeCast S32x4096 (View.ld x1 r1_5) shapeCasts_S1x32x4096_S32x4096) (shapeCast S32x4096 (View.ld x2 r1_5) shapeCasts_S1x32x4096_S32x4096) d n).trans ?_
    rw [e0, e1, e2]
  · have e0 : (fun d n => (shapeCast S32x512 (View.ld x0 r1_6) shapeCasts_S1x32x512_S32x512) (ix2 d n)) = qrows x0 ⟨3, hk⟩ :=
      funext fun d' => funext fun n' => band_apply 96 x0 _ _ d' n' _ (by show 3 * 32 + d'.val = 96 + d'.val; omega)
    have e1 : (fun d m => (shapeCast S32x4096 (View.ld x1 r1_7) shapeCasts_S1x32x4096_S32x4096) (ix2 d m)) = krows x1 ⟨3, hk⟩ :=
      funext fun d' => funext fun m' => band_apply 96 x1 _ _ d' m' _ (by show 3 * 32 + d'.val = 96 + d'.val; omega)
    have e2 : (fun d m => (shapeCast S32x4096 (View.ld x2 r1_7) shapeCasts_S1x32x4096_S32x4096) (ix2 d m)) = krows x2 ⟨3, hk⟩ :=
      funext fun d' => funext fun m' => band_apply 96 x2 _ _ d' m' _ (by show 3 * 32 + d'.val = 96 + d'.val; omega)
    refine (headPay_apply (shapeCast S32x512 (View.ld x0 r1_6) shapeCasts_S1x32x512_S32x512) (shapeCast S32x4096 (View.ld x1 r1_7) shapeCasts_S1x32x4096_S32x4096) (shapeCast S32x4096 (View.ld x2 r1_7) shapeCasts_S1x32x4096_S32x4096) d n).trans ?_
    rw [e0, e1, e2]
  · have e0 : (fun d n => (shapeCast S32x512 (View.ld x0 r1_8) shapeCasts_S1x32x512_S32x512) (ix2 d n)) = qrows x0 ⟨4, hk⟩ :=
      funext fun d' => funext fun n' => band_apply 128 x0 _ _ d' n' _ (by show 4 * 32 + d'.val = 128 + d'.val; omega)
    have e1 : (fun d m => (shapeCast S32x4096 (View.ld x1 r1_9) shapeCasts_S1x32x4096_S32x4096) (ix2 d m)) = krows x1 ⟨4, hk⟩ :=
      funext fun d' => funext fun m' => band_apply 128 x1 _ _ d' m' _ (by show 4 * 32 + d'.val = 128 + d'.val; omega)
    have e2 : (fun d m => (shapeCast S32x4096 (View.ld x2 r1_9) shapeCasts_S1x32x4096_S32x4096) (ix2 d m)) = krows x2 ⟨4, hk⟩ :=
      funext fun d' => funext fun m' => band_apply 128 x2 _ _ d' m' _ (by show 4 * 32 + d'.val = 128 + d'.val; omega)
    refine (headPay_apply (shapeCast S32x512 (View.ld x0 r1_8) shapeCasts_S1x32x512_S32x512) (shapeCast S32x4096 (View.ld x1 r1_9) shapeCasts_S1x32x4096_S32x4096) (shapeCast S32x4096 (View.ld x2 r1_9) shapeCasts_S1x32x4096_S32x4096) d n).trans ?_
    rw [e0, e1, e2]
  · have e0 : (fun d n => (shapeCast S32x512 (View.ld x0 r1_10) shapeCasts_S1x32x512_S32x512) (ix2 d n)) = qrows x0 ⟨5, hk⟩ :=
      funext fun d' => funext fun n' => band_apply 160 x0 _ _ d' n' _ (by show 5 * 32 + d'.val = 160 + d'.val; omega)
    have e1 : (fun d m => (shapeCast S32x4096 (View.ld x1 r1_11) shapeCasts_S1x32x4096_S32x4096) (ix2 d m)) = krows x1 ⟨5, hk⟩ :=
      funext fun d' => funext fun m' => band_apply 160 x1 _ _ d' m' _ (by show 5 * 32 + d'.val = 160 + d'.val; omega)
    have e2 : (fun d m => (shapeCast S32x4096 (View.ld x2 r1_11) shapeCasts_S1x32x4096_S32x4096) (ix2 d m)) = krows x2 ⟨5, hk⟩ :=
      funext fun d' => funext fun m' => band_apply 160 x2 _ _ d' m' _ (by show 5 * 32 + d'.val = 160 + d'.val; omega)
    refine (headPay_apply (shapeCast S32x512 (View.ld x0 r1_10) shapeCasts_S1x32x512_S32x512) (shapeCast S32x4096 (View.ld x1 r1_11) shapeCasts_S1x32x4096_S32x4096) (shapeCast S32x4096 (View.ld x2 r1_11) shapeCasts_S1x32x4096_S32x4096) d n).trans ?_
    rw [e0, e1, e2]
  · have e0 : (fun d n => (shapeCast S32x512 (View.ld x0 r1_12) shapeCasts_S1x32x512_S32x512) (ix2 d n)) = qrows x0 ⟨6, hk⟩ :=
      funext fun d' => funext fun n' => band_apply 192 x0 _ _ d' n' _ (by show 6 * 32 + d'.val = 192 + d'.val; omega)
    have e1 : (fun d m => (shapeCast S32x4096 (View.ld x1 r1_13) shapeCasts_S1x32x4096_S32x4096) (ix2 d m)) = krows x1 ⟨6, hk⟩ :=
      funext fun d' => funext fun m' => band_apply 192 x1 _ _ d' m' _ (by show 6 * 32 + d'.val = 192 + d'.val; omega)
    have e2 : (fun d m => (shapeCast S32x4096 (View.ld x2 r1_13) shapeCasts_S1x32x4096_S32x4096) (ix2 d m)) = krows x2 ⟨6, hk⟩ :=
      funext fun d' => funext fun m' => band_apply 192 x2 _ _ d' m' _ (by show 6 * 32 + d'.val = 192 + d'.val; omega)
    refine (headPay_apply (shapeCast S32x512 (View.ld x0 r1_12) shapeCasts_S1x32x512_S32x512) (shapeCast S32x4096 (View.ld x1 r1_13) shapeCasts_S1x32x4096_S32x4096) (shapeCast S32x4096 (View.ld x2 r1_13) shapeCasts_S1x32x4096_S32x4096) d n).trans ?_
    rw [e0, e1, e2]
  · have e0 : (fun d n => (shapeCast S32x512 (View.ld x0 r1_14) shapeCasts_S1x32x512_S32x512) (ix2 d n)) = qrows x0 ⟨7, hk⟩ :=
      funext fun d' => funext fun n' => band_apply 224 x0 _ _ d' n' _ (by show 7 * 32 + d'.val = 224 + d'.val; omega)
    have e1 : (fun d m => (shapeCast S32x4096 (View.ld x1 r1_15) shapeCasts_S1x32x4096_S32x4096) (ix2 d m)) = krows x1 ⟨7, hk⟩ :=
      funext fun d' => funext fun m' => band_apply 224 x1 _ _ d' m' _ (by show 7 * 32 + d'.val = 224 + d'.val; omega)
    have e2 : (fun d m => (shapeCast S32x4096 (View.ld x2 r1_15) shapeCasts_S1x32x4096_S32x4096) (ix2 d m)) = krows x2 ⟨7, hk⟩ :=
      funext fun d' => funext fun m' => band_apply 224 x2 _ _ d' m' _ (by show 7 * 32 + d'.val = 224 + d'.val; omega)
    refine (headPay_apply (shapeCast S32x512 (View.ld x0 r1_14) shapeCasts_S1x32x512_S32x512) (shapeCast S32x4096 (View.ld x1 r1_15) shapeCasts_S1x32x4096_S32x4096) (shapeCast S32x4096 (View.ld x2 r1_15) shapeCasts_S1x32x4096_S32x4096) d n).trans ?_
    rw [e0, e1, e2]

/-- The body's output block at channel c and token n. -/
theorem block_apply (x0 : Vec Ideal S1x256x512 .bf16) (x1 x2 : Vec Ideal S1x256x4096 .bf16) (x3 : Vec Ideal S1x256x512 .f32)
    (x4 : Vec Ideal S256x256 .bf16) (x5 : Vec Ideal S256x1 .f32) (c : Fin 256) (n : Fin 512) :
    out1_6 x0 x1 x2 x3 x4 x5 (ix3 (0 : Fin 1) c n)
      = ((∑ j : Fin 256, x4 (ix2 c j) * headFn (qrows x0 (Cert.Attn.headOf j)) (krows x1 (Cert.Attn.headOf j))
            (krows x2 (Cert.Attn.headOf j)) (Cert.Attn.rowOf j) n)
          + x5 (ix2 c (0 : Fin 1))) + x3 (ix3 (0 : Fin 1) c n) := by
  rw [out_eq]
  unfold projOf
  refine (shapeCast_ab_1ab_apply _ shapeCasts_S256x512_S1x256x512 (0 : Fin 1) c n).trans ?_
  rw [addf_apply, addf_apply]
  refine congrArg₂ (· + ·) (congrArg₂ (· + ·) ?_ ?_) ?_
  · refine (LibDense.plain_matmul_apply dot_S256x256_S256x512_S256x512_1_0_0_1_n_n rfl none _ _ c n).trans ?_
    refine Finset.sum_congr rfl fun j _ => ?_
    rw [shapeCast_self, truncf_apply]
    refine congrArg (x4 (ix2 c j) * ·) ?_
    have hk : j.val / 32 < 8 := by have := j.isLt; omega
    exact (cat8_apply (headsOf x0 x1 x2) concatenates_S32x512_S32x512_S32x512_S32x512_S32x512_S32x512_S32x512_S32x512_S256x512_d0 (j.val / 32) hk (Cert.Attn.rowOf j) n j
      (by show j.val = 32 * (j.val / 32) + j.val % 32; omega)).trans
      (heads_apply x0 x1 x2 (j.val / 32) hk (Cert.Attn.rowOf j) n)
  · refine (LibDense.broadcast_col_apply _ broadcasts_S256x1_S256x512 c n).trans ?_
    rw [shapeCast_self]
  · exact shapeCast_1ab_ab_apply x3 shapeCasts_S1x256x512_S256x512 c n

end Cert.KernelIdeal.Region1

end
-- ==== Proof.Region1Arr.lean ====
/-
  From blocks to the array: after the 16 grid points the output array of the attention region is ONE function of the
  arrays the region finds.

  Point t = 8·b + i works on batch b and query tokens 512·i … 512·i + 511: its query, residual and output blocks are
  [1, 256, 512] at block index (b, 0, i), its key and value blocks [1, 256, 4096] at (b, 0, 0), the projection weights and
  the bias column whole. Entry (0, c, n) of a block is entry (b, c, 512·i + n) (or (b, c, n)) of its array, so what the point
  writes back is its block of the whole-array function; the 16 blocks cover the array.
-/
import proofs.«164593_j26371099198429_2_alg».proof.Proof.Gen.KernelIdeal.Frame
import proofs.«164593_j26371099198429_2_alg».proof.Proof.Region1Block
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The index maps over the grid -/

/-- The windows' index maps, decided over the 16 points: point t is batch t / 8 and token block t % 8. -/
theorem idx_facts : ∀ t : Fin cfg1.N,
    (win1_0.index t (0 : Fin 3) = t.val / 8 ∧ win1_0.index t (1 : Fin 3) = 0 ∧ win1_0.index t (2 : Fin 3) = t.val % 8)
    ∧ (win1_1.index t (0 : Fin 3) = t.val / 8 ∧ win1_1.index t (1 : Fin 3) = 0 ∧ win1_1.index t (2 : Fin 3) = 0)
    ∧ (win1_2.index t (0 : Fin 3) = t.val / 8 ∧ win1_2.index t (1 : Fin 3) = 0 ∧ win1_2.index t (2 : Fin 3) = 0)
    ∧ (win1_3.index t (0 : Fin 3) = t.val / 8 ∧ win1_3.index t (1 : Fin 3) = 0 ∧ win1_3.index t (2 : Fin 3) = t.val % 8)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val / 8 ∧ win1_6.index t (1 : Fin 3) = 0 ∧ win1_6.index t (2 : Fin 3) = t.val % 8) :=
  (by decide +kernel : ∀ t : Fin grid1.N, _)

theorem lt16 (t : Fin cfg1.N) : t.val < 16 := lt_of_lt_of_eq t.isLt N_1

/-- The batch of point t. -/
def batchAt (t : Fin cfg1.N) : Fin 2 := ⟨t.val / 8, by have := lt16 t; omega⟩
/-- Token n of point t's block of 512 query tokens, among the 4096. -/
def tokAt (t : Fin cfg1.N) (n : Fin 512) : Fin 4096 := ⟨t.val % 8 * 512 + n.val, by have := n.isLt; omega⟩

/-! ## Each input block read where it lies in its array -/

theorem blk0_apply (c : Dev nD) (t : Fin cfg1.N) (ch : Fin 256) (n : Fin 512) :
    iblk1 V c 0 t (ix3 (0 : Fin 1) ch n) = (V c (Pipeline.arrRef spec1 0) : S2x256x4096.Idx → EReal) (ix3 (batchAt t) ch (tokAt t n)) := by
  obtain ⟨⟨e0, e1, e2⟩, -⟩ := idx_facts t
  unfold iblk1
  rw [View.read_apply]
  show (V c (Pipeline.arrRef spec1 0) : S2x256x4096.Idx → EReal) _ = _
  refine congrArg (V c (Pipeline.arrRef spec1 0) : S2x256x4096.Idx → EReal) (funext fun a => Fin.ext ?_)
  match a with
  | ⟨0, _⟩ => show win1_0.index t (0 : Fin 3) * 1 + 1 * 0 = t.val / 8; omega
  | ⟨1, _⟩ => show win1_0.index t (1 : Fin 3) * 256 + 1 * ch.val = ch.val; omega
  | ⟨2, _⟩ => show win1_0.index t (2 : Fin 3) * 512 + 1 * n.val = t.val % 8 * 512 + n.val; omega

theorem blk1_apply (c : Dev nD) (t : Fin cfg1.N) (ch : Fin 256) (m : Fin 4096) :
    iblk1 V c 1 t (ix3 (0 : Fin 1) ch m) = (V c (Pipeline.arrRef spec1 1) : S2x256x4096.Idx → EReal) (ix3 (batchAt t) ch m) := by
  obtain ⟨-, ⟨e0, e1, e2⟩, -⟩ := idx_facts t
  unfold iblk1
  rw [View.read_apply]
  show (V c (Pipeline.arrRef spec1 1) : S2x256x4096.Idx → EReal) _ = _
  refine congrArg (V c (Pipeline.arrRef spec1 1) : S2x256x4096.Idx → EReal) (funext fun a => Fin.ext ?_)
  match a with
  | ⟨0, _⟩ => show win1_1.index t (0 : Fin 3) * 1 + 1 * 0 = t.val / 8; omega
  | ⟨1, _⟩ => show win1_1.index t (1 : Fin 3) * 256 + 1 * ch.val = ch.val; omega
  | ⟨2, _⟩ => show win1_1.index t (2 : Fin 3) * 4096 + 1 * m.val = m.val; omega

theorem blk2_apply (c : Dev nD) (t : Fin cfg1.N) (ch : Fin 256) (m : Fin 4096) :
    iblk1 V c 2 t (ix3 (0 : Fin 1) ch m) = (V c (Pipeline.arrRef spec1 2) : S2x256x4096.Idx → EReal) (ix3 (batchAt t) ch m) := by
  obtain ⟨-, -, ⟨e0, e1, e2⟩, -⟩ := idx_facts t
  unfold iblk1
  rw [View.read_apply]
  show (V c (Pipeline.arrRef spec1 2) : S2x256x4096.Idx → EReal) _ = _
  refine congrArg (V c (Pipeline.arrRef spec1 2) : S2x256x4096.Idx → EReal) (funext fun a => Fin.ext ?_)
  match a with
  | ⟨0, _⟩ => show win1_2.index t (0 : Fin 3) * 1 + 1 * 0 = t.val / 8; omega
  | ⟨1, _⟩ => show win1_2.index t (1 : Fin 3) * 256 + 1 * ch.val = ch.val; omega
  | ⟨2, _⟩ => show win1_2.index t (2 : Fin 3) * 4096 + 1 * m.val = m.val; omega

theorem blk3_apply (c : Dev nD) (t : Fin cfg1.N) (ch : Fin 256) (n : Fin 512) :
    iblk1 V c 3 t (ix3 (0 : Fin 1) ch n) = (V c (Pipeline.arrRef spec1 3) : S2x256x4096.Idx → EReal) (ix3 (batchAt t) ch (tokAt t n)) := by
  obtain ⟨-, -, -, ⟨e0, e1, e2⟩, -⟩ := idx_facts t
  unfold iblk1
  rw [View.read_apply]
  show (V c (Pipeline.arrRef spec1 3) : S2x256x4096.Idx → EReal) _ = _
  refine congrArg (V c (Pipeline.arrRef spec1 3) : S2x256x4096.Idx → EReal) (funext fun a => Fin.ext ?_)
  match a with
  | ⟨0, _⟩ => show win1_3.index t (0 : Fin 3) * 1 + 1 * 0 = t.val / 8; omega
  | ⟨1, _⟩ => show win1_3.index t (1 : Fin 3) * 256 + 1 * ch.val = ch.val; omega
  | ⟨2, _⟩ => show win1_3.index t (2 : Fin 3) * 512 + 1 * n.val = t.val % 8 * 512 + n.val; omega

theorem blk4_apply (c : Dev nD) (t : Fin cfg1.N) (r j : Fin 256) :
    iblk1 V c 4 t (ix2 r j) = (V c (Pipeline.arrRef spec1 4) : S256x256.Idx → EReal) (ix2 r j) := by
  obtain ⟨-, -, -, -, ⟨e0, e1⟩, -⟩ := idx_facts t
  unfold iblk1
  rw [View.read_apply]
  show (V c (Pipeline.arrRef spec1 4) : S256x256.Idx → EReal) _ = _
  refine congrArg (V c (Pipeline.arrRef spec1 4) : S256x256.Idx → EReal) (funext fun a => Fin.ext ?_)
  match a with
  | ⟨0, _⟩ => show win1_4.index t (0 : Fin 2) * 256 + 1 * r.val = r.val; omega
  | ⟨1, _⟩ => show win1_4.index t (1 : Fin 2) * 256 + 1 * j.val = j.val; omega

theorem blk5_apply (c : Dev nD) (t : Fin cfg1.N) (r : Fin 256) (u : Fin 1) :
    iblk1 V c 5 t (ix2 r u) = (V c (Pipeline.arrRef spec1 5) : S256x1.Idx → EReal) (ix2 r u) := by
  obtain ⟨-, -, -, -, -, ⟨e0, e1⟩, -⟩ := idx_facts t
  unfold iblk1
  rw [View.read_apply]
  show (V c (Pipeline.arrRef spec1 5) : S256x1.Idx → EReal) _ = _
  refine congrArg (V c (Pipeline.arrRef spec1 5) : S256x1.Idx → EReal) (funext fun a => Fin.ext ?_)
  match a with
  | ⟨0, _⟩ => show win1_5.index t (0 : Fin 2) * 256 + 1 * r.val = r.val; omega
  | ⟨1, _⟩ => show win1_5.index t (1 : Fin 2) * 1 + 1 * u.val = u.val; omega

/-! ## What a point writes back -/

/-- The whole-array function: the attention output, keys on the left of the score product, division last, then the
    projection with weights on the left, the bias and the residual. -/
abbrev arrFn (c : Dev nD) : S2x256x4096.Idx → EReal :=
  Cert.Attn.tokOfAct (Cert.Attn.outL
          (Cert.Attn.actOfTok (V c (Pipeline.arrRef spec1 0))) (Cert.Attn.actOfTok (V c (Pipeline.arrRef spec1 1)))
          (Cert.Attn.actOfTok (V c (Pipeline.arrRef spec1 2))) (Cert.Attn.actOfTok (V c (Pipeline.arrRef spec1 3)))
          (Cert.Attn.wpFn (V c (Pipeline.arrRef spec1 4))) (Cert.Attn.colFn (V c (Pipeline.arrRef spec1 5))))

/-- Entry (0, ch, n) of point t's output block lies at (batch, ch, token) of the array. -/
theorem out_emb (t : Fin cfg1.N) (ch : Fin 256) (n : Fin 512) :
    ((cfg1.win 6).blk t).view.emb (ix3 (0 : Fin 1) ch n) = (ix3 (batchAt t) ch (tokAt t n) : S2x256x4096.Idx) := by
  obtain ⟨-, -, -, -, -, -, e0, e1, e2⟩ := idx_facts t
  refine funext fun a => Fin.ext ?_
  match a with
  | ⟨0, _⟩ => show win1_6.index t (0 : Fin 3) * 1 + 1 * 0 = t.val / 8; omega
  | ⟨1, _⟩ => show win1_6.index t (1 : Fin 3) * 256 + 1 * ch.val = ch.val; omega
  | ⟨2, _⟩ => show win1_6.index t (2 : Fin 3) * 512 + 1 * n.val = t.val % 8 * 512 + n.val; omega

/-- WHAT POINT t WRITES BACK is its block of the whole-array function. -/
theorem flushed_eq (c : Dev nD) (t : Fin cfg1.N) :
    (dat1 V c).flushed 6 t = ((cfg1.win 6).blk t).view.read (Elt Ideal) (arrFn V c) := by
  show (cfg1.win 6).cut (grid1.coords t) ((dat1 V c).after 6 t) = _
  rw [after1_6]
  refine funext fun (y : S1x256x512.Idx) => ?_
  obtain ⟨u, ch, n, rfl⟩ : ∃ (u : Fin 1) (ch : Fin 256) (n : Fin 512), y = ix3 u ch n := ⟨y 0, y 1, y 2, eq_ix3 y⟩
  obtain rfl : u = 0 := Subsingleton.elim _ _
  show out1_6 (iblk1 V c 0 t) (iblk1 V c 1 t) (iblk1 V c 2 t) (iblk1 V c 3 t) (iblk1 V c 4 t) (iblk1 V c 5 t) (ix3 (0 : Fin 1) ch n)
    = arrFn V c (((cfg1.win 6).blk t).view.emb (ix3 (0 : Fin 1) ch n))
  rw [out_emb, block_apply]
  have hq : ∀ h : Fin 8, qrows (iblk1 V c 0 t) h
      = fun d n' => Cert.Attn.actOfTok (V c (Pipeline.arrRef spec1 0)) (batchAt t) (Cert.Attn.hrow h d) (tokAt t n') :=
    fun h => funext fun d => funext fun n' => blk0_apply V c t _ n'
  have hk : ∀ h : Fin 8, krows (iblk1 V c 1 t) h
      = fun d m => Cert.Attn.actOfTok (V c (Pipeline.arrRef spec1 1)) (batchAt t) (Cert.Attn.hrow h d) m :=
    fun h => funext fun d => funext fun m => blk1_apply V c t _ m
  have hv : ∀ h : Fin 8, krows (iblk1 V c 2 t) h
      = fun d m => Cert.Attn.actOfTok (V c (Pipeline.arrRef spec1 2)) (batchAt t) (Cert.Attn.hrow h d) m :=
    fun h => funext fun d => funext fun m => blk2_apply V c t _ m
  show _ = ((∑ j : Fin 256, Cert.Attn.wpFn (V c (Pipeline.arrRef spec1 4)) ch j
        * Cert.Attn.catL (Cert.Attn.actOfTok (V c (Pipeline.arrRef spec1 0))) (Cert.Attn.actOfTok (V c (Pipeline.arrRef spec1 1))) (Cert.Attn.actOfTok (V c (Pipeline.arrRef spec1 2))) (batchAt t) j (tokAt t n))
      + Cert.Attn.colFn (V c (Pipeline.arrRef spec1 5)) ch) + Cert.Attn.actOfTok (V c (Pipeline.arrRef spec1 3)) (batchAt t) ch (tokAt t n)
  refine congrArg₂ (· + ·) (congrArg₂ (· + ·) (Finset.sum_congr rfl fun j _ => ?_) ?_) ?_
  · rw [blk4_apply, hq, hk, hv]
    exact congrArg (fun x : EReal => Cert.Attn.wpFn (V c (Pipeline.arrRef spec1 4)) ch j * x) (headFn_window (Cert.Attn.actOfTok (V c (Pipeline.arrRef spec1 0))) (Cert.Attn.actOfTok (V c (Pipeline.arrRef spec1 1))) (Cert.Attn.actOfTok (V c (Pipeline.arrRef spec1 2))) (batchAt t) (Cert.Attn.headOf j) (tokAt t) (Cert.Attn.rowOf j) n)
  · exact blk5_apply V c t ch 0
  · exact blk3_apply V c t ch n

/-! ## The blocks cover the array -/

/-- An index of the array is in point t's block iff each coordinate is in the block's range on its axis. -/
theorem mem_blk (t : Fin cfg1.N) (i : S2x256x4096.Idx) :
    i ∈ ((cfg1.win 6).blk t).view.set ↔ ∀ a : Fin 3, win1_6.index t a * S1x256x512.size a ≤ (i a).val
      ∧ (i a).val < win1_6.index t a * S1x256x512.size a + S1x256x512.size a := by
  show i ∈ ((View.whole main_v7).slice (win1_6.rect t)).set ↔ _
  rw [View.set_slice_whole, Rect.mem_set_unit]
  exact Iff.rfl

/-- Entry (b, ch, n) is in the block of point 8·b + n / 512. -/
theorem cover (i : S2x256x4096.Idx) :
    ∃ t : Fin cfg1.N, (cfg1.win 6).flush t = true ∧ i ∈ ((cfg1.win 6).blk t).view.set := by
  have h0 : (i 0).val < 2 := (i 0).isLt
  have h1 : (i 1).val < 256 := (i 1).isLt
  have h2 : (i 2).val < 4096 := (i 2).isLt
  have hN : cfg1.N = 16 := N_1
  obtain ⟨t, ht⟩ : ∃ t : Fin cfg1.N, t.val = (i 0).val * 8 + (i 2).val / 512 :=
    ⟨⟨(i 0).val * 8 + (i 2).val / 512, by rw [hN]; omega⟩, rfl⟩
  refine ⟨t, flush1_6 t, ?_⟩
  rw [mem_blk]
  obtain ⟨-, -, -, -, -, -, e0, e1, e2⟩ := idx_facts t
  intro a
  match a with
  | ⟨0, _⟩ =>
    show win1_6.index t (0 : Fin 3) * 1 ≤ (i 0).val ∧ (i 0).val < win1_6.index t (0 : Fin 3) * 1 + 1
    omega
  | ⟨1, _⟩ =>
    show win1_6.index t (1 : Fin 3) * 256 ≤ (i 1).val ∧ (i 1).val < win1_6.index t (1 : Fin 3) * 256 + 256
    omega
  | ⟨2, _⟩ =>
    show win1_6.index t (2 : Fin 3) * 512 ≤ (i 2).val ∧ (i 2).val < win1_6.index t (2 : Fin 3) * 512 + 512
    omega

/-! ## The array after the region -/

/-- The output array after the 16 points: the attention, projection and residual function of the arrays the region finds. -/
theorem arr6 (c : Dev nD) :
    (Cert.KernelIdeal.Gen.dat1 (F := Ideal) V c).arrAt 6 cfg1.N
      = Cert.Attn.tokOfAct (Cert.Attn.outL
          (Cert.Attn.actOfTok (V c (Pipeline.arrRef spec1 0))) (Cert.Attn.actOfTok (V c (Pipeline.arrRef spec1 1)))
          (Cert.Attn.actOfTok (V c (Pipeline.arrRef spec1 2))) (Cert.Attn.actOfTok (V c (Pipeline.arrRef spec1 3)))
          (Cert.Attn.wpFn (V c (Pipeline.arrRef spec1 4))) (Cert.Attn.colFn (V c (Pipeline.arrRef spec1 5)))) :=
  (dat1 V c).arrAt_eq_of_cover 6 (arrFn V c) (fun t _ => flushed_eq V c t) cover

end Cert.KernelIdeal.Region1

end
-- ==== Proof.RefRunOps.lean ====
/-
  The reference program as a straight line of operations.

  The program's entry function calls the variance function, which calls the select function; a call executes the
  callee's body on the operands, so the whole program is one list of 83 array operations: the nine before the
  call, the variance function's twenty over the call's own buffers, the select function's three, and the fifty-one
  after. The list is the program (each operation a step that binds nothing, then the return), no buffer or
  semaphore is scoped, and every operation touches device buffers only.
-/
import proofs.«164593_j26371099198429_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 83 operations in order, the two calls unfolded at their call sites. -/
abbrev ops : List (HloOp τ sig (Elt F)) :=
  [ StableHlo.reshape main_arg0 main_v0 rfl shapeCasts_S2x256x64x64_S2x256x4096,
    StableHlo.unary main_v0 main_v1 ((transpose S2x4096x256 [0, 2, 1] · transposes_S2x256x4096_S2x4096x256_0_2_1) : (⟨S2x256x4096, .f32⟩ : BufTy).Contents (Elt F) → (⟨S2x4096x256, .f32⟩ : BufTy).Contents (Elt F)),
    StableHlo.nullary main_cst (constant S_ .f32 0x00000000#32),
    StableHlo.binary main_v1 main_cst main_v2 ((fun x v => Host.reduceAdd x v reducesTo_S2x4096x256_S2x4096_d2 h_S_) : (⟨S2x4096x256, .f32⟩ : BufTy).Contents (Elt F) → (⟨S_, .f32⟩ : BufTy).Contents (Elt F) → (⟨S2x4096, .f32⟩ : BufTy).Contents (Elt F)),
    StableHlo.unary main_v2 main_v3 (broadcastInDim S2x4096x1 ![0, 1] bcast_S2x4096_S2x4096x1_0_1 : (⟨S2x4096, .f32⟩ : BufTy).Contents (Elt F) → (⟨S2x4096x1, .f32⟩ : BufTy).Contents (Elt F)),
    StableHlo.nullary main_cst_0 (constant S_ .f32 0x43800000#32),
    StableHlo.unary main_cst_0 main_v4 (broadcastInDim S2x4096x1 ![] bcast_S_S2x4096x1 : (⟨S_, .f32⟩ : BufTy).Contents (Elt F) → (⟨S2x4096x1, .f32⟩ : BufTy).Contents (Elt F)),
    StableHlo.binary main_v3 main_v4 main_v5 (Host.divf : (⟨S2x4096x1, .f32⟩ : BufTy).Contents (Elt F) → (⟨S2x4096x1, .f32⟩ : BufTy).Contents (Elt F) → (⟨S2x4096x1, .f32⟩ : BufTy).Contents (Elt F)),
    StableHlo.nullary main_c (constantI S_ 32 0#32),
    StableHlo.TRef.nullary main_call0.cst (constant S_ .f32 0x00000000#32),
    StableHlo.TRef.binary (TRef.of main_v1 : TRef sig ⟨S2x4096x256, .f32⟩) main_call0.cst main_call0.v0 (fun x v => Host.reduceAdd x v reducesTo_S2x4096x256_S2x4096_d2 h_S_),
    StableHlo.TRef.unary main_call0.v0 main_call0.v1 (broadcastInDim S2x4096x1 ![0, 1] bcast_S2x4096_S2x4096x1_0_1),
    StableHlo.TRef.nullary main_call0.cst_0 (constant S_ .f32 0x43800000#32),
    StableHlo.TRef.unary main_call0.cst_0 main_call0.v2 (broadcastInDim S2x4096x1 ![] bcast_S_S2x4096x1),
    StableHlo.TRef.binary main_call0.v1 main_call0.v2 main_call0.v3 Host.divf,
    StableHlo.TRef.unary main_call0.v3 main_call0.v4 (broadcastInDim S2x4096x256 ![0, 1, 2] bcast_S2x4096x1_S2x4096x256_0_1_2),
    StableHlo.TRef.binary (TRef.of main_v1 : TRef sig ⟨S2x4096x256, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2x4096x256_S2x4096_d2 h_S_),
    StableHlo.TRef.unary main_call0.v9 main_call0.v10 (broadcastInDim S2x4096x1 ![0, 1] bcast_S2x4096_S2x4096x1_0_1),
    StableHlo.TRef.unary main_call0.v8 main_call0.v11 (broadcastInDim S2x4096x1 ![] bcast_S_S2x4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2x4096x1 ![] bcast_S_S2x4096x1),
    StableHlo.TRef.ternary main_call0.v13 main_call0.v12 main_call0.call0.v1 main_call0.call0.v2 (fun p a b => select (broadcastInDim S2x4096x1 ![] bcast_S_S2x4096x1 p) a b),
    StableHlo.unary main_v5 main_v7 (broadcastInDim S2x4096x256 ![0, 1, 2] bcast_S2x4096x1_S2x4096x256_0_1_2 : (⟨S2x4096x1, .f32⟩ : BufTy).Contents (Elt F) → (⟨S2x4096x256, .f32⟩ : BufTy).Contents (Elt F)),
    StableHlo.binary main_v1 main_v7 main_v8 (subf : (⟨S2x4096x256, .f32⟩ : BufTy).Contents (Elt F) → (⟨S2x4096x256, .f32⟩ : BufTy).Contents (Elt F) → (⟨S2x4096x256, .f32⟩ : BufTy).Contents (Elt F)),
    StableHlo.nullary main_cst_1 (constant S_ .f32 0x3727C5AC#32),
    StableHlo.unary main_cst_1 main_v9 (broadcastInDim S2x4096x1 ![] bcast_S_S2x4096x1 : (⟨S_, .f32⟩ : BufTy).Contents (Elt F) → (⟨S2x4096x1, .f32⟩ : BufTy).Contents (Elt F)),
    StableHlo.binary main_v6 main_v9 main_v10 (addf : (⟨S2x4096x1, .f32⟩ : BufTy).Contents (Elt F) → (⟨S2x4096x1, .f32⟩ : BufTy).Contents (Elt F) → (⟨S2x4096x1, .f32⟩ : BufTy).Contents (Elt F)),
    StableHlo.unary main_v10 main_v11 (Host.rsqrt : (⟨S2x4096x1, .f32⟩ : BufTy).Contents (Elt F) → (⟨S2x4096x1, .f32⟩ : BufTy).Contents (Elt F)),
    StableHlo.unary main_v11 main_v12 (broadcastInDim S2x4096x256 ![0, 1, 2] bcast_S2x4096x1_S2x4096x256_0_1_2 : (⟨S2x4096x1, .f32⟩ : BufTy).Contents (Elt F) → (⟨S2x4096x256, .f32⟩ : BufTy).Contents (Elt F)),
    StableHlo.binary main_v8 main_v12 main_v13 (mulf : (⟨S2x4096x256, .f32⟩ : BufTy).Contents (Elt F) → (⟨S2x4096x256, .f32⟩ : BufTy).Contents (Elt F) → (⟨S2x4096x256, .f32⟩ : BufTy).Contents (Elt F)),
    StableHlo.unary main_arg1 main_v14 (broadcastInDim S1x1x256 ![2] bcast_S256_S1x1x256_2 : (⟨S256, .f32⟩ : BufTy).Contents (Elt F) → (⟨S1x1x256, .f32⟩ : BufTy).Contents (Elt F)),
    StableHlo.unary main_v14 main_v15 (broadcastInDim S2x4096x256 ![0, 1, 2] bcast_S1x1x256_S2x4096x256_0_1_2 : (⟨S1x1x256, .f32⟩ : BufTy).Contents (Elt F) → (⟨S2x4096x256, .f32⟩ : BufTy).Contents (Elt F)),
    StableHlo.binary main_v13 main_v15 main_v16 (mulf : (⟨S2x4096x256, .f32⟩ : BufTy).Contents (Elt F) → (⟨S2x4096x256, .f32⟩ : BufTy).Contents (Elt F) → (⟨S2x4096x256, .f32⟩ : BufTy).Contents (Elt F)),
    StableHlo.unary main_arg2 main_v17 (broadcastInDim S1x1x256 ![2] bcast_S256_S1x1x256_2 : (⟨S256, .f32⟩ : BufTy).Contents (Elt F) → (⟨S1x1x256, .f32⟩ : BufTy).Contents (Elt F)),
    StableHlo.unary main_v17 main_v18 (broadcastInDim S2x4096x256 ![0, 1, 2] bcast_S1x1x256_S2x4096x256_0_1_2 : (⟨S1x1x256, .f32⟩ : BufTy).Contents (Elt F) → (⟨S2x4096x256, .f32⟩ : BufTy).Contents (Elt F)),
    StableHlo.binary main_v16 main_v18 main_v19 (addf : (⟨S2x4096x256, .f32⟩ : BufTy).Contents (Elt F) → (⟨S2x4096x256, .f32⟩ : BufTy).Contents (Elt F) → (⟨S2x4096x256, .f32⟩ : BufTy).Contents (Elt F)),
    StableHlo.binary main_v19 main_arg3 main_v20 ((fun l r => Host.dotGeneral dot_S2x4096x256_S768x256_S2x4096x768_2_1_01_0_n_n none l r) : (⟨S2x4096x256, .f32⟩ : BufTy).Contents (Elt F) → (⟨S768x256, .f32⟩ : BufTy).Contents (Elt F) → (⟨S2x4096x768, .f32⟩ : BufTy).Contents (Elt F)),
    StableHlo.reshape main_v20 main_v21 rfl shapeCasts_S2x4096x768_S2x4096x3x8x32,
    StableHlo.unary main_v21 main_v22 ((transpose S3x2x8x4096x32 [2, 0, 3, 1, 4] · transposes_S2x4096x3x8x32_S3x2x8x4096x32_2_0_3_1_4) : (⟨S2x4096x3x8x32, .f32⟩ : BufTy).Contents (Elt F) → (⟨S3x2x8x4096x32, .f32⟩ : BufTy).Contents (Elt F)),
    StableHlo.unary main_v22 main_v23 ((extractStridedSlice S1x2x8x4096x32 ![0, 0, 0, 0, 0] · slices_S3x2x8x4096x32_S1x2x8x4096x32_0_0_0_0_0) : (⟨S3x2x8x4096x32, .f32⟩ : BufTy).Contents (Elt F) → (⟨S1x2x8x4096x32, .f32⟩ : BufTy).Contents (Elt F)),
    StableHlo.reshape main_v23 main_v24 rfl shapeCasts_S1x2x8x4096x32_S2x8x4096x32,
    StableHlo.unary main_v22 main_v25 ((extractStridedSlice S1x2x8x4096x32 ![1, 0, 0, 0, 0] · slices_S3x2x8x4096x32_S1x2x8x4096x32_1_0_0_0_0) : (⟨S3x2x8x4096x32, .f32⟩ : BufTy).Contents (Elt F) → (⟨S1x2x8x4096x32, .f32⟩ : BufTy).Contents (Elt F)),
    StableHlo.reshape main_v25 main_v26 rfl shapeCasts_S1x2x8x4096x32_S2x8x4096x32,
    StableHlo.unary main_v22 main_v27 ((extractStridedSlice S1x2x8x4096x32 ![2, 0, 0, 0, 0] · slices_S3x2x8x4096x32_S1x2x8x4096x32_2_0_0_0_0) : (⟨S3x2x8x4096x32, .f32⟩ : BufTy).Contents (Elt F) → (⟨S1x2x8x4096x32, .f32⟩ : BufTy).Contents (Elt F)),
    StableHlo.reshape main_v27 main_v28 rfl shapeCasts_S1x2x8x4096x32_S2x8x4096x32,
    StableHlo.binary main_v24 main_v26 main_v29 ((fun l r => Host.dotGeneral dot_S2x8x4096x32_S2x8x4096x32_S2x8x4096x4096_3_3_2_2_01_01 none l r) : (⟨S2x8x4096x32, .f32⟩ : BufTy).Contents (Elt F) → (⟨S2x8x4096x32, .f32⟩ : BufTy).Contents (Elt F) → (⟨S2x8x4096x4096, .f32⟩ : BufTy).Contents (Elt F)),
    StableHlo.nullary main_cst_2 (constant S_ .f32 0x3E3504F3#32),
    StableHlo.unary main_cst_2 main_v30 (broadcastInDim S2x8x4096x4096 ![] bcast_S_S2x8x4096x4096 : (⟨S_, .f32⟩ : BufTy).Contents (Elt F) → (⟨S2x8x4096x4096, .f32⟩ : BufTy).Contents (Elt F)),
    StableHlo.binary main_v29 main_v30 main_v31 (mulf : (⟨S2x8x4096x4096, .f32⟩ : BufTy).Contents (Elt F) → (⟨S2x8x4096x4096, .f32⟩ : BufTy).Contents (Elt F) → (⟨S2x8x4096x4096, .f32⟩ : BufTy).Contents (Elt F)),
    StableHlo.nullary main_cst_3 (constant S_ .f32 0xFF800000#32),
    StableHlo.binary main_v31 main_cst_3 main_v32 ((fun x v => Host.reduce FloatOps.maximumf x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    StableHlo.nullary main_cst_4 (constant S_ .f32 0xFF800000#32),
    StableHlo.unary main_cst_4 main_v33 (broadcastInDim S2x8x4096 ![] bcast_S_S2x8x4096 : (⟨S_, .f32⟩ : BufTy).Contents (Elt F) → (⟨S2x8x4096, .f32⟩ : BufTy).Contents (Elt F)),
    StableHlo.binary main_v33 main_v32 main_v34 (maximumf : (⟨S2x8x4096, .f32⟩ : BufTy).Contents (Elt F) → (⟨S2x8x4096, .f32⟩ : BufTy).Contents (Elt F) → (⟨S2x8x4096, .f32⟩ : BufTy).Contents (Elt F)),
    StableHlo.unary main_v34 main_v35 (broadcastInDim S2x8x4096x1 ![0, 1, 2] bcast_S2x8x4096_S2x8x4096x1_0_1_2 : (⟨S2x8x4096, .f32⟩ : BufTy).Contents (Elt F) → (⟨S2x8x4096x1, .f32⟩ : BufTy).Contents (Elt F)),
    StableHlo.unary main_v35 main_v36 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    StableHlo.binary main_v31 main_v36 main_v37 (subf : (⟨S2x8x4096x4096, .f32⟩ : BufTy).Contents (Elt F) → (⟨S2x8x4096x4096, .f32⟩ : BufTy).Contents (Elt F) → (⟨S2x8x4096x4096, .f32⟩ : BufTy).Contents (Elt F)),
    StableHlo.unary main_v37 main_v38 (Host.exp : (⟨S2x8x4096x4096, .f32⟩ : BufTy).Contents (Elt F) → (⟨S2x8x4096x4096, .f32⟩ : BufTy).Contents (Elt F)),
    StableHlo.nullary main_cst_5 (constant S_ .f32 0x00000000#32),
    StableHlo.binary main_v38 main_cst_5 main_v39 ((fun x v => Host.reduceAdd x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    StableHlo.unary main_v39 main_v40 (broadcastInDim S2x8x4096x1 ![0, 1, 2] bcast_S2x8x4096_S2x8x4096x1_0_1_2 : (⟨S2x8x4096, .f32⟩ : BufTy).Contents (Elt F) → (⟨S2x8x4096x1, .f32⟩ : BufTy).Contents (Elt F)),
    StableHlo.unary main_v40 main_v41 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    StableHlo.binary main_v38 main_v41 main_v42 (Host.divf : (⟨S2x8x4096x4096, .f32⟩ : BufTy).Contents (Elt F) → (⟨S2x8x4096x4096, .f32⟩ : BufTy).Contents (Elt F) → (⟨S2x8x4096x4096, .f32⟩ : BufTy).Contents (Elt F)),
    StableHlo.binary main_v42 main_v28 main_v43 ((fun l r => Host.dotGeneral dot_S2x8x4096x4096_S2x8x4096x32_S2x8x4096x32_3_2_2_3_01_01 none l r) : (⟨S2x8x4096x4096, .f32⟩ : BufTy).Contents (Elt F) → (⟨S2x8x4096x32, .f32⟩ : BufTy).Contents (Elt F) → (⟨S2x8x4096x32, .f32⟩ : BufTy).Contents (Elt F)),
    StableHlo.unary main_v43 main_v44 ((transpose S2x4096x8x32 [0, 2, 1, 3] · transposes_S2x8x4096x32_S2x4096x8x32_0_2_1_3) : (⟨S2x8x4096x32, .f32⟩ : BufTy).Contents (Elt F) → (⟨S2x4096x8x32, .f32⟩ : BufTy).Contents (Elt F)),
    StableHlo.reshape main_v44 main_v45 rfl shapeCasts_S2x4096x8x32_S2x4096x256,
    StableHlo.binary main_v45 main_arg4 main_v46 ((fun l r => Host.dotGeneral dot_S2x4096x256_S256x256_S2x4096x256_2_1_01_0_n_n none l r) : (⟨S2x4096x256, .f32⟩ : BufTy).Contents (Elt F) → (⟨S256x256, .f32⟩ : BufTy).Contents (Elt F) → (⟨S2x4096x256, .f32⟩ : BufTy).Contents (Elt F)),
    StableHlo.unary main_arg5 main_v47 (broadcastInDim S1x1x256 ![2] bcast_S256_S1x1x256_2 : (⟨S256, .f32⟩ : BufTy).Contents (Elt F) → (⟨S1x1x256, .f32⟩ : BufTy).Contents (Elt F)),
    StableHlo.unary main_v47 main_v48 (broadcastInDim S2x4096x256 ![0, 1, 2] bcast_S1x1x256_S2x4096x256_0_1_2 : (⟨S1x1x256, .f32⟩ : BufTy).Contents (Elt F) → (⟨S2x4096x256, .f32⟩ : BufTy).Contents (Elt F)),
    StableHlo.binary main_v46 main_v48 main_v49 (addf : (⟨S2x4096x256, .f32⟩ : BufTy).Contents (Elt F) → (⟨S2x4096x256, .f32⟩ : BufTy).Contents (Elt F) → (⟨S2x4096x256, .f32⟩ : BufTy).Contents (Elt F)),
    StableHlo.binary main_v1 main_v49 main_v50 (addf : (⟨S2x4096x256, .f32⟩ : BufTy).Contents (Elt F) → (⟨S2x4096x256, .f32⟩ : BufTy).Contents (Elt F) → (⟨S2x4096x256, .f32⟩ : BufTy).Contents (Elt F)),
    StableHlo.unary main_v50 main_v51 ((transpose S2x256x4096 [0, 2, 1] · transposes_S2x4096x256_S2x256x4096_0_2_1) : (⟨S2x4096x256, .f32⟩ : BufTy).Contents (Elt F) → (⟨S2x256x4096, .f32⟩ : BufTy).Contents (Elt F)),
    StableHlo.reshape main_v51 main_v52 rfl shapeCasts_S2x256x4096_S2x256x64x64 ]

set_option maxRecDepth 4096 in
set_option maxHeartbeats 8000000 in
/-- The entry function is that straight line: the called functions' bodies unfolded at their calls, sequencing reassociated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches device buffers only. -/
theorem ops_sub : (ops : List (HloOp τ sig (Elt F))).Forall fun op => op.bufs ⊆ tcRefs τ sig :=
  ⟨reshape_bufs_sub .., unary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., reshape_bufs_sub ..,
    unary_bufs_sub .., unary_bufs_sub .., reshape_bufs_sub .., unary_bufs_sub .., reshape_bufs_sub .., unary_bufs_sub ..,
    reshape_bufs_sub .., binary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., unary_bufs_sub .., reshape_bufs_sub .., binary_bufs_sub .., unary_bufs_sub ..,
    unary_bufs_sub .., binary_bufs_sub .., binary_bufs_sub .., unary_bufs_sub .., reshape_bufs_sub ..⟩

/-- From any memory with zero counters every weakly fair execution of the program terminates, and every device
    buffer ends at the fold of the 83 operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRunArgs.lean ====
/-
  The six argument buffers after the reference program's 83 operations: none of the operations writes an
  argument's buffer (each writes its own result buffer, and the 83 result buffers and the 6 argument buffers are
  89 different buffers), so each argument ends as it began.
-/
import proofs.«164593_j26371099198429_2_alg».proof.Proof.RefRunOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Argument 0's buffer is written by no operation. -/
theorem arg0_eq (V : Valuation τ sig (Elt F)) :
    after (ops (F := F)) V (main_arg0 : DevRef τ sig) = V (main_arg0 : DevRef τ sig) := by
  after_results_simp

/-- Argument 1's buffer is written by no operation. -/
theorem arg1_eq (V : Valuation τ sig (Elt F)) :
    after (ops (F := F)) V (main_arg1 : DevRef τ sig) = V (main_arg1 : DevRef τ sig) := by
  after_results_simp

/-- Argument 2's buffer is written by no operation. -/
theorem arg2_eq (V : Valuation τ sig (Elt F)) :
    after (ops (F := F)) V (main_arg2 : DevRef τ sig) = V (main_arg2 : DevRef τ sig) := by
  after_results_simp

/-- Argument 3's buffer is written by no operation. -/
theorem arg3_eq (V : Valuation τ sig (Elt F)) :
    after (ops (F := F)) V (main_arg3 : DevRef τ sig) = V (main_arg3 : DevRef τ sig) := by
  after_results_simp

/-- Argument 4's buffer is written by no operation. -/
theorem arg4_eq (V : Valuation τ sig (Elt F)) :
    after (ops (F := F)) V (main_arg4 : DevRef τ sig) = V (main_arg4 : DevRef τ sig) := by
  after_results_simp

/-- Argument 5's buffer is written by no operation. -/
theorem arg5_eq (V : Valuation τ sig (Elt F)) :
    after (ops (F := F)) V (main_arg5 : DevRef τ sig) = V (main_arg5 : DevRef τ sig) := by
  after_results_simp

end Cert.ReferenceIdeal.RefValue

end
-- ==== Proof.RefTerm.lean ====
/-
  The reference program's result as ONE pure term of its six argument arrays, cut into the stages of the
  mathematics: tokens (the image reshaped to [2,256,4096] and transposed to token-major [2,4096,256]), the
  LayerNorm over channels (mean, two-pass variance, normalisation with scale and shift), the 768-row
  projection, its split into per-head queries, keys and values [2,8,4096,32], the scaled scores, the
  softmax weights (maximum, exponential, sum, quotient), the weighted sum of the values, the merge of the
  heads back to [2,4096,256], the output projection with bias and residual, and the return to the image
  layout. Each stage applies, operation by operation and in the program's order, the same pure function
  the program applies; nothing is proved here.
-/
import proofs.«164593_j26371099198429_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The image [2,256,64,64] as tokens [2,4096,256]: pixels flattened row-major, then channels last. -/
def tokens (a0 : FVec Ideal S2x256x64x64 .f32) : FVec Ideal S2x4096x256 .f32 :=
  have v0 : FVec Ideal S2x256x4096 .f32 := shapeCast S2x256x4096 a0 shapeCasts_S2x256x64x64_S2x256x4096
  have v1 : FVec Ideal S2x4096x256 .f32 := transpose S2x4096x256 [0, 2, 1] v0 transposes_S2x256x4096_S2x4096x256_0_2_1
  v1

/-- The mean over channels, kept as a column [2,4096,1]: the sum divided by the word of 256. -/
def meanCol (t : FVec Ideal S2x4096x256 .f32) : FVec Ideal S2x4096x1 .f32 :=
  have cst : FVec Ideal S_ .f32 := constant (F := Ideal) S_ .f32 0x00000000#32
  have v2 : FVec Ideal S2x4096 .f32 := Host.reduceAdd (F := Ideal) t cst reducesTo_S2x4096x256_S2x4096_d2 h_S_
  have v3 : FVec Ideal S2x4096x1 .f32 := broadcastInDim S2x4096x1 ![0, 1] bcast_S2x4096_S2x4096x1_0_1 v2
  have cst_0 : FVec Ideal S_ .f32 := constant (F := Ideal) S_ .f32 0x43800000#32
  have v4 : FVec Ideal S2x4096x1 .f32 := broadcastInDim S2x4096x1 ![] bcast_S_S2x4096x1 cst_0
  have v5 : FVec Ideal S2x4096x1 .f32 := Host.divf (F := Ideal) v3 v4
  v5

/-- The variance over channels as a column [2,4096,1], as the called function computes it: its own mean,
    the squared deviations summed, divided by 256 minus the converted integer 0, and selected against the
    not-a-number word where that divisor is not above zero. -/
def varCol (t : FVec Ideal S2x4096x256 .f32) : FVec Ideal S2x4096x1 .f32 :=
  have c : IVec S_ 32 := constantI S_ 32 0#32
  have f_cst : FVec Ideal S_ .f32 := constant (F := Ideal) S_ .f32 0x00000000#32
  have f_v0 : FVec Ideal S2x4096 .f32 := Host.reduceAdd (F := Ideal) t f_cst reducesTo_S2x4096x256_S2x4096_d2 h_S_
  have f_v1 : FVec Ideal S2x4096x1 .f32 := broadcastInDim S2x4096x1 ![0, 1] bcast_S2x4096_S2x4096x1_0_1 f_v0
  have f_cst_0 : FVec Ideal S_ .f32 := constant (F := Ideal) S_ .f32 0x43800000#32
  have f_v2 : FVec Ideal S2x4096x1 .f32 := broadcastInDim S2x4096x1 ![] bcast_S_S2x4096x1 f_cst_0
  have f_v3 : FVec Ideal S2x4096x1 .f32 := Host.divf (F := Ideal) f_v1 f_v2
  have f_v4 : FVec Ideal S2x4096x256 .f32 := broadcastInDim S2x4096x256 ![0, 1, 2] bcast_S2x4096x1_S2x4096x256_0_1_2 f_v3
  have f_v5 : FVec Ideal S2x4096x256 .f32 := subf t f_v4
  have f_v6 : FVec Ideal S2x4096x256 .f32 := mulf f_v5 f_v5
  have f_v7 : FVec Ideal S_ .f32 := sitofp (F := Ideal) .f32 c
  have f_cst_1 : FVec Ideal S_ .f32 := constant (F := Ideal) S_ .f32 0x43800000#32
  have f_v8 : FVec Ideal S_ .f32 := subf f_cst_1 f_v7
  have f_cst_2 : FVec Ideal S_ .f32 := constant (F := Ideal) S_ .f32 0x00000000#32
  have f_v9 : FVec Ideal S2x4096 .f32 := Host.reduceAdd (F := Ideal) f_v6 f_cst_2 reducesTo_S2x4096x256_S2x4096_d2 h_S_
  have f_v10 : FVec Ideal S2x4096x1 .f32 := broadcastInDim S2x4096x1 ![0, 1] bcast_S2x4096_S2x4096x1_0_1 f_v9
  have f_v11 : FVec Ideal S2x4096x1 .f32 := broadcastInDim S2x4096x1 ![] bcast_S_S2x4096x1 f_v8
  have f_v12 : FVec Ideal S2x4096x1 .f32 := Host.divf (F := Ideal) f_v10 f_v11
  have f_cst_3 : FVec Ideal S_ .f32 := constant (F := Ideal) S_ .f32 0x00000000#32
  have f_v13 : IVec S_ 1 := cmpf .ogt f_v8 f_cst_3
  have f_cst_4 : FVec Ideal S_ .f32 := constant (F := Ideal) S_ .f32 0x7FC00000#32
  have w_v0 : FVec Ideal S_ .f32 := id f_cst_4
  have w_v1 : FVec Ideal S2x4096x1 .f32 := broadcastInDim S2x4096x1 ![] bcast_S_S2x4096x1 w_v0
  have v6 : FVec Ideal S2x4096x1 .f32 :=
    (fun p a b => select (broadcastInDim S2x4096x1 ![] bcast_S_S2x4096x1 p) a b) f_v13 f_v12 w_v1
  v6

/-- LayerNorm: (t − mean) · rsqrt(var + ε) · γ + β, the mean and variance columns given. -/
def lnormWith (t : FVec Ideal S2x4096x256 .f32) (v5 v6 : FVec Ideal S2x4096x1 .f32) (a1 a2 : FVec Ideal S256 .f32) :
    FVec Ideal S2x4096x256 .f32 :=
  have v7 : FVec Ideal S2x4096x256 .f32 := broadcastInDim S2x4096x256 ![0, 1, 2] bcast_S2x4096x1_S2x4096x256_0_1_2 v5
  have v8 : FVec Ideal S2x4096x256 .f32 := subf t v7
  have cst_1 : FVec Ideal S_ .f32 := constant (F := Ideal) S_ .f32 0x3727C5AC#32
  have v9 : FVec Ideal S2x4096x1 .f32 := broadcastInDim S2x4096x1 ![] bcast_S_S2x4096x1 cst_1
  have v10 : FVec Ideal S2x4096x1 .f32 := addf v6 v9
  have v11 : FVec Ideal S2x4096x1 .f32 := Host.rsqrt (F := Ideal) v10
  have v12 : FVec Ideal S2x4096x256 .f32 := broadcastInDim S2x4096x256 ![0, 1, 2] bcast_S2x4096x1_S2x4096x256_0_1_2 v11
  have v13 : FVec Ideal S2x4096x256 .f32 := mulf v8 v12
  have v14 : FVec Ideal S1x1x256 .f32 := broadcastInDim S1x1x256 ![2] bcast_S256_S1x1x256_2 a1
  have v15 : FVec Ideal S2x4096x256 .f32 := broadcastInDim S2x4096x256 ![0, 1, 2] bcast_S1x1x256_S2x4096x256_0_1_2 v14
  have v16 : FVec Ideal S2x4096x256 .f32 := mulf v13 v15
  have v17 : FVec Ideal S1x1x256 .f32 := broadcastInDim S1x1x256 ![2] bcast_S256_S1x1x256_2 a2
  have v18 : FVec Ideal S2x4096x256 .f32 := broadcastInDim S2x4096x256 ![0, 1, 2] bcast_S1x1x256_S2x4096x256_0_1_2 v17
  have v19 : FVec Ideal S2x4096x256 .f32 := addf v16 v18
  v19

/-- LayerNorm of the tokens over channels. -/
def lnormed (t : FVec Ideal S2x4096x256 .f32) (a1 a2 : FVec Ideal S256 .f32) : FVec Ideal S2x4096x256 .f32 :=
  lnormWith t (meanCol t) (varCol t) a1 a2

/-- The 768 projection rows of every token: activations on the left of each product. -/
def proj (tn : FVec Ideal S2x4096x256 .f32) (a3 : FVec Ideal S768x256 .f32) : FVec Ideal S2x4096x768 .f32 :=
  have v20 : FVec Ideal S2x4096x768 .f32 :=
    Host.dotGeneral (F := Ideal) dot_S2x4096x256_S768x256_S2x4096x768_2_1_01_0_n_n none tn a3
  v20

/-- The projection split [2,4096,3,8,32] and transposed to [3,2,8,4096,32]: kind, batch, head, token, row. -/
def splitT (y : FVec Ideal S2x4096x768 .f32) : FVec Ideal S3x2x8x4096x32 .f32 :=
  have v21 : FVec Ideal S2x4096x3x8x32 .f32 := shapeCast S2x4096x3x8x32 y shapeCasts_S2x4096x768_S2x4096x3x8x32
  have v22 : FVec Ideal S3x2x8x4096x32 .f32 :=
    transpose S3x2x8x4096x32 [2, 0, 3, 1, 4] v21 transposes_S2x4096x3x8x32_S3x2x8x4096x32_2_0_3_1_4
  v22

/-- The queries [2,8,4096,32]: slab 0 of the split. -/
def headQ (z : FVec Ideal S3x2x8x4096x32 .f32) : FVec Ideal S2x8x4096x32 .f32 :=
  have v23 : FVec Ideal S1x2x8x4096x32 .f32 :=
    extractStridedSlice S1x2x8x4096x32 ![0, 0, 0, 0, 0] z slices_S3x2x8x4096x32_S1x2x8x4096x32_0_0_0_0_0
  have v24 : FVec Ideal S2x8x4096x32 .f32 := shapeCast S2x8x4096x32 v23 shapeCasts_S1x2x8x4096x32_S2x8x4096x32
  v24

/-- The keys [2,8,4096,32]: slab 1 of the split. -/
def headK (z : FVec Ideal S3x2x8x4096x32 .f32) : FVec Ideal S2x8x4096x32 .f32 :=
  have v25 : FVec Ideal S1x2x8x4096x32 .f32 :=
    extractStridedSlice S1x2x8x4096x32 ![1, 0, 0, 0, 0] z slices_S3x2x8x4096x32_S1x2x8x4096x32_1_0_0_0_0
  have v26 : FVec Ideal S2x8x4096x32 .f32 := shapeCast S2x8x4096x32 v25 shapeCasts_S1x2x8x4096x32_S2x8x4096x32
  v26

/-- The values [2,8,4096,32]: slab 2 of the split. -/
def headV (z : FVec Ideal S3x2x8x4096x32 .f32) : FVec Ideal S2x8x4096x32 .f32 :=
  have v27 : FVec Ideal S1x2x8x4096x32 .f32 :=
    extractStridedSlice S1x2x8x4096x32 ![2, 0, 0, 0, 0] z slices_S3x2x8x4096x32_S1x2x8x4096x32_2_0_0_0_0
  have v28 : FVec Ideal S2x8x4096x32 .f32 := shapeCast S2x8x4096x32 v27 shapeCasts_S1x2x8x4096x32_S2x8x4096x32
  v28

/-- The scaled scores [2,8,4096,4096]: per batch and head, query token by key token. -/
def scores (q k : FVec Ideal S2x8x4096x32 .f32) : FVec Ideal S2x8x4096x4096 .f32 :=
  have v29 : FVec Ideal S2x8x4096x4096 .f32 :=
    Host.dotGeneral (F := Ideal) dot_S2x8x4096x32_S2x8x4096x32_S2x8x4096x4096_3_3_2_2_01_01 none q k
  have cst_2 : FVec Ideal S_ .f32 := constant (F := Ideal) S_ .f32 0x3E3504F3#32
  have v30 : FVec Ideal S2x8x4096x4096 .f32 := broadcastInDim S2x8x4096x4096 ![] bcast_S_S2x8x4096x4096 cst_2
  have v31 : FVec Ideal S2x8x4096x4096 .f32 := mulf v29 v30
  v31

/-- The exponentials of the scores less their row maximum (the maximum taken from −∞, then once more
    against −∞). -/
def expd (s : FVec Ideal S2x8x4096x4096 .f32) : FVec Ideal S2x8x4096x4096 .f32 :=
  have cst_3 : FVec Ideal S_ .f32 := constant (F := Ideal) S_ .f32 0xFF800000#32
  have v32 : FVec Ideal S2x8x4096 .f32 :=
    Host.reduce (FloatOps.maximumf (F := Ideal)) s cst_3 reducesTo_S2x8x4096x4096_S2x8x4096_d3 h_S_
  have cst_4 : FVec Ideal S_ .f32 := constant (F := Ideal) S_ .f32 0xFF800000#32
  have v33 : FVec Ideal S2x8x4096 .f32 := broadcastInDim S2x8x4096 ![] bcast_S_S2x8x4096 cst_4
  have v34 : FVec Ideal S2x8x4096 .f32 := maximumf v33 v32
  have v35 : FVec Ideal S2x8x4096x1 .f32 := broadcastInDim S2x8x4096x1 ![0, 1, 2] bcast_S2x8x4096_S2x8x4096x1_0_1_2 v34
  have v36 : FVec Ideal S2x8x4096x4096 .f32 :=
    broadcastInDim S2x8x4096x4096 ![0, 1, 2, 3] bcast_S2x8x4096x1_S2x8x4096x4096_0_1_2_3 v35
  have v37 : FVec Ideal S2x8x4096x4096 .f32 := subf s v36
  have v38 : FVec Ideal S2x8x4096x4096 .f32 := Host.exp (F := Ideal) v37
  v38

/-- The softmax weights: each exponential divided by its row's sum. -/
def normd (v38 : FVec Ideal S2x8x4096x4096 .f32) : FVec Ideal S2x8x4096x4096 .f32 :=
  have cst_5 : FVec Ideal S_ .f32 := constant (F := Ideal) S_ .f32 0x00000000#32
  have v39 : FVec Ideal S2x8x4096 .f32 :=
    Host.reduceAdd (F := Ideal) v38 cst_5 reducesTo_S2x8x4096x4096_S2x8x4096_d3 h_S_
  have v40 : FVec Ideal S2x8x4096x1 .f32 := broadcastInDim S2x8x4096x1 ![0, 1, 2] bcast_S2x8x4096_S2x8x4096x1_0_1_2 v39
  have v41 : FVec Ideal S2x8x4096x4096 .f32 :=
    broadcastInDim S2x8x4096x4096 ![0, 1, 2, 3] bcast_S2x8x4096x1_S2x8x4096x4096_0_1_2_3 v40
  have v42 : FVec Ideal S2x8x4096x4096 .f32 := Host.divf (F := Ideal) v38 v41
  v42

/-- The softmax weights of the scores. -/
def weights (s : FVec Ideal S2x8x4096x4096 .f32) : FVec Ideal S2x8x4096x4096 .f32 := normd (expd s)

/-- The weighted sum of the values [2,8,4096,32]: weights on the left of each product. -/
def wsum (p : FVec Ideal S2x8x4096x4096 .f32) (v : FVec Ideal S2x8x4096x32 .f32) : FVec Ideal S2x8x4096x32 .f32 :=
  have v43 : FVec Ideal S2x8x4096x32 .f32 :=
    Host.dotGeneral (F := Ideal) dot_S2x8x4096x4096_S2x8x4096x32_S2x8x4096x32_3_2_2_3_01_01 none p v
  v43

/-- The heads merged back to channels [2,4096,256]: token-major, head then row. -/
def merged (o : FVec Ideal S2x8x4096x32 .f32) : FVec Ideal S2x4096x256 .f32 :=
  have v44 : FVec Ideal S2x4096x8x32 .f32 := transpose S2x4096x8x32 [0, 2, 1, 3] o transposes_S2x8x4096x32_S2x4096x8x32_0_2_1_3
  have v45 : FVec Ideal S2x4096x256 .f32 := shapeCast S2x4096x256 v44 shapeCasts_S2x4096x8x32_S2x4096x256
  v45

/-- The output projection, its bias, and the residual: t + (m · Wᵀ + b). -/
def outTok (t m : FVec Ideal S2x4096x256 .f32) (a4 : FVec Ideal S256x256 .f32) (a5 : FVec Ideal S256 .f32) :
    FVec Ideal S2x4096x256 .f32 :=
  have v46 : FVec Ideal S2x4096x256 .f32 :=
    Host.dotGeneral (F := Ideal) dot_S2x4096x256_S256x256_S2x4096x256_2_1_01_0_n_n none m a4
  have v47 : FVec Ideal S1x1x256 .f32 := broadcastInDim S1x1x256 ![2] bcast_S256_S1x1x256_2 a5
  have v48 : FVec Ideal S2x4096x256 .f32 := broadcastInDim S2x4096x256 ![0, 1, 2] bcast_S1x1x256_S2x4096x256_0_1_2 v47
  have v49 : FVec Ideal S2x4096x256 .f32 := addf v46 v48
  have v50 : FVec Ideal S2x4096x256 .f32 := addf t v49
  v50

/-- Tokens back to the image layout [2,256,64,64]. -/
def toImg (r : FVec Ideal S2x4096x256 .f32) : FVec Ideal S2x256x64x64 .f32 :=
  have v51 : FVec Ideal S2x256x4096 .f32 := transpose S2x256x4096 [0, 2, 1] r transposes_S2x4096x256_S2x256x4096_0_2_1
  have v52 : FVec Ideal S2x256x64x64 .f32 := shapeCast S2x256x64x64 v51 shapeCasts_S2x256x4096_S2x256x64x64
  v52

/-- What the reference program leaves in its result buffer, as a function of its six argument arrays. -/
def refTerm (a0 : FVec Ideal S2x256x64x64 .f32) (a1 a2 : FVec Ideal S256 .f32) (a3 : FVec Ideal S768x256 .f32)
    (a4 : FVec Ideal S256x256 .f32) (a5 : FVec Ideal S256 .f32) : FVec Ideal S2x256x64x64 .f32 :=
  have t := tokens a0
  have tn := lnormed t a1 a2
  have z := splitT (proj tn a3)
  have s := scores (headQ z) (headK z)
  have o := wsum (weights s) (headV z)
  toImg (outTok t (merged o) a4 a5)

end Cert.ReferenceIdeal.RefValue

end
-- ==== Proof.RefRunRes.lean ====
/-
  The result buffer after the reference program's 83 operations, as the one pure term of the six arguments.

  Folding the operations in order, each result buffer holds its operation's function of the buffers it reads and
  every other buffer is left alone; read at the last result buffer this is the composition of the 83 functions over
  the arguments' contents. The operations of the two called functions move contents between a buffer's type and the
  tensor type they are stated at; at these literal buffers both types are the same and the moves are the identity.
  The composed term is then the staged term, stage by stage, by unfolding the stages.
-/
import proofs.«164593_j26371099198429_2_alg».proof.Proof.RefRunOps
import proofs.«164593_j26371099198429_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxHeartbeats 4000000 in
/-- The last result buffer holds the staged term of the arguments' contents. -/
theorem res_eq (V : Valuation τ sig (Elt Ideal)) :
    after (ops (F := Ideal)) V (main_v52 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

end Cert.ReferenceIdeal.RefValue

end
-- ==== Proof.RefRun.lean ====
/-
  The reference program's run: from any memory with zero counters every weakly fair execution terminates with the
  result buffer at the staged term of the six argument arrays as they were at the start, and the six argument
  arrays unchanged. The program is its list of 83 operations; the fold of the list at the result buffer is the
  staged term, and at an argument's buffer what was there.
-/
import proofs.«164593_j26371099198429_2_alg».proof.Proof.RefRunArgs
import proofs.«164593_j26371099198429_2_alg».proof.Proof.RefRunRes

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Every weakly fair execution of the reference program terminates with its result at the staged term of the
    arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52)
          = refTerm (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v52).trans (res_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_ops (F := Ideal) m ρ)

end Cert.ReferenceIdeal.RefValue

end
-- ==== Proof.RefReadTokens.lean ====
/-
  The two ends of the reference read at an index. Going in, the image [2,256,64,64] is flattened over its
  pixels (row-major: token n = 64·h + w) and the channel axis moved last, so token-major entry (b, n, c) is
  the image at (b, c, n / 64, n % 64). Coming out, the channel axis is moved back and the tokens unflattened,
  so image entry (b, c, h, w) is the token-major entry (b, 64·h + w, c).
-/
import proofs.«164593_j26371099198429_2_alg».proof.Proof.RefTerm
import proofs.«164593_j26371099198429_2_alg».proof.Proof.Spec
import Idealize.ShloMosaic.Lib.ValueLayout

namespace Cert.ReferenceIdeal.RefValue

open Cert.ReferenceIdeal Cert.ReferenceIdeal.Gen Idealize.ShloMosaic Idealize.ShloMosaic.ValueIdx Cert.Attn

/-- Token-major entry (b, n, c) is the image at batch b, channel c, pixel (n / 64, n % 64). -/
theorem tokens_apply (a0 : FVec Ideal S2x256x64x64 .f32) (b : Fin 2) (n : Fin 4096) (c : Fin 256) :
    tokens a0 (ix3 b n c) = a0 (ix4 b c (pixH n) (pixW n)) := by
  unfold tokens
  refine (transpose_ix3_021_apply _ _ b n c).trans ?_
  refine shapeCast_apply a0 _ (ix3 b c n) (ix4 b c (pixH n) (pixW n)) ?_
  rw [Shape.rowMajor_val_four, Shape.rowMajor_val_three]
  show ((b.val * 256 + c.val) * 64 + n.val / 64) * 64 + n.val % 64 = (b.val * 256 + c.val) * 4096 + n.val
  omega

/-- The tokens as a feature-major activation are the image as one. -/
theorem tokens_act (a0 : FVec Ideal S2x256x64x64 .f32) (b : Fin 2) (c : Fin 256) (n : Fin 4096) :
    tokens a0 (ix3 b n c) = actOfImg a0 b c n := tokens_apply a0 b n c

/-- Image entry (b, c, h, w) of the result is the token-major entry (b, 64·h + w, c). -/
theorem toImg_apply (r : FVec Ideal S2x4096x256 .f32) (b : Fin 2) (c : Fin 256) (h w : Fin 64) :
    toImg r (ix4 b c h w) = r (ix3 b (tokOf h w) c) := by
  unfold toImg
  refine (shapeCast_apply _ _ (ix4 b c h w) (ix3 b c (tokOf h w)) ?_).trans ?_
  · rw [Shape.rowMajor_val_four, Shape.rowMajor_val_three]
    show (b.val * 256 + c.val) * 4096 + (h.val * 64 + w.val) = ((b.val * 256 + c.val) * 64 + h.val) * 64 + w.val
    omega
  · exact transpose_ix3_021_apply _ _ b c (tokOf h w)

/-- If the token-major array reads as the activation R, its image is R's image: at every index. -/
theorem toImg_eq (r : FVec Ideal S2x4096x256 .f32) (R : Act) (hr : ∀ b n c, r (ix3 b n c) = R b c n) :
    toImg r = imgOfAct R := by
  funext i
  obtain ⟨b, c, h, w, rfl⟩ : ∃ (b : Fin 2) (c : Fin 256) (h w : Fin 64), i = ix4 b c h w :=
    ⟨i 0, i 1, i 2, i 3, eq_ix4 i⟩
  rw [toImg_apply, hr]
  rfl

end Cert.ReferenceIdeal.RefValue
-- ==== Proof.RefLayout.lean ====
/-
  The layout operations of the reference read at an index written by coordinates, at the shapes it uses:
  a row value kept as a column and spread along the channels (rank 3) or along the key tokens (rank 4); a
  channel vector spread over batches and tokens; the exchange of the head and token axes; the split of the
  768 projection rows into (kind, head, row) with the kind moved in front, its three slabs, and the merge of
  (head, row) back into 256 channels. Also a sum over the last axis as a sum over its coordinate, the maximum
  over the last axis as a fold over it, and the two float words the reference needs as extended reals.
-/
import proofs.«164593_j26371099198429_2_alg».proof.Proof.RefTerm
import Idealize.ShloMosaic.Lib.ValueLayout
import Idealize.ShloMosaic.Lib.IdealHost
import Idealize.ShloMosaic.PureOps.Ideal.Laws

open scoped BigOperators

namespace Cert.ReferenceIdeal.RefValue

open Cert.ReferenceIdeal Idealize.ShloMosaic Idealize.ShloMosaic.ValueIdx

section Layout
variable {α : Type}

/-! ## Rank 3: a per-token value as a column, and a channel vector -/

/-- A [2,4096] array kept as a column [2,4096,1] reads, at (b, n, u), the array at (b, n). -/
theorem bcast_row_col (h : S2x4096.BroadcastsInDim S2x4096x1 (![0, 1] : Fin 2 → Fin S2x4096x1.rank)) (x : S2x4096.Idx → α)
    (b : Fin 2) (n : Fin 4096) (u : Fin 1) :
    broadcastInDim (s := S2x4096) S2x4096x1 ![0, 1] h x (ix3 b n u) = x (ix2 b n) :=
  broadcastInDim_apply _ h x (ix3 b n u) (ix2 b n) fun ax => match ax with | ⟨0, _⟩ => rfl | ⟨1, _⟩ => rfl

/-- A column [2,4096,1] spread along the channels reads, at (b, n, c), the column at (b, n, 0). -/
theorem bcast_col_full (h : S2x4096x1.BroadcastsInDim S2x4096x256 (![0, 1, 2] : Fin 3 → Fin S2x4096x256.rank))
    (x : S2x4096x1.Idx → α) (b : Fin 2) (n : Fin 4096) (c : Fin 256) :
    broadcastInDim (s := S2x4096x1) S2x4096x256 ![0, 1, 2] h x (ix3 b n c) = x (ix3 b n (0 : Fin 1)) :=
  broadcastInDim_apply _ h x (ix3 b n c) (ix3 b n (0 : Fin 1)) fun ax =>
    match ax with | ⟨0, _⟩ => rfl | ⟨1, _⟩ => rfl | ⟨2, _⟩ => rfl

/-- A channel vector as [1,1,256] reads, at (u, v, c), the vector at c. -/
theorem bcast_vec_unit (h : S256.BroadcastsInDim S1x1x256 (![2] : Fin 1 → Fin S1x1x256.rank)) (x : S256.Idx → α)
    (u v : Fin 1) (c : Fin 256) :
    broadcastInDim (s := S256) S1x1x256 ![2] h x (ix3 u v c) = x (ix1 c) :=
  broadcastInDim_apply _ h x (ix3 u v c) (ix1 c) fun ax => match ax with | ⟨0, _⟩ => rfl

/-- A [1,1,256] array spread over batches and tokens reads, at (b, n, c), the array at (0, 0, c). -/
theorem bcast_unit_full (h : S1x1x256.BroadcastsInDim S2x4096x256 (![0, 1, 2] : Fin 3 → Fin S2x4096x256.rank))
    (x : S1x1x256.Idx → α) (b : Fin 2) (n : Fin 4096) (c : Fin 256) :
    broadcastInDim (s := S1x1x256) S2x4096x256 ![0, 1, 2] h x (ix3 b n c) = x (ix3 (0 : Fin 1) (0 : Fin 1) c) :=
  broadcastInDim_apply _ h x (ix3 b n c) (ix3 (0 : Fin 1) (0 : Fin 1) c) fun ax =>
    match ax with | ⟨0, _⟩ => rfl | ⟨1, _⟩ => rfl | ⟨2, _⟩ => rfl

/-! ## Rank 4: a per-query value as a column, spread along the key tokens -/

/-- A [2,8,4096] array kept as a column [2,8,4096,1] reads, at (b, h, n, u), the array at (b, h, n). -/
theorem bcast_q_col (h : S2x8x4096.BroadcastsInDim S2x8x4096x1 (![0, 1, 2] : Fin 3 → Fin S2x8x4096x1.rank))
    (x : S2x8x4096.Idx → α) (b : Fin 2) (hd : Fin 8) (n : Fin 4096) (u : Fin 1) :
    broadcastInDim (s := S2x8x4096) S2x8x4096x1 ![0, 1, 2] h x (ix4 b hd n u) = x (ix3 b hd n) :=
  broadcastInDim_apply _ h x (ix4 b hd n u) (ix3 b hd n) fun ax =>
    match ax with | ⟨0, _⟩ => rfl | ⟨1, _⟩ => rfl | ⟨2, _⟩ => rfl

/-- A column [2,8,4096,1] spread along the key tokens reads, at (b, h, n, m), the column at (b, h, n, 0). -/
theorem bcast_qcol_full (h : S2x8x4096x1.BroadcastsInDim S2x8x4096x4096 (![0, 1, 2, 3] : Fin 4 → Fin S2x8x4096x4096.rank))
    (x : S2x8x4096x1.Idx → α) (b : Fin 2) (hd : Fin 8) (n m : Fin 4096) :
    broadcastInDim (s := S2x8x4096x1) S2x8x4096x4096 ![0, 1, 2, 3] h x (ix4 b hd n m) = x (ix4 b hd n (0 : Fin 1)) :=
  broadcastInDim_apply _ h x (ix4 b hd n m) (ix4 b hd n (0 : Fin 1)) fun ax =>
    match ax with | ⟨0, _⟩ => rfl | ⟨1, _⟩ => rfl | ⟨2, _⟩ => rfl | ⟨3, _⟩ => rfl

/-! ## Heads and tokens exchanged; the split and the merge of the projection rows -/

/-- [2,8,4096,32] with heads and tokens exchanged reads, at (b, n, h, d), the operand at (b, h, n, d). -/
theorem transpose_heads (h : S2x8x4096x32.Transposes [0, 2, 1, 3] S2x4096x8x32) (x : S2x8x4096x32.Idx → α)
    (b : Fin 2) (n : Fin 4096) (hd : Fin 8) (d : Fin 32) :
    transpose S2x4096x8x32 [0, 2, 1, 3] x h (ix4 b n hd d) = x (ix4 b hd n d) :=
  transpose_apply _ x h (ix4 b n hd d) (ix4 b hd n d) fun c =>
    match c with | ⟨0, _⟩ => rfl | ⟨1, _⟩ => rfl | ⟨2, _⟩ => rfl | ⟨3, _⟩ => rfl

/-- [2,4096,3,8,32] with the kind in front, then batch, head, token, row reads, at (s, b, h, n, d), the operand at
    (b, n, s, h, d). -/
theorem transpose_split (h : S2x4096x3x8x32.Transposes [2, 0, 3, 1, 4] S3x2x8x4096x32) (x : S2x4096x3x8x32.Idx → α)
    (s : Fin 3) (b : Fin 2) (hd : Fin 8) (n : Fin 4096) (d : Fin 32) :
    transpose S3x2x8x4096x32 [2, 0, 3, 1, 4] x h (ix5 s b hd n d) = x (ix5 b n s hd d) :=
  transpose_apply _ x h (ix5 s b hd n d) (ix5 b n s hd d) fun c =>
    match c with | ⟨0, _⟩ => rfl | ⟨1, _⟩ => rfl | ⟨2, _⟩ => rfl | ⟨3, _⟩ => rfl | ⟨4, _⟩ => rfl

/-- The 768 projection rows split as (kind, head, row): entry (b, n, s, h, d) is row 256·s + 32·h + d. -/
theorem shapeCast_split (h : S2x4096x768.ShapeCasts S2x4096x3x8x32) (x : S2x4096x768.Idx → α)
    (b : Fin 2) (n : Fin 4096) (s : Fin 3) (hd : Fin 8) (d : Fin 32) (o : Fin 768)
    (ho : o.val = 256 * s.val + 32 * hd.val + d.val) :
    shapeCast S2x4096x3x8x32 x h (ix5 b n s hd d) = x (ix3 b n o) :=
  shapeCast_apply x h (ix5 b n s hd d) (ix3 b n o) (by
    rw [Shape.rowMajor_val_five, Shape.rowMajor_val_three]
    show (b.val * 4096 + n.val) * 768 + o.val = (((b.val * 4096 + n.val) * 3 + s.val) * 8 + hd.val) * 32 + d.val
    omega)

/-- Slab `o` of the split (the leading axis cut to one entry from `o`) reads, at (u, b, h, n, d), the split at
    (o, b, h, n, d). -/
theorem slice_slab (o : Nat) (h : S3x2x8x4096x32.Slices ![o, 0, 0, 0, 0] S1x2x8x4096x32) (x : S3x2x8x4096x32.Idx → α)
    (u : Fin 1) (b : Fin 2) (hd : Fin 8) (n : Fin 4096) (d : Fin 32) (s : Fin 3) (hs : s.val = o) :
    extractStridedSlice S1x2x8x4096x32 ![o, 0, 0, 0, 0] x h (ix5 u b hd n d) = x (ix5 s b hd n d) :=
  extractStridedSlice_apply _ x h (ix5 u b hd n d) (ix5 s b hd n d) fun ax => by
    match ax with
    | ⟨0, _⟩ => have := u.isLt; show s.val = o + u.val; omega
    | ⟨1, _⟩ => exact (Nat.zero_add _).symm
    | ⟨2, _⟩ => exact (Nat.zero_add _).symm
    | ⟨3, _⟩ => exact (Nat.zero_add _).symm
    | ⟨4, _⟩ => exact (Nat.zero_add _).symm

/-- A one-entry leading axis dropped: [1,2,8,4096,32] as [2,8,4096,32] reads, at (b, h, n, d), the operand at
    (0, b, h, n, d). -/
theorem shapeCast_dropLead (h : S1x2x8x4096x32.ShapeCasts S2x8x4096x32) (x : S1x2x8x4096x32.Idx → α)
    (b : Fin 2) (hd : Fin 8) (n : Fin 4096) (d : Fin 32) :
    shapeCast S2x8x4096x32 x h (ix4 b hd n d) = x (ix5 (0 : Fin 1) b hd n d) :=
  shapeCast_apply x h (ix4 b hd n d) (ix5 (0 : Fin 1) b hd n d) (by
    rw [Shape.rowMajor_val_five, Shape.rowMajor_val_four]
    show (((0 * 2 + b.val) * 8 + hd.val) * 4096 + n.val) * 32 + d.val = ((b.val * 8 + hd.val) * 4096 + n.val) * 32 + d.val
    omega)

/-- (head, row) merged into 256 channels: entry (b, n, j) is the operand at (b, n, j / 32, j % 32). -/
theorem shapeCast_merge (h : S2x4096x8x32.ShapeCasts S2x4096x256) (x : S2x4096x8x32.Idx → α)
    (b : Fin 2) (n : Fin 4096) (j : Fin 256) (hd : Fin 8) (d : Fin 32) (hj : j.val = 32 * hd.val + d.val) :
    shapeCast S2x4096x256 x h (ix3 b n j) = x (ix4 b n hd d) :=
  shapeCast_apply x h (ix3 b n j) (ix4 b n hd d) (by
    rw [Shape.rowMajor_val_four, Shape.rowMajor_val_three]
    show ((b.val * 4096 + n.val) * 8 + hd.val) * 32 + d.val = (b.val * 4096 + n.val) * 256 + j.val
    omega)

end Layout

/-! ## Reductions over the last axis -/

/-- The host's sum over the channels of a [2,4096,256] array, at (b, n): the initial value plus the sum over c. -/
theorem hostSum_channels (x : FVec Ideal S2x4096x256 .f32) (init : FVec Ideal S_ .f32)
    (h' : S2x4096x256.ReducesTo [2] S2x4096) (hu : 0 < S_.numel) (b : Fin 2) (n : Fin 4096) :
    Host.reduceAdd x init h' hu (ix2 b n) = init ix0 + ∑ c : Fin 256, x (ix3 b n c) := by
  have h : S2x4096x256.Reduces [2] S2x4096 := by decide
  rw [hostReduceAdd_apply, Ideal.hostReduceAdd_single h' h, eq_ix0 (Shape.Idx.first hu)]
  refine congrArg (init ix0 + ·) ?_
  refine Finset.sum_congr rfl fun c _ => congrArg x ?_
  funext ax
  match ax with
  | ⟨0, _⟩ => rfl
  | ⟨1, _⟩ => rfl
  | ⟨2, _⟩ => rfl

/-- The host's sum over the key tokens of a [2,8,4096,4096] array, at (b, h, n): the initial value plus the sum over m. -/
theorem hostSum_keys (x : FVec Ideal S2x8x4096x4096 .f32) (init : FVec Ideal S_ .f32)
    (h' : S2x8x4096x4096.ReducesTo [3] S2x8x4096) (hu : 0 < S_.numel) (b : Fin 2) (hd : Fin 8) (n : Fin 4096) :
    Host.reduceAdd x init h' hu (ix3 b hd n) = init ix0 + ∑ m : Fin 4096, x (ix4 b hd n m) := by
  have h : S2x8x4096x4096.Reduces [3] S2x8x4096 := by decide
  rw [hostReduceAdd_apply, Ideal.hostReduceAdd_single h' h, eq_ix0 (Shape.Idx.first hu)]
  refine congrArg (init ix0 + ·) ?_
  refine Finset.sum_congr rfl fun m _ => congrArg x ?_
  funext ax
  match ax with
  | ⟨0, _⟩ => rfl
  | ⟨1, _⟩ => rfl
  | ⟨2, _⟩ => rfl
  | ⟨3, _⟩ => rfl

/-- The host's maximum over the key tokens of a [2,8,4096,4096] array, at (b, h, n): the fold of `max` from the
    initial value over m. -/
theorem hostMax_keys (x : FVec Ideal S2x8x4096x4096 .f32) (init : FVec Ideal S_ .f32)
    (h' : S2x8x4096x4096.ReducesTo [3] S2x8x4096) (hu : 0 < S_.numel) (b : Fin 2) (hd : Fin 8) (n : Fin 4096) :
    Host.reduce (FloatOps.maximumf (F := Ideal)) x init h' hu (ix3 b hd n)
      = (Finset.univ : Finset (Fin 4096)).fold max (init ix0) (fun m => x (ix4 b hd n m)) := by
  have h : S2x8x4096x4096.Reduces [3] S2x8x4096 := by decide
  rw [Host.reduce_eq_fold_single (FloatOps.maximumf (F := Ideal)) x init h' h hu, eq_ix0 (Shape.Idx.first hu)]
  have e : (x ∘ h.lift (ix3 b hd n)) = fun m : Fin 4096 => x (ix4 b hd n m) := by
    funext m
    refine congrArg x ?_
    funext ax
    match ax with
    | ⟨0, _⟩ => rfl
    | ⟨1, _⟩ => rfl
    | ⟨2, _⟩ => rfl
    | ⟨3, _⟩ => rfl
  rw [e]
  rfl

/-! ## Two float words -/

/-- The f32 word of −∞ is the bottom of the extended reals. -/
theorem ofBits_negInf : Ideal.ofBits .f32 0xFF800000#32 = (⊥ : EReal) := by simp [Ideal.ofBits, Ideal.ieee]

/-- The f32 word `0x43800000` is the real 256. -/
theorem ofBits_256 : Ideal.ofBits .f32 0x43800000#32 = ((256 : ℝ) : EReal) := by
  simp [Ideal.ofBits, Ideal.ieee, -EReal.coe_mul]; norm_num

end Cert.ReferenceIdeal.RefValue
-- ==== Proof.RefReadNorm.lean ====
/-
  The LayerNorm of the reference read at an index. Over the channels of each token: the mean is the sum
  divided by the word of 256; the variance, as the called function computes it, is the sum of the squared
  deviations from that same mean divided by 256 − 0 (the converted integer zero), and the selection against
  the not-a-number word takes the quotient because 256 − 0 is above zero; the result is
  (t − mean) · rsqrt(var + ε) · γ + β. No entry needs to be finite for any of this.
-/
import proofs.«164593_j26371099198429_2_alg».proof.Proof.RefLayout
import proofs.«164593_j26371099198429_2_alg».proof.Proof.Spec

open scoped BigOperators

namespace Cert.ReferenceIdeal.RefValue

open Cert.ReferenceIdeal Idealize.ShloMosaic Idealize.ShloMosaic.ValueIdx Cert.Attn

/-- The host's reciprocal square root at an index. -/
theorem hostRsqrt_apply {s : Shape} (v : FVec Ideal s .f32) (i : s.Idx) : Host.rsqrt v i = Ideal.rsqrt (v i) := rfl

/-- The converted integer zero is the real zero. -/
theorem sitofp_zero_f32 : (FloatOps.sitofp (F := Ideal) .f32 (0#32 : BitVec 32) : Ideal .f32) = 0 := by
  show ((((0#32 : BitVec 32).toInt : ℤ) : ℝ) : EReal) = 0
  simp

/-- The variance's divisor, 256 less the converted integer zero, is the word of 256. -/
theorem divisor_eq :
    subf (constant (F := Ideal) S_ .f32 0x43800000#32) (sitofp (F := Ideal) .f32 (constantI S_ 32 0#32)) ix0 = n256 := by
  rw [subf_apply, constant_apply, sitofp_apply, constantI_apply, sitofp_zero_f32, sub_zero]
  rfl

/-- The word of 256 is above zero. -/
theorem n256_pos : (0 : EReal) < n256 := by
  unfold n256
  rw [ofBits_256]
  exact EReal.coe_pos.mpr (by norm_num)

/-- The comparison "divisor above zero" holds. -/
theorem cond_eq :
    cmpf .ogt (subf (constant (F := Ideal) S_ .f32 0x43800000#32) (sitofp (F := Ideal) .f32 (constantI S_ 32 0#32)))
      (constant (F := Ideal) S_ .f32 0x00000000#32) ix0 = 1#1 := by
  rw [cmpf_apply, divisor_eq, constant_apply, Ideal.ofBits_zero_f32]
  show BitVec.ofBool (decide ((0 : EReal) < n256)) = 1#1
  rw [decide_eq_true n256_pos]
  rfl

section
variable (t : FVec Ideal S2x4096x256 .f32) (T : Act) (ht : ∀ b n c, t (ix3 b n c) = T b c n)
include ht

/-- The mean column at token (b, n) is the mean over channels. -/
theorem meanCol_apply (b : Fin 2) (n : Fin 4096) (u : Fin 1) : meanCol t (ix3 b n u) = mean T b n := by
  unfold meanCol
  dsimp only
  rw [hostDivf_apply, bcast_row_col, hostSum_channels, broadcastInDim_scalar_apply, constant_apply, constant_apply,
    Ideal.ofBits_zero_f32, zero_add]
  unfold mean n256
  exact congrArg (Ideal.div · _) (Finset.sum_congr rfl fun c _ => ht b n c)

/-- The variance column at token (b, n) is the two-pass variance over channels. -/
theorem varCol_apply (b : Fin 2) (n : Fin 4096) (u : Fin 1) : varCol t (ix3 b n u) = var T b n := by
  have hm := meanCol_apply t T ht b n (0 : Fin 1)
  unfold meanCol at hm
  dsimp only at hm
  unfold varCol
  dsimp only [id]
  rw [select_apply, broadcastInDim_scalar_apply, cond_eq, select_one, hostDivf_apply, bcast_row_col,
    broadcastInDim_scalar_apply, hostSum_channels, divisor_eq, constant_apply, Ideal.ofBits_zero_f32, zero_add]
  unfold var
  refine congrArg (Ideal.div · n256) ?_
  refine Finset.sum_congr rfl fun c _ => ?_
  rw [mulf_apply, subf_apply, bcast_col_full, hm, ht]
  rfl

end

/-- The normalisation at (b, n, c), the mean and variance columns given as functions of the token. -/
theorem lnormWith_apply (t : FVec Ideal S2x4096x256 .f32) (v5 v6 : FVec Ideal S2x4096x1 .f32) (a1 a2 : FVec Ideal S256 .f32)
    (T : Act) (ht : ∀ b n c, t (ix3 b n c) = T b c n) (M V : Fin 2 → Fin 4096 → EReal)
    (h5 : ∀ b n, v5 (ix3 b n (0 : Fin 1)) = M b n) (h6 : ∀ b n, v6 (ix3 b n (0 : Fin 1)) = V b n)
    (b : Fin 2) (n : Fin 4096) (c : Fin 256) :
    lnormWith t v5 v6 a1 a2 (ix3 b n c)
      = (T b c n - M b n) * Ideal.rsqrt (V b n + eps) * vecFn a1 c + vecFn a2 c := by
  unfold lnormWith
  dsimp only
  rw [addf_apply, mulf_apply, mulf_apply, subf_apply, bcast_col_full, bcast_col_full, bcast_unit_full, bcast_unit_full,
    bcast_vec_unit, bcast_vec_unit, hostRsqrt_apply, addf_apply, broadcastInDim_scalar_apply, constant_apply, ht, h5, h6]
  rfl

/-- The LayerNorm of the tokens at (b, n, c). -/
theorem lnormed_apply (t : FVec Ideal S2x4096x256 .f32) (a1 a2 : FVec Ideal S256 .f32)
    (T : Act) (ht : ∀ b n c, t (ix3 b n c) = T b c n) (b : Fin 2) (n : Fin 4096) (c : Fin 256) :
    lnormed t a1 a2 (ix3 b n c) = lnorm T (vecFn a1) (vecFn a2) b c n := by
  unfold lnormed
  rw [lnormWith_apply t _ _ a1 a2 T ht (mean T) (var T) (fun b n => meanCol_apply t T ht b n 0)
    (fun b n => varCol_apply t T ht b n 0)]
  rfl

end Cert.ReferenceIdeal.RefValue
-- ==== Proof.RefReadProj.lean ====
/-
  The 768-row projection read at an index, and its split into per-head queries, keys and values.

  The projection at (b, n, o) is the sum over the 256 channels of activation · weight, the activation on the
  left. The rows are then read as (kind, head, row) = 256·s + 32·h + d, the kind moved in front, each kind's
  slab taken and its leading axis dropped: the queries at (b, h, n, d) are projection row 32·h + d of token n,
  the keys row 256 + 32·h + d, the values row 512 + 32·h + d.
-/
import proofs.«164593_j26371099198429_2_alg».proof.Proof.RefLayout
import proofs.«164593_j26371099198429_2_alg».proof.Proof.Spec

open scoped BigOperators

namespace Cert.ReferenceIdeal.RefValue

open Cert.ReferenceIdeal Idealize.ShloMosaic Idealize.ShloMosaic.ValueIdx Cert.Attn

/-- The projection at (b, n, o): the sum over channels of activation times weight. -/
theorem proj_apply (tn : FVec Ideal S2x4096x256 .f32) (a3 : FVec Ideal S768x256 .f32) (b : Fin 2) (n : Fin 4096) (o : Fin 768) :
    proj tn a3 (ix3 b n o) = ∑ c : Fin 256, tn (ix3 b n c) * a3 (ix2 o c) := by
  unfold proj
  show FloatOps.dotGeneral dot_S2x4096x256_S768x256_S2x4096x768_2_1_01_0_n_n none _ tn a3 (ix3 b n o) = _
  rw [Ideal.dotGeneral_apply,
    ← Equiv.sum_comp (contrEquiv1 dot_S2x4096x256_S768x256_S2x4096x768_2_1_01_0_n_n 256 rfl rfl).symm]
  refine Finset.sum_congr rfl fun c _ => ?_
  have c2 := contrEquiv1_symm_val dot_S2x4096x256_S768x256_S2x4096x768_2_1_01_0_n_n 256 rfl rfl c
  have l2 : dot_S2x4096x256_S768x256_S2x4096x768_2_1_01_0_n_n.lhsIdx (ix3 b n o)
      ((contrEquiv1 dot_S2x4096x256_S768x256_S2x4096x768_2_1_01_0_n_n 256 rfl rfl).symm c) = ix3 b n c := by
    funext ax; apply Fin.ext
    match ax with
    | ⟨0, _⟩ => rfl
    | ⟨1, _⟩ => rfl
    | ⟨2, _⟩ => exact c2
  have r2 : dot_S2x4096x256_S768x256_S2x4096x768_2_1_01_0_n_n.rhsIdx (ix3 b n o)
      ((contrEquiv1 dot_S2x4096x256_S768x256_S2x4096x768_2_1_01_0_n_n 256 rfl rfl).symm c) = ix2 o c := by
    funext ax; apply Fin.ext
    match ax with
    | ⟨0, _⟩ => rfl
    | ⟨1, _⟩ => exact c2
  rw [l2, r2]

/-- The projection of tokens that read as the activation L, at (b, n, o): the sum over channels of L times the weight. -/
theorem proj_reads (t : FVec Ideal S2x4096x256 .f32) (a3 : FVec Ideal S768x256 .f32)
    (L : Act) (hl : ∀ b n c, t (ix3 b n c) = L b c n) (b : Fin 2) (n : Fin 4096) (o : Fin 768) :
    proj t a3 (ix3 b n o) = ∑ c : Fin 256, L b c n * wqFn a3 o c := by
  rw [proj_apply]
  exact Finset.sum_congr rfl fun c _ => by rw [hl]; rfl

/-- Slab s of the split at (b, h, n, d) is projection row 256·s + 32·h + d of token n. -/
theorem slab_apply (y : FVec Ideal S2x4096x768 .f32) (o : Nat) (h : S3x2x8x4096x32.Slices ![o, 0, 0, 0, 0] S1x2x8x4096x32)
    (s : Fin 3) (hs : s.val = o) (b : Fin 2) (hd : Fin 8) (n : Fin 4096) (d : Fin 32) (r : Fin 768)
    (hr : r.val = 256 * o + 32 * hd.val + d.val) :
    shapeCast S2x8x4096x32 (extractStridedSlice S1x2x8x4096x32 ![o, 0, 0, 0, 0] (splitT y) h)
      Gen.shapeCasts_S1x2x8x4096x32_S2x8x4096x32 (ix4 b hd n d) = y (ix3 b n r) := by
  rw [shapeCast_dropLead, slice_slab o h _ _ b hd n d s hs]
  unfold splitT
  dsimp only
  rw [transpose_split]
  exact shapeCast_split _ y b n s hd d r (by rw [hr, hs])

/-- The queries at (b, h, n, d): projection row 32·h + d. -/
theorem headQ_apply (y : FVec Ideal S2x4096x768 .f32) (b : Fin 2) (hd : Fin 8) (n : Fin 4096) (d : Fin 32) :
    headQ (splitT y) (ix4 b hd n d) = y (ix3 b n (rowQ (hrow hd d))) := by
  unfold headQ
  exact slab_apply y 0 _ 0 rfl b hd n d _ (by show hd.val * 32 + d.val = 256 * 0 + 32 * hd.val + d.val; omega)

/-- The keys at (b, h, n, d): projection row 256 + 32·h + d. -/
theorem headK_apply (y : FVec Ideal S2x4096x768 .f32) (b : Fin 2) (hd : Fin 8) (n : Fin 4096) (d : Fin 32) :
    headK (splitT y) (ix4 b hd n d) = y (ix3 b n (rowK (hrow hd d))) := by
  unfold headK
  exact slab_apply y 1 _ 1 rfl b hd n d _ (by show 256 + (hd.val * 32 + d.val) = 256 * 1 + 32 * hd.val + d.val; omega)

/-- The values at (b, h, n, d): projection row 512 + 32·h + d. -/
theorem headV_apply (y : FVec Ideal S2x4096x768 .f32) (b : Fin 2) (hd : Fin 8) (n : Fin 4096) (d : Fin 32) :
    headV (splitT y) (ix4 b hd n d) = y (ix3 b n (rowV (hrow hd d))) := by
  unfold headV
  exact slab_apply y 2 _ 2 rfl b hd n d _ (by show 512 + (hd.val * 32 + d.val) = 256 * 2 + 32 * hd.val + d.val; omega)

end Cert.ReferenceIdeal.RefValue
-- ==== Proof.RefReadAttn.lean ====
/-
  One head of the reference's attention read at an index. Per batch b, head h and query token n:
  the score against key token m is (Σ_d q[n,d]·k[m,d])·scale, the query on the left; the maximum over m is
  taken from −∞ and once more against −∞, which changes nothing; each score less that maximum is
  exponentiated; the exponentials are divided by their sum over m; and the weighted sum of the values puts the
  weight on the left of each product: the DIVIDE FIRST arrangement. All of it holds on every extended real.
-/
import proofs.«164593_j26371099198429_2_alg».proof.Proof.RefLayout
import proofs.«164593_j26371099198429_2_alg».proof.Proof.Spec

open scoped BigOperators

namespace Cert.ReferenceIdeal.RefValue

open Cert.ReferenceIdeal Idealize.ShloMosaic Idealize.ShloMosaic.ValueIdx Cert.Attn

/-- The host's exponential at an index. -/
theorem hostExp_apply {s : Shape} (v : FVec Ideal s .f32) (i : s.Idx) : Host.exp v i = Ideal.exp (v i) := rfl

/-- The scores at (b, h, n, m): the sum over the 32 rows of query times key, scaled. -/
theorem scores_apply (q k : FVec Ideal S2x8x4096x32 .f32) (b : Fin 2) (hd : Fin 8) (n m : Fin 4096) :
    scores q k (ix4 b hd n m) = (∑ d : Fin 32, q (ix4 b hd n d) * k (ix4 b hd m d)) * scale := by
  unfold scores Cert.Attn.scale
  dsimp only
  rw [mulf_apply, broadcastInDim_scalar_apply, constant_apply]
  refine congrArg (· * Ideal.ofBits .f32 0x3E3504F3#32) ?_
  show FloatOps.dotGeneral dot_S2x8x4096x32_S2x8x4096x32_S2x8x4096x4096_3_3_2_2_01_01 none _ q k (ix4 b hd n m) = _
  rw [Ideal.dotGeneral_apply,
    ← Equiv.sum_comp (contrEquiv1 dot_S2x8x4096x32_S2x8x4096x32_S2x8x4096x4096_3_3_2_2_01_01 32 rfl rfl).symm]
  refine Finset.sum_congr rfl fun d _ => ?_
  have c2 := contrEquiv1_symm_val dot_S2x8x4096x32_S2x8x4096x32_S2x8x4096x4096_3_3_2_2_01_01 32 rfl rfl d
  have l2 : dot_S2x8x4096x32_S2x8x4096x32_S2x8x4096x4096_3_3_2_2_01_01.lhsIdx (ix4 b hd n m)
      ((contrEquiv1 dot_S2x8x4096x32_S2x8x4096x32_S2x8x4096x4096_3_3_2_2_01_01 32 rfl rfl).symm d) = ix4 b hd n d := by
    funext ax; apply Fin.ext
    match ax with
    | ⟨0, _⟩ => rfl
    | ⟨1, _⟩ => rfl
    | ⟨2, _⟩ => rfl
    | ⟨3, _⟩ => exact c2
  have r2 : dot_S2x8x4096x32_S2x8x4096x32_S2x8x4096x4096_3_3_2_2_01_01.rhsIdx (ix4 b hd n m)
      ((contrEquiv1 dot_S2x8x4096x32_S2x8x4096x32_S2x8x4096x4096_3_3_2_2_01_01 32 rfl rfl).symm d) = ix4 b hd m d := by
    funext ax; apply Fin.ext
    match ax with
    | ⟨0, _⟩ => rfl
    | ⟨1, _⟩ => rfl
    | ⟨2, _⟩ => rfl
    | ⟨3, _⟩ => exact c2
  rw [l2, r2]

/-- The exponentials at (b, h, n, m): exp of the score less the maximum of the query's scores over the key tokens. -/
theorem expd_apply (s : FVec Ideal S2x8x4096x4096 .f32) (b : Fin 2) (hd : Fin 8) (n m : Fin 4096) :
    expd s (ix4 b hd n m)
      = Ideal.exp (s (ix4 b hd n m) - (Finset.univ : Finset (Fin 4096)).fold max ⊥ (fun m' => s (ix4 b hd n m'))) := by
  unfold expd
  dsimp only
  rw [hostExp_apply, subf_apply, bcast_qcol_full, bcast_q_col, maximumf_apply, broadcastInDim_scalar_apply, hostMax_keys,
    constant_apply, ofBits_negInf, max_eq_right bot_le]

/-- The softmax weights at (b, h, n, m): the exponential divided by the sum of the query's exponentials. -/
theorem normd_apply (e : FVec Ideal S2x8x4096x4096 .f32) (b : Fin 2) (hd : Fin 8) (n m : Fin 4096) :
    normd e (ix4 b hd n m) = Ideal.div (e (ix4 b hd n m)) (∑ m' : Fin 4096, e (ix4 b hd n m')) := by
  unfold normd
  dsimp only
  rw [hostDivf_apply, bcast_qcol_full, bcast_q_col, hostSum_keys, constant_apply, Ideal.ofBits_zero_f32, zero_add]

/-- The weighted sum at (b, h, n, d): the sum over the key tokens of weight times value. -/
theorem wsum_apply (p : FVec Ideal S2x8x4096x4096 .f32) (v : FVec Ideal S2x8x4096x32 .f32)
    (b : Fin 2) (hd : Fin 8) (n : Fin 4096) (d : Fin 32) :
    wsum p v (ix4 b hd n d) = ∑ m : Fin 4096, p (ix4 b hd n m) * v (ix4 b hd m d) := by
  unfold wsum
  show FloatOps.dotGeneral dot_S2x8x4096x4096_S2x8x4096x32_S2x8x4096x32_3_2_2_3_01_01 none _ p v (ix4 b hd n d) = _
  rw [Ideal.dotGeneral_apply,
    ← Equiv.sum_comp (contrEquiv1 dot_S2x8x4096x4096_S2x8x4096x32_S2x8x4096x32_3_2_2_3_01_01 4096 rfl rfl).symm]
  refine Finset.sum_congr rfl fun m _ => ?_
  have c2 := contrEquiv1_symm_val dot_S2x8x4096x4096_S2x8x4096x32_S2x8x4096x32_3_2_2_3_01_01 4096 rfl rfl m
  have l2 : dot_S2x8x4096x4096_S2x8x4096x32_S2x8x4096x32_3_2_2_3_01_01.lhsIdx (ix4 b hd n d)
      ((contrEquiv1 dot_S2x8x4096x4096_S2x8x4096x32_S2x8x4096x32_3_2_2_3_01_01 4096 rfl rfl).symm m) = ix4 b hd n m := by
    funext ax; apply Fin.ext
    match ax with
    | ⟨0, _⟩ => rfl
    | ⟨1, _⟩ => rfl
    | ⟨2, _⟩ => rfl
    | ⟨3, _⟩ => exact c2
  have r2 : dot_S2x8x4096x4096_S2x8x4096x32_S2x8x4096x32_3_2_2_3_01_01.rhsIdx (ix4 b hd n d)
      ((contrEquiv1 dot_S2x8x4096x4096_S2x8x4096x32_S2x8x4096x32_3_2_2_3_01_01 4096 rfl rfl).symm m) = ix4 b hd m d := by
    funext ax; apply Fin.ext
    match ax with
    | ⟨0, _⟩ => rfl
    | ⟨1, _⟩ => rfl
    | ⟨2, _⟩ => exact c2
    | ⟨3, _⟩ => rfl
  rw [l2, r2]

section Reads
variable (q k v : FVec Ideal S2x8x4096x32 .f32) (Q K V : Act)
  (hq : ∀ b hd n d, q (ix4 b hd n d) = Q b (hrow hd d) n)
  (hk : ∀ b hd n d, k (ix4 b hd n d) = K b (hrow hd d) n)
  (hv : ∀ b hd n d, v (ix4 b hd n d) = V b (hrow hd d) n)

include hq hk in
/-- Arrays that read as the activations Q and K give the specification's scores, queries on the left. -/
theorem scores_reads (b : Fin 2) (hd : Fin 8) (n m : Fin 4096) :
    scores q k (ix4 b hd n m) = scoreR Q K b hd n m := by
  rw [scores_apply]
  unfold scoreR
  exact congrArg (· * scale) (Finset.sum_congr rfl fun d _ => by rw [hq, hk])

include hq hk in
/-- … and its exponentials. -/
theorem expd_reads (b : Fin 2) (hd : Fin 8) (n m : Fin 4096) :
    expd (scores q k) (ix4 b hd n m) = pexpR Q K b hd n m := by
  rw [expd_apply, scores_reads q k Q K hq hk]
  unfold pexpR smaxR
  have e : (fun m' => scores q k (ix4 b hd n m')) = fun m' => scoreR Q K b hd n m' :=
    funext fun m' => scores_reads q k Q K hq hk b hd n m'
  rw [e]

include hq hk in
/-- … and its softmax weights. -/
theorem weights_reads (b : Fin 2) (hd : Fin 8) (n m : Fin 4096) :
    weights (scores q k) (ix4 b hd n m) = Ideal.div (pexpR Q K b hd n m) (psumR Q K b hd n) := by
  unfold weights
  rw [normd_apply, expd_reads q k Q K hq hk]
  unfold psumR
  exact congrArg (Ideal.div _) (Finset.sum_congr rfl fun m' _ => expd_reads q k Q K hq hk b hd n m')

include hq hk hv in
/-- The head's output at (b, h, n, d) is the specification's, DIVIDE FIRST. -/
theorem head_reads (b : Fin 2) (hd : Fin 8) (n : Fin 4096) (d : Fin 32) :
    wsum (weights (scores q k)) v (ix4 b hd n d) = headR Q K V b hd d n := by
  rw [wsum_apply]
  unfold headR
  exact Finset.sum_congr rfl fun m _ => by rw [weights_reads q k Q K hq hk, hv]

end Reads

end Cert.ReferenceIdeal.RefValue
-- ==== Proof.RefReadOut.lean ====
/-
  The last stages of the reference read at an index: the heads merged back into 256 channels (channel j is row
  j % 32 of head j / 32), and the output projection with its bias and the residual, x + (Σ_j o[j]·W[c,j] + b[c]),
  the merged activation on the left of each product.
-/
import proofs.«164593_j26371099198429_2_alg».proof.Proof.RefLayout
import proofs.«164593_j26371099198429_2_alg».proof.Proof.Spec

open scoped BigOperators

namespace Cert.ReferenceIdeal.RefValue

open Cert.ReferenceIdeal Idealize.ShloMosaic Idealize.ShloMosaic.ValueIdx Cert.Attn

/-- The merged heads at (b, n, j): the head output at head j / 32, row j % 32. -/
theorem merged_apply (o : FVec Ideal S2x8x4096x32 .f32) (b : Fin 2) (n : Fin 4096) (j : Fin 256) :
    merged o (ix3 b n j) = o (ix4 b (headOf j) n (rowOf j)) := by
  unfold merged
  dsimp only
  rw [shapeCast_merge _ _ b n j (headOf j) (rowOf j)
    (by show j.val = 32 * (j.val / 32) + j.val % 32; omega), transpose_heads]

/-- If the head outputs read as H (head, row, token), the merged array reads as the heads stacked. -/
theorem merged_reads (o : FVec Ideal S2x8x4096x32 .f32) (H : Fin 2 → Fin 8 → Fin 32 → Fin 4096 → EReal)
    (ho : ∀ b hd n d, o (ix4 b hd n d) = H b hd d n) (b : Fin 2) (n : Fin 4096) (j : Fin 256) :
    merged o (ix3 b n j) = H b (headOf j) (rowOf j) n := by
  rw [merged_apply, ho]

/-- The output projection, bias and residual at (b, n, c). -/
theorem outTok_apply (t m : FVec Ideal S2x4096x256 .f32) (a4 : FVec Ideal S256x256 .f32) (a5 : FVec Ideal S256 .f32)
    (b : Fin 2) (n : Fin 4096) (c : Fin 256) :
    outTok t m a4 a5 (ix3 b n c) = t (ix3 b n c) + ((∑ j : Fin 256, m (ix3 b n j) * a4 (ix2 c j)) + a5 (ix1 c)) := by
  unfold outTok
  dsimp only
  rw [addf_apply, addf_apply, bcast_unit_full, bcast_vec_unit]
  refine congrArg (fun z => t (ix3 b n c) + (z + a5 (ix1 c))) ?_
  show FloatOps.dotGeneral dot_S2x4096x256_S256x256_S2x4096x256_2_1_01_0_n_n none _ m a4 (ix3 b n c) = _
  rw [Ideal.dotGeneral_apply,
    ← Equiv.sum_comp (contrEquiv1 dot_S2x4096x256_S256x256_S2x4096x256_2_1_01_0_n_n 256 rfl rfl).symm]
  refine Finset.sum_congr rfl fun j _ => ?_
  have c2 := contrEquiv1_symm_val dot_S2x4096x256_S256x256_S2x4096x256_2_1_01_0_n_n 256 rfl rfl j
  have l2 : dot_S2x4096x256_S256x256_S2x4096x256_2_1_01_0_n_n.lhsIdx (ix3 b n c)
      ((contrEquiv1 dot_S2x4096x256_S256x256_S2x4096x256_2_1_01_0_n_n 256 rfl rfl).symm j) = ix3 b n j := by
    funext ax; apply Fin.ext
    match ax with
    | ⟨0, _⟩ => rfl
    | ⟨1, _⟩ => rfl
    | ⟨2, _⟩ => exact c2
  have r2 : dot_S2x4096x256_S256x256_S2x4096x256_2_1_01_0_n_n.rhsIdx (ix3 b n c)
      ((contrEquiv1 dot_S2x4096x256_S256x256_S2x4096x256_2_1_01_0_n_n 256 rfl rfl).symm j) = ix2 c j := by
    funext ax; apply Fin.ext
    match ax with
    | ⟨0, _⟩ => rfl
    | ⟨1, _⟩ => exact c2
  rw [l2, r2]

/-- If the tokens read as X and the merged heads as C, the output reads as residual + (projection + bias). -/
theorem outTok_reads (t m : FVec Ideal S2x4096x256 .f32) (a4 : FVec Ideal S256x256 .f32) (a5 : FVec Ideal S256 .f32)
    (X C : Act) (ht : ∀ b n c, t (ix3 b n c) = X b c n) (hm : ∀ b n j, m (ix3 b n j) = C b j n)
    (b : Fin 2) (n : Fin 4096) (c : Fin 256) :
    outTok t m a4 a5 (ix3 b n c) = X b c n + ((∑ j : Fin 256, C b j n * wpFn a4 c j) + vecFn a5 c) := by
  rw [outTok_apply, ht]
  refine congrArg (fun z => X b c n + (z + a5 (ix1 c))) ?_
  exact Finset.sum_congr rfl fun j _ => by rw [hm]; rfl

end Cert.ReferenceIdeal.RefValue
-- ==== Proof.RefEq.lean ====
/-
  The reference's result is the specification's DIVIDE FIRST function of its arguments, at every index and on all
  extended reals. The stages are chained: the tokens read as the image's feature-major activation; LayerNorm of
  them reads as `lnorm`; the projection rows as `projR`; the three slabs as its query, key and value rows per head;
  the attention as `headR`; the merged heads as `catR`; the output projection, bias and residual as `outR`; and
  the return to the image layout as `imgOfAct`.
-/
import proofs.«164593_j26371099198429_2_alg».proof.Proof.RefReadTokens
import proofs.«164593_j26371099198429_2_alg».proof.Proof.RefReadNorm
import proofs.«164593_j26371099198429_2_alg».proof.Proof.RefReadProj
import proofs.«164593_j26371099198429_2_alg».proof.Proof.RefReadAttn
import proofs.«164593_j26371099198429_2_alg».proof.Proof.RefReadOut

open scoped BigOperators

namespace Cert.ReferenceIdeal.RefValue

open Cert.ReferenceIdeal Idealize.ShloMosaic Idealize.ShloMosaic.ValueIdx Cert.Attn

/-- The reference's pure term is the specification's result, DIVIDE FIRST. -/
theorem refTerm_eq (a0 : FVec Ideal S2x256x64x64 .f32) (a1 a2 : FVec Ideal S256 .f32) (a3 : FVec Ideal S768x256 .f32)
    (a4 : FVec Ideal S256x256 .f32) (a5 : FVec Ideal S256 .f32) :
    refTerm a0 a1 a2 a3 a4 a5 = Cert.Attn.resultR a0 a1 a2 a3 a4 a5 := by
  -- the tokens, as an activation
  have ht : ∀ b n c, tokens a0 (ix3 b n c) = actOfImg a0 b c n := fun b n c => tokens_act a0 b c n
  -- LayerNorm
  have hl : ∀ b n c, lnormed (tokens a0) a1 a2 (ix3 b n c) = lnorm (actOfImg a0) (vecFn a1) (vecFn a2) b c n :=
    fun b n c => lnormed_apply (tokens a0) a1 a2 (actOfImg a0) ht b n c
  -- the projection rows
  have hy : ∀ b n o, proj (lnormed (tokens a0) a1 a2) a3 (ix3 b n o)
      = projR (actOfImg a0) (vecFn a1) (vecFn a2) (wqFn a3) b o n :=
    fun b n o => proj_reads (lnormed (tokens a0) a1 a2) a3
      (fun b c n => lnorm (actOfImg a0) (vecFn a1) (vecFn a2) b c n) hl b n o
  -- queries, keys, values per head
  have hq : ∀ b hd n d, headQ (splitT (proj (lnormed (tokens a0) a1 a2) a3)) (ix4 b hd n d)
      = (fun b j n => projR (actOfImg a0) (vecFn a1) (vecFn a2) (wqFn a3) b (rowQ j) n) b (hrow hd d) n :=
    fun b hd n d => (headQ_apply _ b hd n d).trans (hy b n _)
  have hk : ∀ b hd n d, headK (splitT (proj (lnormed (tokens a0) a1 a2) a3)) (ix4 b hd n d)
      = (fun b j n => projR (actOfImg a0) (vecFn a1) (vecFn a2) (wqFn a3) b (rowK j) n) b (hrow hd d) n :=
    fun b hd n d => (headK_apply _ b hd n d).trans (hy b n _)
  have hv : ∀ b hd n d, headV (splitT (proj (lnormed (tokens a0) a1 a2) a3)) (ix4 b hd n d)
      = (fun b j n => projR (actOfImg a0) (vecFn a1) (vecFn a2) (wqFn a3) b (rowV j) n) b (hrow hd d) n :=
    fun b hd n d => (headV_apply _ b hd n d).trans (hy b n _)
  -- one head of attention, then the heads stacked
  have hh := head_reads _ _ _
    (fun b j n => projR (actOfImg a0) (vecFn a1) (vecFn a2) (wqFn a3) b (rowQ j) n)
    (fun b j n => projR (actOfImg a0) (vecFn a1) (vecFn a2) (wqFn a3) b (rowK j) n)
    (fun b j n => projR (actOfImg a0) (vecFn a1) (vecFn a2) (wqFn a3) b (rowV j) n) hq hk hv
  have hm := merged_reads _
    (fun b hd d n => headR
      (fun b j n => projR (actOfImg a0) (vecFn a1) (vecFn a2) (wqFn a3) b (rowQ j) n)
      (fun b j n => projR (actOfImg a0) (vecFn a1) (vecFn a2) (wqFn a3) b (rowK j) n)
      (fun b j n => projR (actOfImg a0) (vecFn a1) (vecFn a2) (wqFn a3) b (rowV j) n) b hd d n) hh
  -- output projection, bias, residual
  have hr := outTok_reads (tokens a0) _ a4 a5 (actOfImg a0)
    (catR
      (fun b j n => projR (actOfImg a0) (vecFn a1) (vecFn a2) (wqFn a3) b (rowQ j) n)
      (fun b j n => projR (actOfImg a0) (vecFn a1) (vecFn a2) (wqFn a3) b (rowK j) n)
      (fun b j n => projR (actOfImg a0) (vecFn a1) (vecFn a2) (wqFn a3) b (rowV j) n)) ht hm
  -- back to the image layout
  exact toImg_eq _ _ hr

end Cert.ReferenceIdeal.RefValue
-- ==== Proof.AlgebraConst.lean ====
/-
  The three float constants of the specification as real numbers.

  * The word `0x43800000` is 2⁸ = 256 (biased exponent 135, zero fraction).
  * The word `0x3727C5AC` is 10995116 · 2⁻⁴⁰ (biased exponent 110), a positive real: the ε of the normalization.
  * The word `0x3E3504F3` has biased exponent 124, hence is a real: the scale of the scores.

  Also the vocabulary "is a real number" for extended reals, closed under sums, products and differences.
-/
import proofs.«164593_j26371099198429_2_alg».proof.Proof.Spec

noncomputable section

namespace Cert.Attn

open Idealize.ShloMosaic

/-- The channel count is the real 256. -/
theorem n256_eq : n256 = ((256 : ℝ) : EReal) := by
  simp [n256, Ideal.ofBits, Ideal.ieee, -EReal.coe_mul]; norm_num

/-- ε is the real 10995116 · 2⁻⁴⁰. -/
theorem eps_eq : eps = ((10995116 * (2 : ℝ) ^ (-40 : ℤ) : ℝ) : EReal) := by
  simp [eps, Ideal.ofBits, Ideal.ieee, -EReal.coe_mul]

/-- ε is a positive real. -/
theorem eps_pos : ∃ r : ℝ, 0 < r ∧ eps = (r : EReal) :=
  ⟨10995116 * (2 : ℝ) ^ (-40 : ℤ), by positivity, eps_eq⟩

/-- The scale is a real. -/
theorem scale_real : ∃ r : ℝ, scale = (r : EReal) := by
  simp [scale, Ideal.ofBits, Ideal.ieee, -EReal.coe_mul]

/-- An extended real that is (the coercion of) a real number. -/
def IsR (a : EReal) : Prop := ∃ r : ℝ, a = (r : EReal)

theorem IsR.coe (r : ℝ) : IsR (r : EReal) := ⟨r, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of reals is a real. -/
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

/-- A real divided by the channel count is a real. -/
theorem IsR.div_n256 {a : EReal} (ha : IsR a) : IsR (Ideal.div a n256) := by
  obtain ⟨r, rfl⟩ := ha
  rw [n256_eq, Ideal.div_coe (by norm_num : (256 : ℝ) ≠ 0)]
  exact (IsR.coe r).mul (IsR.coe _)

theorem scale_isR : IsR scale := scale_real

end Cert.Attn

end
-- ==== Proof.LibAttention.lean ====
import Idealize.ShloMosaic.PureOps.Ideal

/-! # Softmax attention with folded projections, on the extended reals

Tokens are indexed by a finite type `N`, features by a finite type `D`. From token rows `X`, two mixing matrices `R`, `E`,
three weight matrices `Wq`, `Wk`, `Wv`, three biases and a scale `σ`, single-head attention is computed in two arrangements.

* The FOLDED arrangement multiplies each weight matrix into its mixing matrix first (`Wq · R`, `Wk · E`), scales the queries by
  `σ` before the scores are taken, and divides by the softmax normalizer AFTER the weighted sum of the values:
  `(∑ⱼ pⱼ · vⱼ) / (∑ⱼ pⱼ)` with `pⱼ = exp (sⱼ − maxⱼ sⱼ)`.
* The TWO-STEP arrangement applies the mixing matrix and then the weight matrix to each token, scales the scores
  `(q · k) · σ`, and normalizes the weights BEFORE the weighted sum: `∑ⱼ (pⱼ / ∑ pⱼ) · vⱼ`.

Over the reals the two agree: matrix products associate, a common factor moves across a finite sum, and a finite sum divided by
a nonzero number is the sum of the quotients. On the extended reals these laws fail at the infinities, so the statement
assumes every input entry is a real number; then every intermediate quantity is a real (the row maximum of finitely many reals
over a nonempty index type, an exponential of a real), and the normalizer is a sum of positive reals, hence nonzero.
No program is mentioned here. -/

noncomputable section

open scoped BigOperators

namespace Cert.LibAttention

open Idealize.ShloMosaic

/-- Every entry of a two-index family is a real number. -/
def Real2 {α β : Type} (f : α → β → EReal) : Prop := ∀ a b, ∃ r : ℝ, f a b = (r : EReal)
/-- Every entry of a one-index family is a real number. -/
def Real1 {α : Type} (f : α → EReal) : Prop := ∀ a, ∃ r : ℝ, f a = (r : EReal)

variable {N D : Type} [Fintype N] [Fintype D]
variable (X : N → D → EReal) (R E Wq Wk Wv : D → D → EReal) (bq bk bv : D → EReal) (σ : EReal)

/-! ## The folded arrangement -/

/-- Scaled queries through the folded matrix `Wq · R`. -/
def fQ (n : N) (c : D) : EReal := ((∑ a, X n a * (∑ b, Wq c b * R b a)) + bq c) * σ
/-- Keys through the folded matrix `Wk · E`. -/
def fK (n : N) (c : D) : EReal := (∑ a, X n a * (∑ b, Wk c b * E b a)) + bk c
/-- Values. -/
def fV (n : N) (c : D) : EReal := (∑ a, X n a * Wv c a) + bv c
/-- Scores of the scaled queries against the keys. -/
def fS (n j : N) : EReal := ∑ c, fQ X R Wq bq σ n c * fK X E Wk bk j c
/-- Row maximum of the scores, from the bottom element. -/
def fM (n : N) : EReal := (Finset.univ : Finset N).fold max ⊥ (fun j => fS X R E Wq Wk bq bk σ n j)
/-- Unnormalized weights. -/
def fP (n j : N) : EReal := Ideal.exp (fS X R E Wq Wk bq bk σ n j - fM X R E Wq Wk bq bk σ n)
/-- Weighted sum of the values, divided by the normalizer afterwards. -/
def fO (n : N) (c : D) : EReal :=
  Ideal.div (∑ j, fP X R E Wq Wk bq bk σ n j * fV X Wv bv j c) (∑ j, fP X R E Wq Wk bq bk σ n j)

/-! ## The two-step arrangement -/

/-- Queries: the mixing matrix, then the weight matrix. -/
def gQ (n : N) (c : D) : EReal := (∑ b, (∑ a, X n a * R b a) * Wq c b) + bq c
/-- Keys: the mixing matrix, then the weight matrix. -/
def gK (n : N) (c : D) : EReal := (∑ b, (∑ a, X n a * E b a) * Wk c b) + bk c
/-- Scores, scaled after the product. -/
def gS (n j : N) : EReal := (∑ c, gQ X R Wq bq n c * gK X E Wk bk j c) * σ
/-- Row maximum of the scaled scores, from the bottom element. -/
def gM (n : N) : EReal := (Finset.univ : Finset N).fold max ⊥ (fun j => gS X R E Wq Wk bq bk σ n j)
/-- Unnormalized weights. -/
def gP (n j : N) : EReal := Ideal.exp (gS X R E Wq Wk bq bk σ n j - gM X R E Wq Wk bq bk σ n)
/-- Weighted sum of the values with weights normalized first. -/
def gO (n : N) (c : D) : EReal :=
  ∑ j, Ideal.div (gP X R E Wq Wk bq bk σ n j) (∑ j', gP X R E Wq Wk bq bk σ n j') * fV X Wv bv j c

/-! ## Real entries: coercions move outward

When every entry is the coercion of a real, each intermediate quantity of either arrangement is the coercion of the
corresponding real expression, because the coercion commutes with products, sums and finite sums. -/

/-- The coercion of a finite sum of reals is the sum of the coercions (the coercion is additive). -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Entrywise coercion of a real two-index family. -/
def c2 {α β : Type} (f : α → β → ℝ) : α → β → EReal := fun a b => (f a b : EReal)
/-- Entrywise coercion of a real one-index family. -/
def c1 {α : Type} (f : α → ℝ) : α → EReal := fun a => (f a : EReal)

/-- A two-index family of real entries is the entrywise coercion of a real family. -/
theorem Real2.exists_coe {α β : Type} {f : α → β → EReal} (h : Real2 f) : ∃ g : α → β → ℝ, f = c2 g := by
  choose g hg using h
  exact ⟨g, funext fun a => funext fun b => hg a b⟩

/-- A one-index family of real entries is the entrywise coercion of a real family. -/
theorem Real1.exists_coe {α : Type} {f : α → EReal} (h : Real1 f) : ∃ g : α → ℝ, f = c1 g := by
  choose g hg using h
  exact ⟨g, funext hg⟩

section RealForms

variable (x : N → D → ℝ) (r e wq wk wv m w : D → D → ℝ) (aq ak av b : D → ℝ) (s : ℝ)

/-- Matrix products associate: a row through the folded matrix is the row through the mixing matrix, then the weight
matrix. Both sides are the same double sum, by distributing and exchanging the order of summation. -/
theorem fold_eq (y : D → ℝ) (u : D → ℝ) :
    ∑ a, y a * (∑ b', u b' * m b' a) = ∑ b', (∑ a, y a * m b' a) * u b' := by
  simp only [Finset.mul_sum, Finset.sum_mul]
  rw [Finset.sum_comm]
  exact Finset.sum_congr rfl fun b' _ => Finset.sum_congr rfl fun a _ => by ring

/-- The real projection: the mixing matrix, then the weight matrix, plus the bias. -/
def rProj (n : N) (c : D) : ℝ := (∑ b', (∑ a, x n a * m b' a) * w c b') + b c

/-- The real scaled score. -/
def rS (n j : N) : ℝ := (∑ c, rProj x r wq aq n c * rProj x e wk ak j c) * s

/-- The real value row. -/
def rV (n : N) (c : D) : ℝ := (∑ a, x n a * wv c a) + av c

theorem gQ_coe (n : N) (c : D) : gQ (c2 x) (c2 m) (c2 w) (c1 b) n c = (rProj x m w b n c : EReal) := by
  simp only [gQ, rProj, c1, c2, coe_sum, EReal.coe_add, EReal.coe_mul]

theorem gK_coe (n : N) (c : D) : gK (c2 x) (c2 m) (c2 w) (c1 b) n c = (rProj x m w b n c : EReal) := by
  simp only [gK, rProj, c1, c2, coe_sum, EReal.coe_add, EReal.coe_mul]

theorem fK_coe (n : N) (c : D) : fK (c2 x) (c2 m) (c2 w) (c1 b) n c = (rProj x m w b n c : EReal) := by
  rw [rProj, ← fold_eq m (x n) (w c)]
  simp only [fK, c1, c2, coe_sum, EReal.coe_add, EReal.coe_mul]

theorem fQ_coe (n : N) (c : D) :
    fQ (c2 x) (c2 m) (c2 w) (c1 b) (s : EReal) n c = ((rProj x m w b n c * s : ℝ) : EReal) := by
  rw [rProj, ← fold_eq m (x n) (w c)]
  simp only [fQ, c1, c2, coe_sum, EReal.coe_add, EReal.coe_mul]

theorem fV_coe (n : N) (c : D) : fV (c2 x) (c2 wv) (c1 av) n c = (rV x wv av n c : EReal) := by
  simp only [fV, rV, c1, c2, coe_sum, EReal.coe_add, EReal.coe_mul]

/-- The two-step scores are the coercions of the real scaled scores. -/
theorem gS_coe (n j : N) :
    gS (c2 x) (c2 r) (c2 e) (c2 wq) (c2 wk) (c1 aq) (c1 ak) (s : EReal) n j = (rS x r e wq wk aq ak s n j : EReal) := by
  simp only [gS, gQ_coe, gK_coe, rS, coe_sum, EReal.coe_mul]

/-- The folded scores are the coercions of the same real scaled scores: the common factor moves across the finite sum. -/
theorem fS_coe (n j : N) :
    fS (c2 x) (c2 r) (c2 e) (c2 wq) (c2 wk) (c1 aq) (c1 ak) (s : EReal) n j = (rS x r e wq wk aq ak s n j : EReal) := by
  have h : rS x r e wq wk aq ak s n j = ∑ c, (rProj x r wq aq n c * s) * rProj x e wk ak j c := by
    rw [rS, Finset.sum_mul]
    exact Finset.sum_congr rfl fun c _ => by ring
  rw [h]
  simp only [fS, fQ_coe, fK_coe, coe_sum, EReal.coe_mul]

end RealForms

/-! ## The row maximum and the normalizer -/

/-- The running maximum, from the bottom element, of finitely many reals over a nonempty set is a real: the bottom
element is absorbed by the first entry, and the maximum of two reals is a real. -/
theorem fold_max_real {ι : Type} (t : ι → ℝ) (s : Finset ι) (hs : s.Nonempty) :
    ∃ m : ℝ, s.fold max ⊥ (fun j => (t j : EReal)) = (m : EReal) := by
  classical
  induction s using Finset.induction_on with
  | empty => exact absurd hs Finset.not_nonempty_empty
  | insert a s ha ih =>
    rw [Finset.fold_insert ha]
    rcases s.eq_empty_or_nonempty with rfl | hne
    · exact ⟨t a, by rw [Finset.fold_empty, max_bot_right]⟩
    · obtain ⟨m, hm⟩ := ih hne
      exact ⟨max (t a) m, by rw [hm, EReal.coe_strictMono.monotone.map_max]⟩

/-- With positive real weights over a nonempty index type the normalizer is a nonzero real, so dividing the weighted sum
by it is multiplying by its reciprocal, and the reciprocal distributes over the finite sum. -/
theorem div_sum_eq (p v : N → ℝ) (hp : ∀ j, 0 < p j) (n : N) :
    Ideal.div (∑ j, (p j : EReal) * (v j : EReal)) (∑ j, (p j : EReal))
      = ∑ j, Ideal.div (p j : EReal) (∑ j', (p j' : EReal)) * (v j : EReal) := by
  have hL : (∑ j, p j) ≠ 0 := (Finset.sum_pos (fun j _ => hp j) ⟨n, Finset.mem_univ n⟩).ne'
  rw [← coe_sum Finset.univ p]
  simp only [Ideal.div_coe hL, ← EReal.coe_mul, ← coe_sum]
  congr 1
  rw [Finset.sum_mul]
  exact Finset.sum_congr rfl fun j _ => by ring

/-- The two arrangements agree when every input is the entrywise coercion of a real family. -/
theorem attention_eq_coe (x : N → D → ℝ) (r e wq wk wv : D → D → ℝ) (aq ak av : D → ℝ) (s : ℝ) (n : N) (c : D) :
    fO (c2 x) (c2 r) (c2 e) (c2 wq) (c2 wk) (c2 wv) (c1 aq) (c1 ak) (c1 av) (s : EReal) n c
      = gO (c2 x) (c2 r) (c2 e) (c2 wq) (c2 wk) (c2 wv) (c1 aq) (c1 ak) (c1 av) (s : EReal) n c := by
  obtain ⟨m, hm⟩ := fold_max_real (fun j => rS x r e wq wk aq ak s n j) Finset.univ ⟨n, Finset.mem_univ n⟩
  have hfM : fM (c2 x) (c2 r) (c2 e) (c2 wq) (c2 wk) (c1 aq) (c1 ak) (s : EReal) n = (m : EReal) := by
    simp only [fM, fS_coe]
    exact hm
  have hgM : gM (c2 x) (c2 r) (c2 e) (c2 wq) (c2 wk) (c1 aq) (c1 ak) (s : EReal) n = (m : EReal) := by
    simp only [gM, gS_coe]
    exact hm
  have hfP : ∀ j, fP (c2 x) (c2 r) (c2 e) (c2 wq) (c2 wk) (c1 aq) (c1 ak) (s : EReal) n j
      = ((Real.exp (rS x r e wq wk aq ak s n j - m) : ℝ) : EReal) := fun j => by
    rw [fP, fS_coe, hfM, ← EReal.coe_sub, Ideal.exp_coe]
  have hgP : ∀ j, gP (c2 x) (c2 r) (c2 e) (c2 wq) (c2 wk) (c1 aq) (c1 ak) (s : EReal) n j
      = ((Real.exp (rS x r e wq wk aq ak s n j - m) : ℝ) : EReal) := fun j => by
    rw [gP, gS_coe, hgM, ← EReal.coe_sub, Ideal.exp_coe]
  simp only [fO, gO, hfP, hgP, fV_coe]
  exact div_sum_eq (fun j => Real.exp (rS x r e wq wk aq ak s n j - m)) (fun j => rV x wv av j c)
    (fun j => Real.exp_pos _) n

/-! ## The two arrangements agree at real entries -/

/-- At real entries and a real scale the folded arrangement and the two-step arrangement give the same output, entry by entry. -/
theorem attention_eq (hX : Real2 X) (hR : Real2 R) (hE : Real2 E) (hWq : Real2 Wq) (hWk : Real2 Wk) (hWv : Real2 Wv)
    (hbq : Real1 bq) (hbk : Real1 bk) (hbv : Real1 bv) (hσ : ∃ r : ℝ, σ = (r : EReal)) (n : N) (c : D) :
    fO X R E Wq Wk Wv bq bk bv σ n c = gO X R E Wq Wk Wv bq bk bv σ n c := by
  obtain ⟨x, rfl⟩ := hX.exists_coe
  obtain ⟨r, rfl⟩ := hR.exists_coe
  obtain ⟨e, rfl⟩ := hE.exists_coe
  obtain ⟨wq, rfl⟩ := hWq.exists_coe
  obtain ⟨wk, rfl⟩ := hWk.exists_coe
  obtain ⟨wv, rfl⟩ := hWv.exists_coe
  obtain ⟨aq, rfl⟩ := hbq.exists_coe
  obtain ⟨ak, rfl⟩ := hbk.exists_coe
  obtain ⟨av, rfl⟩ := hbv.exists_coe
  obtain ⟨s, rfl⟩ := hσ
  exact attention_eq_coe x r e wq wk wv aq ak av s n c

end Cert.LibAttention
-- ==== Proof.AlgebraNorm.lean ====
/-
  The normalization over channels and the projection rows at real inputs.

  With every activation entry a real, the channel mean (a finite sum divided by 256) is a real, so are the deviations;
  the variance is a sum of squares divided by 256, a real that is ≥ 0; ε is a positive real, so `var + ε` is a positive
  real and its reciprocal square root is a real. Hence every normalized entry and every projection row is a real.
  The two spellings of a projection row differ by the order of the factors of each product only.
-/
import proofs.«164593_j26371099198429_2_alg».proof.Proof.AlgebraConst
import proofs.«164593_j26371099198429_2_alg».proof.Proof.LibAttention

noncomputable section

namespace Cert.Attn

open Idealize.ShloMosaic Cert.LibAttention

variable (x : Act) (hx : ∀ b c n, IsR (x b c n))

include hx in
/-- The channel mean of real entries is a real. -/
theorem mean_real (b : Fin 2) (n : Fin 4096) : IsR (mean x b n) :=
  (IsR.sum _ _ (fun c => hx b c n)).div_n256

include hx in
/-- A deviation from the mean is a real. -/
theorem dev_real (b : Fin 2) (c : Fin 256) (n : Fin 4096) : IsR (dev x b c n) :=
  IsR.sub (hx b c n) (mean_real x hx b n)

include hx in
/-- The variance is a nonnegative real: a sum of squares of reals, divided by 256. -/
theorem var_real_nonneg (b : Fin 2) (n : Fin 4096) : ∃ r : ℝ, 0 ≤ r ∧ var x b n = (r : EReal) := by
  choose d hd using fun c => (dev_real x hx b c n : ∃ r : ℝ, dev x b c n = (r : EReal))
  refine ⟨(∑ c, d c * d c) * (1 / 256), mul_nonneg (Finset.sum_nonneg fun c _ => mul_self_nonneg _) (by norm_num), ?_⟩
  unfold var
  simp only [hd]
  rw [n256_eq, Ideal.div_coe (by norm_num : (256 : ℝ) ≠ 0)]
  simp only [← EReal.coe_mul, ← coe_sum]

/-- The reciprocal square root of a nonnegative real plus a positive real is a real. -/
theorem rsqrt_real (v e : ℝ) (hv : 0 ≤ v) (he : 0 < e) : IsR (Ideal.rsqrt ((v : EReal) + (e : EReal))) := by
  have hp : 0 < v + e := add_pos_of_nonneg_of_pos hv he
  rw [← EReal.coe_add, Ideal.rsqrt_coe, if_neg (not_lt.mpr hp.le), if_neg hp.ne']
  exact IsR.coe _

variable (g be : Fin 256 → EReal) (hg : ∀ c, IsR (g c)) (hbe : ∀ c, IsR (be c))

include hx hg hbe in
/-- A normalized entry is a real. -/
theorem lnorm_real (b : Fin 2) (c : Fin 256) (n : Fin 4096) : IsR (lnorm x g be b c n) := by
  obtain ⟨v, hv0, hv⟩ := var_real_nonneg x hx b n
  obtain ⟨e, he0, he⟩ := eps_pos
  unfold lnorm
  rw [hv, he]
  exact (((dev_real x hx b c n).mul (rsqrt_real v e hv0 he0)).mul (hg c)).add (hbe c)

variable (wq : Fin 768 → Fin 256 → EReal) (hwq : ∀ o c, IsR (wq o c))

/-- The two spellings of a projection row agree: each product is commuted. -/
theorem projL_eq_projR (b : Fin 2) (o : Fin 768) (n : Fin 4096) :
    projL x g be wq b o n = projR x g be wq b o n :=
  Finset.sum_congr rfl fun _ _ => mul_comm _ _

include hx hg hbe hwq in
/-- A projection row of real weights against real normalized entries is a real. -/
theorem projR_real (b : Fin 2) (o : Fin 768) (n : Fin 4096) : IsR (projR x g be wq b o n) :=
  IsR.sum _ _ fun c => (lnorm_real x hx g be hg hbe b c n).mul (hwq o c)

end Cert.Attn

end
-- ==== Proof.AlgebraHead.lean ====
/-
  One attention head: DIVIDE LAST equals DIVIDE FIRST at real queries, keys and values.

  The scores of the two arrangements are the same numbers with the factors of each product commuted, so the row
  maxima, the exponentials and the normalizers agree with no hypothesis. At real entries a score is a real, the
  running maximum from ⊥ over the 4096 key tokens is a real, each exponential is a positive real and so is the
  normalizer; dividing the weighted sum of the values by it is then the sum of the normalized weights times the
  values — the one step that fails at the infinities.
-/
import proofs.«164593_j26371099198429_2_alg».proof.Proof.AlgebraConst
import proofs.«164593_j26371099198429_2_alg».proof.Proof.LibAttention

noncomputable section

namespace Cert.Attn

open Idealize.ShloMosaic Cert.LibAttention

variable (q k v : Act)

/-- The same score, factors commuted. -/
theorem score_swap (b : Fin 2) (h : Fin 8) (m n : Fin 4096) : scoreL q k b h m n = scoreR q k b h n m := by
  unfold scoreL scoreR
  exact congrArg (· * scale) (Finset.sum_congr rfl fun _ _ => mul_comm _ _)

theorem smax_eq (b : Fin 2) (h : Fin 8) (n : Fin 4096) : smaxL q k b h n = smaxR q k b h n := by
  simp only [smaxL, smaxR, score_swap]

theorem pexp_eq (b : Fin 2) (h : Fin 8) (m n : Fin 4096) : pexpL q k b h m n = pexpR q k b h n m := by
  simp only [pexpL, pexpR, score_swap, smax_eq]

theorem psum_eq (b : Fin 2) (h : Fin 8) (n : Fin 4096) : psumL q k b h n = psumR q k b h n := by
  simp only [psumL, psumR, pexp_eq]

variable (hq : ∀ b j n, IsR (q b j n)) (hk : ∀ b j n, IsR (k b j n)) (hv : ∀ b j n, IsR (v b j n))

include hq hk in
/-- A score of real queries against real keys is a real. -/
theorem score_real (b : Fin 2) (h : Fin 8) (n m : Fin 4096) : IsR (scoreR q k b h n m) :=
  (IsR.sum _ _ fun d => (hq b (hrow h d) n).mul (hk b (hrow h d) m)).mul scale_isR

include hq hk in
/-- The row maximum, from ⊥, of the 4096 real scores is a real. -/
theorem smax_real (b : Fin 2) (h : Fin 8) (n : Fin 4096) : IsR (smaxR q k b h n) := by
  choose s hs using fun m => (score_real q k hq hk b h n m : ∃ r : ℝ, scoreR q k b h n m = (r : EReal))
  unfold smaxR
  simp only [hs]
  exact fold_max_real s Finset.univ ⟨n, Finset.mem_univ n⟩

include hq hk in
/-- Each unnormalized weight is a positive real. -/
theorem pexp_pos (b : Fin 2) (h : Fin 8) (n m : Fin 4096) : ∃ p : ℝ, 0 < p ∧ pexpR q k b h n m = (p : EReal) := by
  obtain ⟨s, hs⟩ := score_real q k hq hk b h n m
  obtain ⟨M, hM⟩ := smax_real q k hq hk b h n
  exact ⟨Real.exp (s - M), Real.exp_pos _, by rw [pexpR, hs, hM, ← EReal.coe_sub, Ideal.exp_coe]⟩

include hq hk hv in
/-- The weighted sum divided by the normalizer is the sum of the normalized weights times the values. -/
theorem head_eq (b : Fin 2) (h : Fin 8) (d : Fin 32) (n : Fin 4096) : headL q k v b h d n = headR q k v b h d n := by
  choose p hp0 hp using fun m => pexp_pos q k hq hk b h n m
  choose w hw using fun m => (hv b (hrow h d) m : ∃ r : ℝ, v b (hrow h d) m = (r : EReal))
  have e : (∑ m : Fin 4096, (w m : EReal) * (p m : EReal)) = ∑ m : Fin 4096, (p m : EReal) * (w m : EReal) :=
    Finset.sum_congr rfl fun _ _ => mul_comm _ _
  have key := div_sum_eq p w hp0 n
  unfold headL headR psumL psumR
  simp only [pexp_eq, hp, hw]
  rw [e]
  exact key

include hq hk hv in
/-- The stacked heads agree. -/
theorem cat_eq : catL q k v = catR q k v :=
  funext fun b => funext fun j => funext fun n => head_eq q k v hq hk hv b (headOf j) (rowOf j) n

include hq hk hv in
/-- Output projection, bias and residual: the two spellings differ by commuting sums and products. -/
theorem out_eq (xres : Act) (wp : Fin 256 → Fin 256 → EReal) (bp : Fin 256 → EReal) :
    outL q k v xres wp bp = outR q k v xres wp bp := by
  funext b c n
  unfold outL outR
  rw [cat_eq q k v hq hk hv, add_comm]
  exact congrArg (fun s => xres b c n + (s + bp c)) (Finset.sum_congr rfl fun _ _ => mul_comm _ _)

end Cert.Attn

end
-- ==== Proof.AlgebraWhole.lean ====
/-
  The whole function: DIVIDE LAST equals DIVIDE FIRST when every input entry is a real number.

  The projection rows of the two arrangements are equal (commuted products) and are reals, so the queries, keys and
  values fed to the heads are the same real arrays; the heads then agree, and the output lines differ by commuting
  sums and products only. The array forms follow by reading the six arrays entry by entry.
-/
import proofs.«164593_j26371099198429_2_alg».proof.Proof.AlgebraNorm
import proofs.«164593_j26371099198429_2_alg».proof.Proof.AlgebraHead

noncomputable section

namespace Cert.Attn

open Idealize.ShloMosaic

/-- At real inputs the two arrangements of the whole function agree. -/
theorem wholeL_eq_wholeR (x : Act) (g be : Fin 256 → EReal) (wq : Fin 768 → Fin 256 → EReal)
    (wp : Fin 256 → Fin 256 → EReal) (bp : Fin 256 → EReal)
    (hx : ∀ b c n, ∃ r : ℝ, x b c n = (r : EReal)) (hg : ∀ c, ∃ r : ℝ, g c = (r : EReal))
    (hbe : ∀ c, ∃ r : ℝ, be c = (r : EReal)) (hwq : ∀ o c, ∃ r : ℝ, wq o c = (r : EReal))
    (hwp : ∀ c j, ∃ r : ℝ, wp c j = (r : EReal)) (hbp : ∀ c, ∃ r : ℝ, bp c = (r : EReal)) :
    wholeL x g be wq wp bp = wholeR x g be wq wp bp := by
  unfold wholeL wholeR
  simp only [projL_eq_projR]
  exact out_eq _ _ _
    (fun b j n => projR_real x hx g be hg hbe wq hwq b (rowQ j) n)
    (fun b j n => projR_real x hx g be hg hbe wq hwq b (rowK j) n)
    (fun b j n => projR_real x hx g be hg hbe wq hwq b (rowV j) n) x wp bp

/-- The result arrays of the two arrangements agree when every entry of the six arrays is a real. -/
theorem resultL_eq_resultR (x : SImg.Idx → EReal) (g be : SVec.Idx → EReal) (wq : SWq.Idx → EReal)
    (wp : SWp.Idx → EReal) (bp : SVec.Idx → EReal)
    (hx : ∀ i, ∃ r : ℝ, x i = (r : EReal)) (hg : ∀ i, ∃ r : ℝ, g i = (r : EReal))
    (hbe : ∀ i, ∃ r : ℝ, be i = (r : EReal)) (hwq : ∀ i, ∃ r : ℝ, wq i = (r : EReal))
    (hwp : ∀ i, ∃ r : ℝ, wp i = (r : EReal)) (hbp : ∀ i, ∃ r : ℝ, bp i = (r : EReal)) :
    resultL x g be wq wp bp = resultR x g be wq wp bp :=
  congrArg imgOfAct
    (wholeL_eq_wholeR (actOfImg x) (vecFn g) (vecFn be) (wqFn wq) (wpFn wp) (vecFn bp)
      (fun _ _ _ => hx _) (fun _ => hg _) (fun _ => hbe _) (fun _ _ => hwq _) (fun _ _ => hwp _) (fun _ => hbp _))

end Cert.Attn

end
-- ==== Proof.Finite.lean ====
/-
  From the precondition to real numbers. The precondition says, of each of the six argument arrays, that every
  entry's absolute value is below +∞. On the extended reals `max x (−x) < ⊤` rules out both infinities, so every
  entry is (the coercion of) a real number.
-/
import proofs.«164593_j26371099198429_2_alg».proof.Pre_finite_inputs
import proofs.«164593_j26371099198429_2_alg».proof.Proof.Gen.Pre_finite_inputs
import Idealize.ShloMosaic.PureOps.Ideal.Laws
import Idealize.ShloMosaic.Lib.ReduceAll
import Idealize.ShloMosaic.Lib.ValueIdx
import Idealize.ShloMosaic.Lib.Pipeline.Value

noncomputable section

namespace Cert.Finite

open Idealize.ShloMosaic Cert.Pre_finite_inputs

instance : Subsingleton S_.Idx := ⟨fun a b => funext fun d => d.elim0⟩

theorem ofBool_one {b : Bool} : BitVec.ofBool b = 1#1 ↔ b = true := by cases b <;> decide

theorem ofBits_posInf : Ideal.ofBits .f32 0x7F800000#32 = ⊤ := by simp [Ideal.ofBits, Ideal.ieee]

/-- An extended real whose absolute value is below +∞ is a real number. -/
theorem real_of_abs_lt_top {x : EReal} (h : max x (-x) < ⊤) : ∃ r : ℝ, x = (r : EReal) := by
  induction x using EReal.rec with
  | bot => simp at h
  | coe r => exact ⟨r, rfl⟩
  | top => simp at h

/-- One entry's test, read back: the comparison word is 1 only for a real number. -/
theorem real_of_test {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  refine real_of_abs_lt_top ?_
  have h' : Ideal.cmp .olt (max (a i) (-(a i))) (Ideal.ofBits .f32 0x7F800000#32) = 1#1 := h
  rw [ofBits_posInf] at h'
  unfold Ideal.cmp at h'
  have h2 : max (a i) (-(a i)) < ⊤ := by simpa using ofBool_one.1 h'
  exact h2

/-- The precondition's word is 1 only if every entry of all six arrays is a real number. -/
theorem reals_of_pre (a0 : FVec Ideal S2x256x64x64 .f32) (a1 a2 : FVec Ideal S256 .f32) (a3 : FVec Ideal S768x256 .f32)
    (a4 : FVec Ideal S256x256 .f32) (a5 : FVec Ideal S256 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h00, h1⟩ := IntOp.andi_eq_one.1 h01
  exact ⟨fun i => real_of_test a0 _ i (Host.reduce_andi_all _ _ _ _ _ h00 i),
    fun i => real_of_test a1 _ i (Host.reduce_andi_all _ _ _ _ _ h1 i),
    fun i => real_of_test a2 _ i (Host.reduce_andi_all _ _ _ _ _ h2 i),
    fun i => real_of_test a3 _ i (Host.reduce_andi_all _ _ _ _ _ h3 i),
    fun i => real_of_test a4 _ i (Host.reduce_andi_all _ _ _ _ _ h4 i),
    fun i => real_of_test a5 _ i (Host.reduce_andi_all _ _ _ _ _ h5 i)⟩

end Cert.Finite

end
-- ==== Proof.lean ====
/-
  An image [2, 256, 64, 64] is read as 4096 tokens of 256 channels per batch; the tokens are layer-normed over the
  channels, projected to queries, keys and values, mixed by eight heads of softmax attention, projected again, and
  added back to the input with a bias.

  The kernel does this feature-major in two regions — layer norm and the 768 projection rows, tile by tile; then,
  per tile of 512 query tokens, the eight heads against all 4096 key tokens, the output projection, the bias and the
  residual — and divides each head's weighted sum by the softmax normaliser AFTER the sum. The reference works
  token-major, normalises the softmax weights FIRST, and writes each product with its factors in the other order.

  Proof/Spec.lean states both arrangements once over plain index types. The kernel's result array is the first
  (Proof/KernelLaunch.lean names the result of the two-region run; Proof/KernelHost.lean reads the host reshapes;
  Proof/Region0*.lean and Proof/Region1*.lean read each region's blocks back to whole arrays;
  Proof/KernelValue.lean joins them). The reference's result array is the second (Proof/RefRun*.lean: its run ends
  at one pure term of the arguments; Proof/RefRead*.lean, Proof/RefEq.lean: that term, stage by stage, at an index).
  The two arrangements agree when every entry of the six arguments is a real number (Proof/Algebra*.lean: the mean,
  the variance, the reciprocal root of a positive real, the scores, their maximum over a nonempty set, the
  exponentials and their positive sum are then all reals, and a quotient distributes over a finite sum of reals),
  which is what the precondition says (Proof/Finite.lean). The frames of the two kernels are the imported generated
  modules'; the reference's frame is its run with the result dropped; no rewrite was applied when the kernel was
  idealized, so there is nothing to preserve.
-/
import proofs.«164593_j26371099198429_2_alg».proof.Defs
import proofs.«164593_j26371099198429_2_alg».proof.Proof.Gen.Kernel
import proofs.«164593_j26371099198429_2_alg».proof.Proof.Gen.Kernel.Frame
import proofs.«164593_j26371099198429_2_alg».proof.Proof.Gen.KernelIdeal
import proofs.«164593_j26371099198429_2_alg».proof.Proof.Gen.KernelIdeal.Frame
import proofs.«164593_j26371099198429_2_alg».proof.Proof.Gen.ReferenceIdeal
import proofs.«164593_j26371099198429_2_alg».proof.Proof.Gen.Pre_finite_inputs
import proofs.«164593_j26371099198429_2_alg».proof.Proof.KernelLaunch
import proofs.«164593_j26371099198429_2_alg».proof.Proof.KernelValue
import proofs.«164593_j26371099198429_2_alg».proof.Proof.Region1Arr
import proofs.«164593_j26371099198429_2_alg».proof.Proof.RefRun
import proofs.«164593_j26371099198429_2_alg».proof.Proof.RefEq
import proofs.«164593_j26371099198429_2_alg».proof.Proof.AlgebraWhole
import proofs.«164593_j26371099198429_2_alg».proof.Proof.Finite

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run m ρ)

/-- Both runs end with the result buffer at the divide-last arrangement of the kernel's arguments: the kernel's by
    reading its regions back, the reference's because its own divide-first arrangement agrees with it on real
    entries, and the arguments of the two runs agree. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Attn.resultL (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Assembled.result_eq m ρ c Cert.KernelIdeal.Region1.arr6), (h c).2⟩)
      (Cert.KernelIdeal.Launched.run (F := Ideal) m ρ)
  · refine (θ_run Cert.ReferenceIdeal.defs _ _).mono (fun r h c => ⟨(h c).1.trans ?_, (h c).2⟩)
      (Cert.ReferenceIdeal.RefValue.run m' ρ')
    obtain ⟨g0, g1, g2, g3, g4, g5⟩ := hagree c
    rw [g0, g1, g2, g3, g4, g5, Cert.ReferenceIdeal.RefValue.refTerm_eq]
    obtain ⟨r0, r1, r2, r3, r4, r5⟩ := Cert.Finite.reals_of_pre _ _ _ _ _ _ (hpre c)
    exact (Cert.Attn.resultL_eq_resultR _ _ _ _ _ _ r0 r1 r2 r3 r4 r5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
